-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel

variable [Facts]

def fn {F : FTy → Type} [FloatOps F] (main_arg0 : FVec F S8192x16 .f32) (main_arg1 : FVec F S8192x16 .f32) (main_arg2 : FVec F S8192x16 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S8192x16 : Shape := ⟨2, ![8192, 16]⟩
abbrev S2048x16 : Shape := ⟨2, ![2048, 16]⟩
abbrev S1024x16 : Shape := ⟨2, ![1024, 16]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S16x1024 : Shape := ⟨2, ![16, 1024]⟩
abbrev S2048x1024 : Shape := ⟨2, ![2048, 1024]⟩
abbrev S1x1024 : Shape := ⟨2, ![1, 1024]⟩
abbrev S_ : Shape := ⟨0, ![]⟩

abbrev nBuf : Space → Nat
  | .hbm => 15
  | .vmem => 18
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x16, .f32⟩
  | .hbm, ⟨11, _⟩ => ⟨S8192x16, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2048x16, .f32⟩
  | .local _ .vmem, ⟨1, _⟩ => ⟨S2048x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | .local _ .vmem, ⟨14, _⟩ => ⟨S1024x16, .f32⟩
  | .local _ .vmem, ⟨15, _⟩ => ⟨S2048x16, .f32⟩
  | .local _ .vmem, ⟨16, _⟩ => ⟨S2048x16, .f32⟩
  | .local _ .vmem, ⟨17, _⟩ => ⟨S2048x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_17 : BitVec 32 := 0#32
  let v37 : BitVec 1 := Scalar.cmpi .ne v36 c0_i32_17
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1024x16_S1024x16_0_0 : ∀ a, (![0, 0] : Fin 2 → Nat) a + S1024x16.size a ≤ S1024x16.size a
  h_S1024x16 : 0 < S1024x16.numel
  reduces_S2048x16_S2048 : S2048x16.Reduces [1] S2048
  shapeCasts_S2048_S2048x1 : S2048.ShapeCasts S2048x1
  reduces_S1024x16_S1024 : S1024x16.Reduces [1] S1024
  shapeCasts_S1024_S1024x1 : S1024.ShapeCasts S1024x1
  transposes_S1024x16_p1_0_S16x1024 : S1024x16.Transposes [1, 0] S16x1024
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  reducesTo_S8192x16_S_d0_1 : S8192x16.ReducesTo [0, 1] S_
  h_S_ : 0 < S_.numel
  shapeCasts_S1024x16_S1024x16 : S1024x16.ShapeCasts S1024x16
  dot_S2048x16_S16x1024_S2048x1024_1_0_0_1_n_n_wf : DotDims.WF S2048x16 S16x1024 S2048x1024 [1] [0] [0] [1] [] []
  dot_S2048x1024_S1024x16_S2048x16_1_0_0_1_n_n_wf : DotDims.WF S2048x1024 S1024x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S8192x16.size a
  hwx0_0 : ∀ i : grid0.Coords, EltTy.bits .f32 = 32 ∨ (Rect.block (s := S8192x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .f32 = 32 ∨ (Rect.block (s := S8192x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S8192x16.size a
  hwx0_3 : ∀ i : grid0.Coords, EltTy.bits .f32 = 32 ∨ (Rect.block (s := S8192x16) S2048x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x16.size a ≤ S8192x16.size a
  hwx1_0 : ∀ i : grid1.Coords, EltTy.bits .f32 = 32 ∨ (Rect.block (s := S8192x16) S2048x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x16.size a ≤ S8192x16.size a
  hwx1_1 : ∀ i : grid1.Coords, EltTy.bits .f32 = 32 ∨ (Rect.block (s := S8192x16) S1024x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S8192x16.size a
  hwx1_2 : ∀ i : grid1.Coords, EltTy.bits .f32 = 32 ∨ (Rect.block (s := S8192x16) S1024x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S8192x16.size a
  hwx1_3 : ∀ i : grid1.Coords, EltTy.bits .f32 = 32 ∨ (Rect.block (s := S8192x16) S2048x16.size (cc1_transform_3 i) (hinb1_3 i)).WholeWords (EltTy.packing .f32)

variable [Facts₀]

def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S16x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x16, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S16x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S_, .f32⟩
  | .hbm, ⟨58, _⟩ => ⟨S_, .f32⟩
  | .hbm, ⟨59, _⟩ => ⟨S8192x16, .f32⟩
  | .hbm, ⟨60, _⟩ => ⟨S8192x16, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x16_S16x8192_1_0 : S8192x16.Transposes [1, 0] S16x8192
  bcast_S_S8192x8192 : S_.BroadcastsInDim S8192x8192 (![] : Fin 0 → Fin S8192x8192.rank)
  reducesTo_S8192x16_S_d0_1 : S8192x16.ReducesTo [0, 1] S_
  dot_S8192x16_S16x8192_S8192x8192_1_0_0_1_n_n_wf : DotDims.WF S8192x16 S16x8192 S8192x8192 [1] [0] [0] [1] [] []
  dot_S8192x8192_S8192x16_S8192x16_1_0_0_1_n_n_wf : DotDims.WF S8192x8192 S8192x16 S8192x16 [1] [0] [0] [1] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.BodyI0.lean ====
import proofs.«119457_j37203006718368_1_alg».proof.Proof.Gen.KernelIdeal.Launch
import proofs.«119457_j37203006718368_1_alg».proof.Proof.Gen.KernelIdeal.Skeleton
import proofs.«119457_j37203006718368_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! The body of pallas_call 0 at one grid point, as a Hoare triple: from the three input blocks, the output block's
    buffer and the accumulator, it leaves the accumulator at "(zero at the first column block, else what it held) plus this
    tile's contribution" and copies it to the output block at the last column block. -/

namespace Cert.KernelIdeal.Body0
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-block coordinate is the first one: the accumulator is zeroed. -/
abbrev first (i : grid0.Coords) : Prop := (Scalar.cmpi .ne (Scalar.extui (Scalar.cmpi .eq (BitVec.ofNat 32 (i 1).val) 0#32)) 0#32) = 1#1
/-- The column-block coordinate is the last one: the accumulator is copied out. -/
abbrev last (i : grid0.Coords) : Prop := k0_cond2 i = 1#1

theorem hz2 : (![0, 0] : Fin 2 → Nat) = fun _ => 0 := by funext a; fin_cases a <;> rfl

/-- A store through the whole buffer, LAST, is what the buffer then reads as. -/
theorem read_store_whole {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

/-- A load of the whole buffer after a store through the whole buffer reads the stored value. -/
theorem readCov_store_whole {S : Shape} {e : EltTy} (v : View sig .tc .vmem S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The accumulator after the point: this tile's contribution added to what the point starts from. -/
def accStep (i : grid0.Coords) (x0 : Vec F S2048x16 .f32) (x1 x2 : Vec F S1024x16 .f32) (xs : Vec F S2048x16 .f32) : Vec F S2048x16 .f32 :=
  k0_pay2 x0 x1 (if first i then k0_pay1 else xs) x2

theorem accStep_first (i : grid0.Coords) (h : first i) (x0 : Vec F S2048x16 .f32) (x1 x2 : Vec F S1024x16 .f32) (xs : Vec F S2048x16 .f32) :
    accStep i x0 x1 x2 xs = k0_pay2 x0 x1 k0_pay1 x2 := by unfold accStep; rw [if_pos h]
theorem accStep_later (i : grid0.Coords) (h : ¬ first i) (x0 : Vec F S2048x16 .f32) (x1 x2 : Vec F S1024x16 .f32) (xs : Vec F S2048x16 .f32) :
    accStep i x0 x1 x2 xs = k0_pay2 x0 x1 xs x2 := by unfold accStep; rw [if_neg h]

set_option maxHeartbeats 2000000 in
theorem run_later_mid (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k0_pay2 x0 x1 xs x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_mid (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k0_pay2 x0 x1 k0_pay1 x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_later_last (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 xs x2) ∗ owns (c : Thread nD τ) arg6 fullShare (k0_pay2 x0 x1 xs x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_last (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 k0_pay1 x2) ∗ owns (c : Thread nD τ) arg6 fullShare (k0_pay2 x0 x1 k0_pay1 x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

/-- The body at any grid point. -/
theorem run (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last i then accStep i x0 x1 x2 xs else xo) ∗ owns (c : Thread nD τ) arg6 fullShare (accStep i x0 x1 x2 xs)) -∗ K ⟨⟩))
      ⊢ wp frame (wpE (defs₀ (F := F)) Variants.none c none) E (cc0__gram_matmul_kernel i arg2 harg2 arg3 harg3 arg4 harg4 arg5 harg5 arg6 harg6) K := by
  by_cases h1 : first i <;> by_cases h2 : last i
  · simp only [if_pos h2, accStep_first i h1]; exact run_first_last c E i arg2 harg2 arg3 harg3 arg4 harg4 arg5 harg5 arg6 harg6 h1 h2 x0 x1 x2 xo xs K
  · simp only [if_neg h2, accStep_first i h1]; exact run_first_mid c E i arg2 harg2 arg3 harg3 arg4 harg4 arg5 harg5 arg6 harg6 h1 h2 x0 x1 x2 xo xs K
  · simp only [if_pos h2, accStep_later i h1]; exact run_later_last c E i arg2 harg2 arg3 harg3 arg4 harg4 arg5 harg5 arg6 harg6 h1 h2 x0 x1 x2 xo xs K
  · simp only [if_neg h2, accStep_later i h1]; exact run_later_mid c E i arg2 harg2 arg3 harg3 arg4 harg4 arg5 harg5 arg6 harg6 h1 h2 x0 x1 x2 xo xs K

end Cert.KernelIdeal.Body0
end
-- ==== Proof.RegI0.lean ====
import proofs.«119457_j37203006718368_1_alg».proof.Proof.BodyI0
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section

/-! Pallas_call 0 over its 4 x 8 grid, from the contents `V` its region is entered with: what the accumulator holds after
    each grid point (a recursion over the points: within a row block, the tiles' contributions added one column block after
    the other), the pipeline's proof data over it, and the body's obligation at every point. The two windows that read the
    same array hold it at the two halves of the full share. -/

namespace Cert.KernelIdeal.Reg0
open Cert.KernelIdeal Cert.KernelIdeal.Gen Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's closed forms -/

theorem hfirst : ∀ t : Fin cfg0.N, first (grid0.coords t) ↔ t.val % 8 = 0 :=
  (by decide +kernel : ∀ t : Fin grid0.N, first (grid0.coords t) ↔ t.val % 8 = 0)
theorem hlast : ∀ t : Fin cfg0.N, last (grid0.coords t) ↔ t.val % 8 = 7 :=
  (by decide +kernel : ∀ t : Fin grid0.N, last (grid0.coords t) ↔ t.val % 8 = 7)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ last (grid0.coords t) → cfg0.idle 3 (grid0.coords t) = true := by decide +kernel
theorem noFlush3 : ∀ t : Fin cfg0.N, ¬ last (grid0.coords t) → (cfg0.win 3).flush t = false := by decide +kernel
theorem live3 : ∀ t : Fin cfg0.N, last (grid0.coords t) → cfg0.idle 3 (grid0.coords t) = false := by decide +kernel

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, a whole scoped buffer of the kernel's own. -/
abbrev scM : Memref sig .tc .vmem S2048x16 .f32 := Memref.whole cc0_scratch0

/-- THE ACCUMULATION: what the accumulator holds after the body at position `n`. At the first column block of a row block the
    step starts from zero, whatever it is given. -/
def accAt (c : Dev nD) : (n : ℕ) → n < cfg0.N → Vec F S2048x16 .f32
  | 0, hn => accStep (grid0.coords ⟨0, hn⟩) (iblk V c 0 ⟨0, hn⟩) (iblk V c 1 ⟨0, hn⟩) (iblk V c 2 ⟨0, hn⟩) k0_pay1
  | n + 1, hn => accStep (grid0.coords ⟨n + 1, hn⟩) (iblk V c 0 ⟨n + 1, hn⟩) (iblk V c 1 ⟨n + 1, hn⟩) (iblk V c 2 ⟨n + 1, hn⟩) (accAt c n (Nat.lt_of_succ_lt hn))

/-- One step of the accumulation, from ANY start at the very first point and from the previous point's contents later. -/
theorem accAt_step (c : Dev nD) (t : Fin cfg0.N) (xs : Vec F S2048x16 .f32)
    (hxs : ∀ h : t.val ≠ 0, xs = accAt V c (t.val - 1) (Nat.lt_of_le_of_lt (Nat.sub_le _ _) t.isLt)) :
    accStep (grid0.coords t) (iblk V c 0 t) (iblk V c 1 t) (iblk V c 2 t) xs = accAt V c t.val t.isLt := by
  obtain ⟨n, hn⟩ := t
  cases n with
  | zero =>
    have hf : first (grid0.coords ⟨0, hn⟩) := (hfirst ⟨0, hn⟩).mpr (Nat.zero_mod _)
    show _ = accStep _ _ _ _ _
    rw [accStep_first _ hf, accStep_first _ hf]
  | succ n =>
    have := hxs (Nat.succ_ne_zero n)
    subst this
    rfl

/-! ## The invariant: the accumulator between points -/

/-- The core's scoped buffers other than the accumulator and this call's staging buffers, each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA_open (c : Dev nD) :
    (Pipeline.ΦA spec0 c : sProp 𝕄) ⊢ iprop((∃ d, owns (c : Thread nD τ) scM fullShare d) ∗ restS c ∗ (∃ r, prngReg c r)) := by
  unfold Pipeline.ΦA restS; rw [scopedRest0_eq]; simp only [scM, owns_whole]
  iintro ⟨⟨Hs, R1, R2, R3, R4, R5, R6, R7, R8, R9⟩, Hg⟩
  isplitl [Hs]; · iexact Hs
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem PhiA_close (c : Dev nD) :
    iprop((∃ d, owns (c : Thread nD τ) scM fullShare d) ∗ restS c ∗ (∃ r, prngReg c r)) ⊢ (Pipeline.ΦA spec0 c : sProp 𝕄) := by
  unfold Pipeline.ΦA restS; rw [scopedRest0_eq]; simp only [scM, owns_whole]
  iintro ⟨Hs, ⟨R1, R2, R3, R4, R5, R6, R7, R8, R9⟩, Hg⟩
  isplitr [Hg]
  swap; · iexact Hg
  isplitl [Hs]; · iexact Hs
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- The invariant before position `n`: before the first point every scoped buffer at anything; afterwards the accumulator at
    what the point before left. -/
def PhiS (c : Dev nD) : (n : ℕ) → n ≤ cfg0.N → sProp 𝕄
  | 0, _ => Pipeline.ΦA spec0 c
  | n + 1, hn => iprop(owns (c : Thread nD τ) scM fullShare (accAt V c n hn) ∗ restS c ∗ (∃ r, prngReg c r))

theorem PhiS_open (c : Dev nD) (n : ℕ) (h : n ≤ cfg0.N) :
    PhiS V c n h ⊢ iprop(∃ xs, ⌜∀ hz : n ≠ 0, xs = accAt V c (n - 1) (Nat.lt_of_lt_of_le (Nat.sub_one_lt hz) h)⌝
      ∗ owns (c : Thread nD τ) scM fullShare xs ∗ restS c ∗ (∃ r, prngReg c r)) := by
  cases n with
  | zero =>
    refine (show PhiS V c 0 h ⊢ _ from PhiA_open c).trans ?_
    iintro ⟨⟨%d, Hs⟩, Hr, Hg⟩
    iexists d; isplitr; · ipureintro; intro hz; exact absurd rfl hz
    isplitl [Hs]; · iexact Hs
    isplitl [Hr]; · iexact Hr
    iexact Hg
  | succ n =>
    show iprop(owns (c : Thread nD τ) scM fullShare (accAt V c n h) ∗ restS c ∗ (∃ r, prngReg c r)) ⊢ _
    iintro ⟨Hs, Hr, Hg⟩
    iexists (accAt V c n h); isplitr; · ipureintro; intro _; rfl
    isplitl [Hs]; · iexact Hs
    isplitl [Hr]; · iexact Hr
    iexact Hg

theorem PhiS_close (c : Dev nD) (n : ℕ) (h : n ≤ cfg0.N) : PhiS V c n h ⊢ (Pipeline.ΦA spec0 c : sProp 𝕄) := by
  cases n with
  | zero => exact .rfl
  | succ n =>
    refine (show PhiS V c (n + 1) h ⊢ iprop((∃ d, owns (c : Thread nD τ) scM fullShare d) ∗ restS c ∗ (∃ r, prngReg c r)) from ?_).trans (PhiA_close c)
    show iprop(owns (c : Thread nD τ) scM fullShare (accAt V c n h) ∗ restS c ∗ (∃ r, prngReg c r)) ⊢ _
    iintro ⟨Hs, Hr, Hg⟩
    isplitl [Hs]; · iexists _; iexact Hs
    isplitl [Hr]; · iexact Hr
    iexact Hg

/-! ## The pipeline's proof data -/

/-- The proof data on core `c`: the arrays as the region finds them; after the body at point `t` each input's buffer at its
    block and the output's at the accumulator's contents (read only at the last column block of each row block, where the body
    copies it there); the invariant above; nothing owed; the array the first two windows both read held at the two halves of the
    full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = accAt V c t.val t.isLt := by dsimp only [dat]

/-- Each input's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 1600000 in
/-- The body at any point: the inputs' buffers hold their blocks; the invariant hands over the accumulator (at the point
    before's contents, or at anything at the very first point, where the step does not read it); the body's triple applies; the
    accumulator goes back at this point's contents, the output's buffer at them where the point copies it out and untouched
    elsewhere. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = iprop(owns (c : Thread nD τ) scM fullShare (accAt V c t.val t.isLt) ∗ restS c ∗ (∃ r, prngReg c r)) from rfl]
  rw [show (dat V c).leavesExact 0 t = owns (c : Thread nD τ) (st0_0 t) fullShare ((dat V c).after 0 t) from by
      unfold Dat.leavesExact; rw [live0 t], after0]
  rw [show (dat V c).leavesExact 1 t = owns (c : Thread nD τ) (st0_1 t) fullShare ((dat V c).after 1 t) from by
      unfold Dat.leavesExact; rw [live1 t], after1]
  rw [show (dat V c).leavesExact 2 t = owns (c : Thread nD τ) (st0_2 t) fullShare ((dat V c).after 2 t) from by
      unfold Dat.leavesExact; rw [live2 t], after2]
  refine (sep_mono (show (dat V c).Φ t.castSucc ⊢ _ from PhiS_open V c t.val (Nat.le_of_lt t.isLt)) .rfl).trans ?_
  iintro ⟨⟨%xs, %hxs, HS, Hr, Hg⟩, Ho, ⟨%d0, H0⟩, ⟨%d1, H1⟩, ⟨%d2, H2⟩, ⟨%d3, H3⟩⟩
  have hacc := accAt_step V c t xs hxs
  iapply (Body0.run c Set.univ (grid0.coords t) _ _ _ _ _ _ _ _ scM (Memref.isWhole_whole _) (iblk V c 0 t) (iblk V c 1 t) (iblk V c 2 t) ((dat V c).before 3 t d3) xs _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  by_cases hl : last (grid0.coords t)
  · rw [show (dat V c).leavesExact 3 t = owns (c : Thread nD τ) (st0_3 t) fullShare ((dat V c).after 3 t) from by
      unfold Dat.leavesExact; rw [live3 t hl], after3, if_pos hl]
    iexact H3
  · rw [Dat.leavesExact_idle (dat V c) 3 t (idle3 t hl) (noFlush3 t hl), if_neg hl]
    iexists d3; iexact H3

/-- The library's body obligation, at every point. -/
theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := .rfl

theorem hout (c : Dev nD) : (dat V c).Φ (Fin.last cfg0.N) ⊢ (Pipeline.ΦA spec0 c : sProp 𝕄) :=
  (show (dat V c).Φ (Fin.last cfg0.N) ⊢ _ from PhiS_close V c (Fin.last cfg0.N).val (Nat.le_of_lt_succ (Fin.last cfg0.N).isLt))

/-! ## The arrays at the region's ends

The core's unscoped buffers at contents `V` are the windows' arrays and the rest; the array the first two windows both read is
split into the two halves of its full share on the way in and joined again on the way out; the result's array comes back at what
the write-backs left. -/

theorem entry (c : Dev nD) :
    (unscopedBufs c (V c) : sProp 𝕄) ⊢ iprop((dat V c).arrays ((dat V c).arrAt · 0) ∗ Pipeline.unscopedRest spec0 c (V c)) := by
  rw [Pipeline.unscopedBufs_split₀ cfgs (0 : Fin 2) winFacts₀0.arr_unscoped c (V c)]
  refine sep_mono ?_ .rfl
  unfold Pipeline.arrBufs Dat.arrays
  rw [bigSep_eq_bigSepL_of_eq [main_arg0, main_arg2, main_v0] (by decide) (by decide), bigSep_W0]
  simp only [bigSepL_cons_cons, bigSepL_singleton]
  rw [(arr_whole0 0).set_eq_univ, (arr_whole0 2).set_eq_univ, (arr_whole0 3).set_eq_univ]
  refine (show iprop((((c : Thread nD τ).loc main_arg0) ↦{fullShare} V c main_arg0) ∗ (((c : Thread nD τ).loc main_arg2) ↦{fullShare} V c main_arg2) ∗ (((c : Thread nD τ).loc main_v0) ↦{fullShare} V c main_v0)) ⊢ _ from ?_)
  iintro ⟨H0, H2, H3⟩
  ihave HH := (pointsTo_share (PosShare.mem_left_op_right fullShare)).1 $$ H0
  icases HH with ⟨H0l, H0r⟩
  isplitl [H0l]; · iexact H0l
  isplitl [H0r]; · iexact H0r
  isplitl [H2]; · iexact H2
  iexact H3

theorem exit (c : Dev nD) (V' : (b : Ref sig .tc) → Buf (Elt F) ((c : Thread nD τ).loc b))
    (h3 : V' main_v0 = (dat V c).arrAt 3 cfg0.N) (hne : ∀ b, b ≠ main_v0 → V' b = V c b) :
    iprop((dat V c).arrays ((dat V c).arrAt · cfg0.N) ∗ Pipeline.unscopedRest spec0 c (V c)) ⊢ (unscopedBufs c V' : sProp 𝕄) := by
  rw [Pipeline.unscopedBufs_split₀ cfgs (0 : Fin 2) winFacts₀0.arr_unscoped c V']
  refine sep_mono ?_ (Entails.of_eq ?_)
  · unfold Pipeline.arrBufs Dat.arrays
    rw [bigSep_eq_bigSepL_of_eq [main_arg0, main_arg2, main_v0] (by decide) (by decide), bigSep_W0]
    simp only [bigSepL_cons_cons, bigSepL_singleton]
    rw [(arr_whole0 0).set_eq_univ, (arr_whole0 2).set_eq_univ, (arr_whole0 3).set_eq_univ]
    rw [(dat V c).arrAt_in 0 rfl _, (dat V c).arrAt_in 1 rfl _, (dat V c).arrAt_in 2 rfl _]
    rw [hne main_arg0 (by decide), hne main_arg2 (by decide), h3]
    refine (show _ ⊢ iprop((((c : Thread nD τ).loc main_arg0) ↦{fullShare} V c main_arg0) ∗ (((c : Thread nD τ).loc main_arg2) ↦{fullShare} V c main_arg2) ∗ (((c : Thread nD τ).loc main_v0) ↦{fullShare} (dat V c).arrAt 3 cfg0.N)) from ?_)
    iintro ⟨H0l, H0r, H2, H3⟩
    ihave H0 := (pointsTo_share (PosShare.mem_left_op_right fullShare)).2 $$ [H0l H0r]
    · isplitl [H0l]; · iexact H0l
      iexact H0r
    isplitl [H0]; · iexact H0
    isplitl [H2]; · iexact H2
    iexact H3
  · unfold Pipeline.unscopedRest
    exact bigSep_congr fun b hb => by
      rw [hne b (fun e => (Finset.mem_sdiff.mp hb).2 (e ▸ Finset.mem_image.mpr ⟨3, Finset.mem_univ _, rfl⟩))]

end Cert.KernelIdeal.Reg0
end
-- ==== Proof.BodyI1.lean ====
import proofs.«119457_j37203006718368_1_alg».proof.Proof.Gen.KernelIdeal.Launch
import proofs.«119457_j37203006718368_1_alg».proof.Proof.Gen.KernelIdeal.Skeleton
import proofs.«119457_j37203006718368_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! The body of pallas_call 1 at one grid point, as a Hoare triple: from the three input blocks, the output block's
    buffer and the accumulator, it leaves the accumulator at "(zero at the first column block, else what it held) plus this
    tile's contribution" and copies it to the output block at the last column block. -/

namespace Cert.KernelIdeal.Body1
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-block coordinate is the first one: the accumulator is zeroed. -/
abbrev first (i : grid1.Coords) : Prop := (Scalar.cmpi .ne (Scalar.extui (Scalar.cmpi .eq (BitVec.ofNat 32 (i 1).val) 0#32)) 0#32) = 1#1
/-- The column-block coordinate is the last one: the accumulator is copied out. -/
abbrev last (i : grid1.Coords) : Prop := k1_cond2 i = 1#1

theorem hz2 : (![0, 0] : Fin 2 → Nat) = fun _ => 0 := by funext a; fin_cases a <;> rfl

/-- A store through the whole buffer, LAST, is what the buffer then reads as. -/
theorem read_store_whole {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

/-- A load of the whole buffer after a store through the whole buffer reads the stored value. -/
theorem readCov_store_whole {S : Shape} {e : EltTy} (v : View sig .tc .vmem S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The accumulator after the point: this tile's contribution added to what the point starts from. -/
def accStep (i : grid1.Coords) (x0 : Vec F S2048x16 .f32) (x1 x2 : Vec F S1024x16 .f32) (xs : Vec F S2048x16 .f32) : Vec F S2048x16 .f32 :=
  k1_pay2 x0 x1 (if first i then k1_pay1 else xs) x2

theorem accStep_first (i : grid1.Coords) (h : first i) (x0 : Vec F S2048x16 .f32) (x1 x2 : Vec F S1024x16 .f32) (xs : Vec F S2048x16 .f32) :
    accStep i x0 x1 x2 xs = k1_pay2 x0 x1 k1_pay1 x2 := by unfold accStep; rw [if_pos h]
theorem accStep_later (i : grid1.Coords) (h : ¬ first i) (x0 : Vec F S2048x16 .f32) (x1 x2 : Vec F S1024x16 .f32) (xs : Vec F S2048x16 .f32) :
    accStep i x0 x1 x2 xs = k1_pay2 x0 x1 xs x2 := by unfold accStep; rw [if_neg h]

set_option maxHeartbeats 2000000 in
theorem run_later_mid (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k1_pay2 x0 x1 xs x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_mid (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k1_pay2 x0 x1 k1_pay1 x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_later_last (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 xs x2) ∗ owns (c : Thread nD τ) arg6 fullShare (k1_pay2 x0 x1 xs x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_last (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 k1_pay1 x2) ∗ owns (c : Thread nD τ) arg6 fullShare (k1_pay2 x0 x1 k1_pay1 x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

/-- The body at any grid point. -/
theorem run (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last i then accStep i x0 x1 x2 xs else xo) ∗ owns (c : Thread nD τ) arg6 fullShare (accStep i x0 x1 x2 xs)) -∗ K ⟨⟩))
      ⊢ wp frame (wpE (defs₀ (F := F)) Variants.none c none) E (cc1__gram_matmul_kernel i arg2 harg2 arg3 harg3 arg4 harg4 arg5 harg5 arg6 harg6) K := by
  by_cases h1 : first i <;> by_cases h2 : last i
  · simp only [if_pos h2, accStep_first i h1]; exact run_first_last c E i arg2 harg2 arg3 harg3 arg4 harg4 arg5 harg5 arg6 harg6 h1 h2 x0 x1 x2 xo xs K
  · simp only [if_neg h2, accStep_first i h1]; exact run_first_mid c E i arg2 harg2 arg3 harg3 arg4 harg4 arg5 harg5 arg6 harg6 h1 h2 x0 x1 x2 xo xs K
  · simp only [if_pos h2, accStep_later i h1]; exact run_later_last c E i arg2 harg2 arg3 harg3 arg4 harg4 arg5 harg5 arg6 harg6 h1 h2 x0 x1 x2 xo xs K
  · simp only [if_neg h2, accStep_later i h1]; exact run_later_mid c E i arg2 harg2 arg3 harg3 arg4 harg4 arg5 harg5 arg6 harg6 h1 h2 x0 x1 x2 xo xs K

end Cert.KernelIdeal.Body1
end
-- ==== Proof.RegI1.lean ====
import proofs.«119457_j37203006718368_1_alg».proof.Proof.BodyI1
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section

/-! Pallas_call 1 over its 4 x 8 grid, from the contents `V` its region is entered with: what the accumulator holds after
    each grid point (a recursion over the points: within a row block, the tiles' contributions added one column block after
    the other), the pipeline's proof data over it, and the body's obligation at every point. The two windows that read the
    same array hold it at the two halves of the full share. -/

namespace Cert.KernelIdeal.Reg1
open Cert.KernelIdeal Cert.KernelIdeal.Gen Cert.KernelIdeal.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's closed forms -/

theorem hfirst : ∀ t : Fin cfg1.N, first (grid1.coords t) ↔ t.val % 8 = 0 :=
  (by decide +kernel : ∀ t : Fin grid1.N, first (grid1.coords t) ↔ t.val % 8 = 0)
theorem hlast : ∀ t : Fin cfg1.N, last (grid1.coords t) ↔ t.val % 8 = 7 :=
  (by decide +kernel : ∀ t : Fin grid1.N, last (grid1.coords t) ↔ t.val % 8 = 7)
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬ last (grid1.coords t) → cfg1.idle 3 (grid1.coords t) = true := by decide +kernel
theorem noFlush3 : ∀ t : Fin cfg1.N, ¬ last (grid1.coords t) → (cfg1.win 3).flush t = false := by decide +kernel
theorem live3 : ∀ t : Fin cfg1.N, last (grid1.coords t) → cfg1.idle 3 (grid1.coords t) = false := by decide +kernel

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the kernel's own. -/
abbrev scM : Memref sig .tc .vmem S2048x16 .f32 := Memref.whole cc1_scratch0

/-- THE ACCUMULATION: what the accumulator holds after the body at position `n`. At the first column block of a row block the
    step starts from zero, whatever it is given. -/
def accAt (c : Dev nD) : (n : ℕ) → n < cfg1.N → Vec F S2048x16 .f32
  | 0, hn => accStep (grid1.coords ⟨0, hn⟩) (iblk V c 0 ⟨0, hn⟩) (iblk V c 1 ⟨0, hn⟩) (iblk V c 2 ⟨0, hn⟩) k1_pay1
  | n + 1, hn => accStep (grid1.coords ⟨n + 1, hn⟩) (iblk V c 0 ⟨n + 1, hn⟩) (iblk V c 1 ⟨n + 1, hn⟩) (iblk V c 2 ⟨n + 1, hn⟩) (accAt c n (Nat.lt_of_succ_lt hn))

/-- One step of the accumulation, from ANY start at the very first point and from the previous point's contents later. -/
theorem accAt_step (c : Dev nD) (t : Fin cfg1.N) (xs : Vec F S2048x16 .f32)
    (hxs : ∀ h : t.val ≠ 0, xs = accAt V c (t.val - 1) (Nat.lt_of_le_of_lt (Nat.sub_le _ _) t.isLt)) :
    accStep (grid1.coords t) (iblk V c 0 t) (iblk V c 1 t) (iblk V c 2 t) xs = accAt V c t.val t.isLt := by
  obtain ⟨n, hn⟩ := t
  cases n with
  | zero =>
    have hf : first (grid1.coords ⟨0, hn⟩) := (hfirst ⟨0, hn⟩).mpr (Nat.zero_mod _)
    show _ = accStep _ _ _ _ _
    rw [accStep_first _ hf, accStep_first _ hf]
  | succ n =>
    have := hxs (Nat.succ_ne_zero n)
    subst this
    rfl

/-! ## The invariant: the accumulator between points -/

/-- The core's scoped buffers other than the accumulator and this call's staging buffers, each at some contents. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA_open (c : Dev nD) :
    (Pipeline.ΦA spec1 c : sProp 𝕄) ⊢ iprop((∃ d, owns (c : Thread nD τ) scM fullShare d) ∗ restS c ∗ (∃ r, prngReg c r)) := by
  unfold Pipeline.ΦA restS; rw [scopedRest1_eq]; simp only [scM, owns_whole]
  iintro ⟨⟨R1, R2, R3, R4, R5, R6, R7, R8, R9, Hs⟩, Hg⟩
  isplitl [Hs]; · iexact Hs
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem PhiA_close (c : Dev nD) :
    iprop((∃ d, owns (c : Thread nD τ) scM fullShare d) ∗ restS c ∗ (∃ r, prngReg c r)) ⊢ (Pipeline.ΦA spec1 c : sProp 𝕄) := by
  unfold Pipeline.ΦA restS; rw [scopedRest1_eq]; simp only [scM, owns_whole]
  iintro ⟨Hs, ⟨R1, R2, R3, R4, R5, R6, R7, R8, R9⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Hs

/-- The invariant before position `n`: before the first point every scoped buffer at anything; afterwards the accumulator at
    what the point before left. -/
def PhiS (c : Dev nD) : (n : ℕ) → n ≤ cfg1.N → sProp 𝕄
  | 0, _ => Pipeline.ΦA spec1 c
  | n + 1, hn => iprop(owns (c : Thread nD τ) scM fullShare (accAt V c n hn) ∗ restS c ∗ (∃ r, prngReg c r))

theorem PhiS_open (c : Dev nD) (n : ℕ) (h : n ≤ cfg1.N) :
    PhiS V c n h ⊢ iprop(∃ xs, ⌜∀ hz : n ≠ 0, xs = accAt V c (n - 1) (Nat.lt_of_lt_of_le (Nat.sub_one_lt hz) h)⌝
      ∗ owns (c : Thread nD τ) scM fullShare xs ∗ restS c ∗ (∃ r, prngReg c r)) := by
  cases n with
  | zero =>
    refine (show PhiS V c 0 h ⊢ _ from PhiA_open c).trans ?_
    iintro ⟨⟨%d, Hs⟩, Hr, Hg⟩
    iexists d; isplitr; · ipureintro; intro hz; exact absurd rfl hz
    isplitl [Hs]; · iexact Hs
    isplitl [Hr]; · iexact Hr
    iexact Hg
  | succ n =>
    show iprop(owns (c : Thread nD τ) scM fullShare (accAt V c n h) ∗ restS c ∗ (∃ r, prngReg c r)) ⊢ _
    iintro ⟨Hs, Hr, Hg⟩
    iexists (accAt V c n h); isplitr; · ipureintro; intro _; rfl
    isplitl [Hs]; · iexact Hs
    isplitl [Hr]; · iexact Hr
    iexact Hg

theorem PhiS_close (c : Dev nD) (n : ℕ) (h : n ≤ cfg1.N) : PhiS V c n h ⊢ (Pipeline.ΦA spec1 c : sProp 𝕄) := by
  cases n with
  | zero => exact .rfl
  | succ n =>
    refine (show PhiS V c (n + 1) h ⊢ iprop((∃ d, owns (c : Thread nD τ) scM fullShare d) ∗ restS c ∗ (∃ r, prngReg c r)) from ?_).trans (PhiA_close c)
    show iprop(owns (c : Thread nD τ) scM fullShare (accAt V c n h) ∗ restS c ∗ (∃ r, prngReg c r)) ⊢ _
    iintro ⟨Hs, Hr, Hg⟩
    isplitl [Hs]; · iexists _; iexact Hs
    isplitl [Hr]; · iexact Hr
    iexact Hg

/-! ## The pipeline's proof data -/

/-- The proof data on core `c`: the arrays as the region finds them; after the body at point `t` each input's buffer at its
    block and the output's at the accumulator's contents (read only at the last column block of each row block, where the body
    copies it there); the invariant above; nothing owed; the array the first two windows both read held at the two halves of the
    full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = accAt V c t.val t.isLt := by dsimp only [dat]

/-- Each input's current staging buffer holds its block at every point, fetched there or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 1600000 in
/-- The body at any point: the inputs' buffers hold their blocks; the invariant hands over the accumulator (at the point
    before's contents, or at anything at the very first point, where the step does not read it); the body's triple applies; the
    accumulator goes back at this point's contents, the output's buffer at them where the point copies it out and untouched
    elsewhere. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = iprop(owns (c : Thread nD τ) scM fullShare (accAt V c t.val t.isLt) ∗ restS c ∗ (∃ r, prngReg c r)) from rfl]
  rw [show (dat V c).leavesExact 0 t = owns (c : Thread nD τ) (st1_0 t) fullShare ((dat V c).after 0 t) from by
      unfold Dat.leavesExact; rw [live0 t], after0]
  rw [show (dat V c).leavesExact 1 t = owns (c : Thread nD τ) (st1_1 t) fullShare ((dat V c).after 1 t) from by
      unfold Dat.leavesExact; rw [live1 t], after1]
  rw [show (dat V c).leavesExact 2 t = owns (c : Thread nD τ) (st1_2 t) fullShare ((dat V c).after 2 t) from by
      unfold Dat.leavesExact; rw [live2 t], after2]
  refine (sep_mono (show (dat V c).Φ t.castSucc ⊢ _ from PhiS_open V c t.val (Nat.le_of_lt t.isLt)) .rfl).trans ?_
  iintro ⟨⟨%xs, %hxs, HS, Hr, Hg⟩, Ho, ⟨%d0, H0⟩, ⟨%d1, H1⟩, ⟨%d2, H2⟩, ⟨%d3, H3⟩⟩
  have hacc := accAt_step V c t xs hxs
  iapply (Body1.run c Set.univ (grid1.coords t) _ _ _ _ _ _ _ _ scM (Memref.isWhole_whole _) (iblk V c 0 t) (iblk V c 1 t) (iblk V c 2 t) ((dat V c).before 3 t d3) xs _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  by_cases hl : last (grid1.coords t)
  · rw [show (dat V c).leavesExact 3 t = owns (c : Thread nD τ) (st1_3 t) fullShare ((dat V c).after 3 t) from by
      unfold Dat.leavesExact; rw [live3 t hl], after3, if_pos hl]
    iexact H3
  · rw [Dat.leavesExact_idle (dat V c) 3 t (idle3 t hl) (noFlush3 t hl), if_neg hl]
    iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ (Pipeline.ΦA spec1 c : sProp 𝕄) :=
  (show (dat V c).Φ (Fin.last cfg1.N) ⊢ _ from PhiS_close V c (Fin.last cfg1.N).val (Nat.le_of_lt_succ (Fin.last cfg1.N).isLt))

/-! ## The arrays at the region's ends

The core's unscoped buffers at contents `V` are the windows' arrays and the rest; the array the first two windows both read is
split into the two halves of its full share on the way in and joined again on the way out; the result's array comes back at what
the write-backs left. -/

theorem entry (c : Dev nD) :
    (unscopedBufs c (V c) : sProp 𝕄) ⊢ iprop((dat V c).arrays ((dat V c).arrAt · 0) ∗ Pipeline.unscopedRest spec1 c (V c)) := by
  rw [Pipeline.unscopedBufs_split₀ cfgs (1 : Fin 2) winFacts₀1.arr_unscoped c (V c)]
  refine sep_mono ?_ .rfl
  unfold Pipeline.arrBufs Dat.arrays
  rw [bigSep_eq_bigSepL_of_eq [main_arg0, main_v1, main_v5] (by decide) (by decide), bigSep_W1]
  simp only [bigSepL_cons_cons, bigSepL_singleton]
  rw [(arr_whole1 0).set_eq_univ, (arr_whole1 2).set_eq_univ, (arr_whole1 3).set_eq_univ]
  refine (show iprop((((c : Thread nD τ).loc main_arg0) ↦{fullShare} V c main_arg0) ∗ (((c : Thread nD τ).loc main_v1) ↦{fullShare} V c main_v1) ∗ (((c : Thread nD τ).loc main_v5) ↦{fullShare} V c main_v5)) ⊢ _ from ?_)
  iintro ⟨H0, H2, H3⟩
  ihave HH := (pointsTo_share (PosShare.mem_left_op_right fullShare)).1 $$ H0
  icases HH with ⟨H0l, H0r⟩
  isplitl [H0l]; · iexact H0l
  isplitl [H0r]; · iexact H0r
  isplitl [H2]; · iexact H2
  iexact H3

theorem exit (c : Dev nD) (V' : (b : Ref sig .tc) → Buf (Elt F) ((c : Thread nD τ).loc b))
    (h3 : V' main_v5 = (dat V c).arrAt 3 cfg1.N) (hne : ∀ b, b ≠ main_v5 → V' b = V c b) :
    iprop((dat V c).arrays ((dat V c).arrAt · cfg1.N) ∗ Pipeline.unscopedRest spec1 c (V c)) ⊢ (unscopedBufs c V' : sProp 𝕄) := by
  rw [Pipeline.unscopedBufs_split₀ cfgs (1 : Fin 2) winFacts₀1.arr_unscoped c V']
  refine sep_mono ?_ (Entails.of_eq ?_)
  · unfold Pipeline.arrBufs Dat.arrays
    rw [bigSep_eq_bigSepL_of_eq [main_arg0, main_v1, main_v5] (by decide) (by decide), bigSep_W1]
    simp only [bigSepL_cons_cons, bigSepL_singleton]
    rw [(arr_whole1 0).set_eq_univ, (arr_whole1 2).set_eq_univ, (arr_whole1 3).set_eq_univ]
    rw [(dat V c).arrAt_in 0 rfl _, (dat V c).arrAt_in 1 rfl _, (dat V c).arrAt_in 2 rfl _]
    rw [hne main_arg0 (by decide), hne main_v1 (by decide), h3]
    refine (show _ ⊢ iprop((((c : Thread nD τ).loc main_arg0) ↦{fullShare} V c main_arg0) ∗ (((c : Thread nD τ).loc main_v1) ↦{fullShare} V c main_v1) ∗ (((c : Thread nD τ).loc main_v5) ↦{fullShare} (dat V c).arrAt 3 cfg1.N)) from ?_)
    iintro ⟨H0l, H0r, H2, H3⟩
    ihave H0 := (pointsTo_share (PosShare.mem_left_op_right fullShare)).2 $$ [H0l H0r]
    · isplitl [H0l]; · iexact H0l
      iexact H0r
    isplitl [H0]; · iexact H0
    isplitl [H2]; · iexact H2
    iexact H3
  · unfold Pipeline.unscopedRest
    exact bigSep_congr fun b hb => by
      rw [hne b (fun e => (Finset.mem_sdiff.mp hb).2 (e ▸ Finset.mem_image.mpr ⟨3, Finset.mem_univ _, rfl⟩))]

end Cert.KernelIdeal.Reg1
end
-- ==== Proof.RunDefsI.lean ====
import proofs.«119457_j37203006718368_1_alg».proof.Proof.RegI0
import proofs.«119457_j37203006718368_1_alg».proof.Proof.RegI1
import proofs.«119457_j37203006718368_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! The contents of every unscoped buffer at the boundaries between @main's four segments — pallas_call 0, the host operations
    between the calls, pallas_call 1, the host operations after it — as a fold from the launch memory. -/

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- What pallas_call 0 leaves in its result's array. -/
def out0 (c : Dev nD) : Buf (Elt F) ((c : Thread nD τ).loc main_v0) := (Reg0.dat (V0 m) c).arrAt 3 cfg0.N
/-- After pallas_call 0. -/
def W1 (c : Dev nD) : Valuation τ sig (Elt F) := Function.update (W0 m c) main_v0 (out0 m c)
abbrev V1 : (c : Dev nD) → (b : Ref sig .tc) → Buf (Elt F) ((c : Thread nD τ).loc b) := fun c b => W1 m c b
/-- After the host operations between the calls. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- What pallas_call 1 leaves in its result's array. -/
def out1 (c : Dev nD) : Buf (Elt F) ((c : Thread nD τ).loc main_v5) := (Reg1.dat (V2 m) c).arrAt 3 cfg1.N
/-- After pallas_call 1. -/
def W3 (c : Dev nD) : Valuation τ sig (Elt F) := Function.update (W2 m c) main_v5 (out1 m c)
abbrev V3 : (c : Dev nD) → (b : Ref sig .tc) → Buf (Elt F) ((c : Thread nD τ).loc b) := fun c b => W3 m c b
/-- At the end. -/
abbrev W4 : Dev nD → Valuation τ sig (Elt F) := fun c => StableHlo.after hostOps2 (W3 m c)

end Cert.KernelIdeal.Run
end
-- ==== Proof.RunI.lean ====
import proofs.«119457_j37203006718368_1_alg».proof.Proof.RunDefsI
import proofs.«119457_j37203006718368_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! @main as four segments — pallas_call 0, the host operations between the calls, pallas_call 1, the host operations after it —
    run from the launch memory: every weakly fair execution terminates, and every unscoped buffer ends at the contents the
    segments' fold computes: the launch contents, the first call's result in its array, the host operations applied, the second
    call's result in its array, the last host operations applied. -/

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (V0 m) c
  | ⟨1, _⟩ => fun c => Reg1.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Pallas_call 0 as a segment of @main over the thread state "every unscoped buffer at the boundary's contents, the generator
    register at some state, nothing owed": its arrays split out of the unscoped buffers on the way in and put back, the result's
    at what the write-backs left, on the way out. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Reg0.entry (V0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ _ from Reg0.hout (V0 m) c).trans ?_
    unfold Pipeline.ΦA
    iintro ⟨Hr, Hp⟩
    isplitl [Hp]; · iexact Hp
    isplitr; · iempintro
    iexact Hr
  hexit c := by
    have hjoin := Reg0.exit (V0 m) c (V1 m c) (Function.update_self ..)
      (fun b hb => Function.update_of_ne (StableHlo.devRef_ne_of_ne hb : (Proc.devRef .tc b : DevRef τ sig) ≠ Proc.devRef .tc main_v0) _ _)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas_call 1 as a segment of @main over the thread state "every unscoped buffer at the boundary's contents, the generator
    register at some state, nothing owed": its arrays split out of the unscoped buffers on the way in and put back, the result's
    at what the write-backs left, on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Reg1.entry (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ _ from Reg1.hout (V2 m) c).trans ?_
    unfold Pipeline.ΦA
    iintro ⟨Hr, Hp⟩
    isplitl [Hp]; · iexact Hp
    isplitr; · iempintro
    iexact Hr
  hexit c := by
    have hjoin := Reg1.exit (V2 m) c (V3 m c) (Function.update_self ..)
      (fun b hb => Function.update_of_ne (StableHlo.devRef_ne_of_ne hb : (Proc.devRef .tc b : DevRef τ sig) ≠ Proc.devRef .tc main_v5) _ _)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show iprop(StableHlo.held (c : Thread nD τ) (Pipeline.ucRefs τ sig) (W4 m c) ∗ R c) ⊢ iprop(Tₙ m c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Run
end
-- ==== Proof.BodyK0.lean ====
import proofs.«119457_j37203006718368_1_alg».proof.Proof.Gen.Kernel.Launch
import proofs.«119457_j37203006718368_1_alg».proof.Proof.Gen.Kernel.Skeleton
import proofs.«119457_j37203006718368_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! The body of pallas_call 0 at one grid point, as a Hoare triple: from the three input blocks, the output block's
    buffer and the accumulator, it leaves the accumulator at "(zero at the first column block, else what it held) plus this
    tile's contribution" and copies it to the output block at the last column block. -/

namespace Cert.Kernel.Body0
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-block coordinate is the first one: the accumulator is zeroed. -/
abbrev first (i : grid0.Coords) : Prop := (Scalar.cmpi .ne (Scalar.extui (Scalar.cmpi .eq (BitVec.ofNat 32 (i 1).val) 0#32)) 0#32) = 1#1
/-- The column-block coordinate is the last one: the accumulator is copied out. -/
abbrev last (i : grid0.Coords) : Prop := k0_cond2 i = 1#1

theorem hz2 : (![0, 0] : Fin 2 → Nat) = fun _ => 0 := by funext a; fin_cases a <;> rfl

/-- A store through the whole buffer, LAST, is what the buffer then reads as. -/
theorem read_store_whole {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

/-- A load of the whole buffer after a store through the whole buffer reads the stored value. -/
theorem readCov_store_whole {S : Shape} {e : EltTy} (v : View sig .tc .vmem S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The accumulator after the point: this tile's contribution added to what the point starts from. -/
def accStep (i : grid0.Coords) (x0 : Vec F S2048x16 .f32) (x1 x2 : Vec F S1024x16 .f32) (xs : Vec F S2048x16 .f32) : Vec F S2048x16 .f32 :=
  k0_pay2 x0 x1 (if first i then k0_pay1 else xs) x2

theorem accStep_first (i : grid0.Coords) (h : first i) (x0 : Vec F S2048x16 .f32) (x1 x2 : Vec F S1024x16 .f32) (xs : Vec F S2048x16 .f32) :
    accStep i x0 x1 x2 xs = k0_pay2 x0 x1 k0_pay1 x2 := by unfold accStep; rw [if_pos h]
theorem accStep_later (i : grid0.Coords) (h : ¬ first i) (x0 : Vec F S2048x16 .f32) (x1 x2 : Vec F S1024x16 .f32) (xs : Vec F S2048x16 .f32) :
    accStep i x0 x1 x2 xs = k0_pay2 x0 x1 xs x2 := by unfold accStep; rw [if_neg h]

set_option maxHeartbeats 2000000 in
theorem run_later_mid (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k0_pay2 x0 x1 xs x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_mid (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k0_pay2 x0 x1 k0_pay1 x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_later_last (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 xs x2) ∗ owns (c : Thread nD τ) arg6 fullShare (k0_pay2 x0 x1 xs x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_last (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 k0_pay1 x2) ∗ owns (c : Thread nD τ) arg6 fullShare (k0_pay2 x0 x1 k0_pay1 x2)) -∗ K ⟨⟩))
      ⊢ wp frame (wpE (defs₀ (F := F)) Variants.none c none) E (cc0__gram_matmul_kernel i arg2 harg2 arg3 harg3 arg4 harg4 arg5 harg5 arg6 harg6) K := by
  simp only [cc0__gram_matmul_kernel_eq_skeleton]; unfold cc0__gram_matmul_kernel_skel
  simp only [k0_part1_eq_skeleton]; unfold k0_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

/-- The body at any grid point. -/
theorem run (c : Dev nD) (E : Set ℕ) (i : grid0.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last i then accStep i x0 x1 x2 xs else xo) ∗ owns (c : Thread nD τ) arg6 fullShare (accStep i x0 x1 x2 xs)) -∗ K ⟨⟩))
      ⊢ wp frame (wpE (defs₀ (F := F)) Variants.none c none) E (cc0__gram_matmul_kernel i arg2 harg2 arg3 harg3 arg4 harg4 arg5 harg5 arg6 harg6) K := by
  by_cases h1 : first i <;> by_cases h2 : last i
  · simp only [if_pos h2, accStep_first i h1]; exact run_first_last c E i arg2 harg2 arg3 harg3 arg4 harg4 arg5 harg5 arg6 harg6 h1 h2 x0 x1 x2 xo xs K
  · simp only [if_neg h2, accStep_first i h1]; exact run_first_mid c E i arg2 harg2 arg3 harg3 arg4 harg4 arg5 harg5 arg6 harg6 h1 h2 x0 x1 x2 xo xs K
  · simp only [if_pos h2, accStep_later i h1]; exact run_later_last c E i arg2 harg2 arg3 harg3 arg4 harg4 arg5 harg5 arg6 harg6 h1 h2 x0 x1 x2 xo xs K
  · simp only [if_neg h2, accStep_later i h1]; exact run_later_mid c E i arg2 harg2 arg3 harg3 arg4 harg4 arg5 harg5 arg6 harg6 h1 h2 x0 x1 x2 xo xs K

end Cert.Kernel.Body0
end
-- ==== Proof.RegK0.lean ====
import proofs.«119457_j37203006718368_1_alg».proof.Proof.BodyK0
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section

/-! Pallas_call 0 over its 4 x 8 grid, from the contents `V` its region is entered with: what the accumulator holds after
    each grid point (a recursion over the points: within a row block, the tiles' contributions added one column block after
    the other), the pipeline's proof data over it, and the body's obligation at every point. The two windows that read the
    same array hold it at the two halves of the full share. -/

namespace Cert.Kernel.Reg0
open Cert.Kernel Cert.Kernel.Gen Cert.Kernel.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's closed forms -/

theorem hfirst : ∀ t : Fin cfg0.N, first (grid0.coords t) ↔ t.val % 8 = 0 :=
  (by decide +kernel : ∀ t : Fin grid0.N, first (grid0.coords t) ↔ t.val % 8 = 0)
theorem hlast : ∀ t : Fin cfg0.N, last (grid0.coords t) ↔ t.val % 8 = 7 :=
  (by decide +kernel : ∀ t : Fin grid0.N, last (grid0.coords t) ↔ t.val % 8 = 7)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ last (grid0.coords t) → cfg0.idle 3 (grid0.coords t) = true := by decide +kernel
theorem noFlush3 : ∀ t : Fin cfg0.N, ¬ last (grid0.coords t) → (cfg0.win 3).flush t = false := by decide +kernel
theorem live3 : ∀ t : Fin cfg0.N, last (grid0.coords t) → cfg0.idle 3 (grid0.coords t) = false := by decide +kernel

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, a whole scoped buffer of the kernel's own. -/
abbrev scM : Memref sig .tc .vmem S2048x16 .f32 := Memref.whole cc0_scratch0

/-- THE ACCUMULATION: what the accumulator holds after the body at position `n`. At the first column block of a row block the
    step starts from zero, whatever it is given. -/
def accAt (c : Dev nD) : (n : ℕ) → n < cfg0.N → Vec F S2048x16 .f32
  | 0, hn => accStep (grid0.coords ⟨0, hn⟩) (iblk V c 0 ⟨0, hn⟩) (iblk V c 1 ⟨0, hn⟩) (iblk V c 2 ⟨0, hn⟩) k0_pay1
  | n + 1, hn => accStep (grid0.coords ⟨n + 1, hn⟩) (iblk V c 0 ⟨n + 1, hn⟩) (iblk V c 1 ⟨n + 1, hn⟩) (iblk V c 2 ⟨n + 1, hn⟩) (accAt c n (Nat.lt_of_succ_lt hn))

/-- One step of the accumulation, from ANY start at the very first point and from the previous point's contents later. -/
theorem accAt_step (c : Dev nD) (t : Fin cfg0.N) (xs : Vec F S2048x16 .f32)
    (hxs : ∀ h : t.val ≠ 0, xs = accAt V c (t.val - 1) (Nat.lt_of_le_of_lt (Nat.sub_le _ _) t.isLt)) :
    accStep (grid0.coords t) (iblk V c 0 t) (iblk V c 1 t) (iblk V c 2 t) xs = accAt V c t.val t.isLt := by
  obtain ⟨n, hn⟩ := t
  cases n with
  | zero =>
    have hf : first (grid0.coords ⟨0, hn⟩) := (hfirst ⟨0, hn⟩).mpr (Nat.zero_mod _)
    show _ = accStep _ _ _ _ _
    rw [accStep_first _ hf, accStep_first _ hf]
  | succ n =>
    have := hxs (Nat.succ_ne_zero n)
    subst this
    rfl

/-! ## The invariant: the accumulator between points -/

/-- The core's scoped buffers other than the accumulator and this call's staging buffers, each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA_open (c : Dev nD) :
    (Pipeline.ΦA spec0 c : sProp 𝕄) ⊢ iprop((∃ d, owns (c : Thread nD τ) scM fullShare d) ∗ restS c ∗ (∃ r, prngReg c r)) := by
  unfold Pipeline.ΦA restS; rw [scopedRest0_eq]; simp only [scM, owns_whole]
  iintro ⟨⟨Hs, R1, R2, R3, R4, R5, R6, R7, R8, R9⟩, Hg⟩
  isplitl [Hs]; · iexact Hs
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem PhiA_close (c : Dev nD) :
    iprop((∃ d, owns (c : Thread nD τ) scM fullShare d) ∗ restS c ∗ (∃ r, prngReg c r)) ⊢ (Pipeline.ΦA spec0 c : sProp 𝕄) := by
  unfold Pipeline.ΦA restS; rw [scopedRest0_eq]; simp only [scM, owns_whole]
  iintro ⟨Hs, ⟨R1, R2, R3, R4, R5, R6, R7, R8, R9⟩, Hg⟩
  isplitr [Hg]
  swap; · iexact Hg
  isplitl [Hs]; · iexact Hs
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- The invariant before position `n`: before the first point every scoped buffer at anything; afterwards the accumulator at
    what the point before left. -/
def PhiS (c : Dev nD) : (n : ℕ) → n ≤ cfg0.N → sProp 𝕄
  | 0, _ => Pipeline.ΦA spec0 c
  | n + 1, hn => iprop(owns (c : Thread nD τ) scM fullShare (accAt V c n hn) ∗ restS c ∗ (∃ r, prngReg c r))

theorem PhiS_open (c : Dev nD) (n : ℕ) (h : n ≤ cfg0.N) :
    PhiS V c n h ⊢ iprop(∃ xs, ⌜∀ hz : n ≠ 0, xs = accAt V c (n - 1) (Nat.lt_of_lt_of_le (Nat.sub_one_lt hz) h)⌝
      ∗ owns (c : Thread nD τ) scM fullShare xs ∗ restS c ∗ (∃ r, prngReg c r)) := by
  cases n with
  | zero =>
    refine (show PhiS V c 0 h ⊢ _ from PhiA_open c).trans ?_
    iintro ⟨⟨%d, Hs⟩, Hr, Hg⟩
    iexists d; isplitr; · ipureintro; intro hz; exact absurd rfl hz
    isplitl [Hs]; · iexact Hs
    isplitl [Hr]; · iexact Hr
    iexact Hg
  | succ n =>
    show iprop(owns (c : Thread nD τ) scM fullShare (accAt V c n h) ∗ restS c ∗ (∃ r, prngReg c r)) ⊢ _
    iintro ⟨Hs, Hr, Hg⟩
    iexists (accAt V c n h); isplitr; · ipureintro; intro _; rfl
    isplitl [Hs]; · iexact Hs
    isplitl [Hr]; · iexact Hr
    iexact Hg

theorem PhiS_close (c : Dev nD) (n : ℕ) (h : n ≤ cfg0.N) : PhiS V c n h ⊢ (Pipeline.ΦA spec0 c : sProp 𝕄) := by
  cases n with
  | zero => exact .rfl
  | succ n =>
    refine (show PhiS V c (n + 1) h ⊢ iprop((∃ d, owns (c : Thread nD τ) scM fullShare d) ∗ restS c ∗ (∃ r, prngReg c r)) from ?_).trans (PhiA_close c)
    show iprop(owns (c : Thread nD τ) scM fullShare (accAt V c n h) ∗ restS c ∗ (∃ r, prngReg c r)) ⊢ _
    iintro ⟨Hs, Hr, Hg⟩
    isplitl [Hs]; · iexists _; iexact Hs
    isplitl [Hr]; · iexact Hr
    iexact Hg

/-! ## The pipeline's proof data -/

/-- The proof data on core `c`: the arrays as the region finds them; after the body at point `t` each input's buffer at its
    block and the output's at the accumulator's contents (read only at the last column block of each row block, where the body
    copies it there); the invariant above; nothing owed; the array the first two windows both read held at the two halves of the
    full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = accAt V c t.val t.isLt := by dsimp only [dat]

/-- Each input's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 1600000 in
/-- The body at any point: the inputs' buffers hold their blocks; the invariant hands over the accumulator (at the point
    before's contents, or at anything at the very first point, where the step does not read it); the body's triple applies; the
    accumulator goes back at this point's contents, the output's buffer at them where the point copies it out and untouched
    elsewhere. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = iprop(owns (c : Thread nD τ) scM fullShare (accAt V c t.val t.isLt) ∗ restS c ∗ (∃ r, prngReg c r)) from rfl]
  rw [show (dat V c).leavesExact 0 t = owns (c : Thread nD τ) (st0_0 t) fullShare ((dat V c).after 0 t) from by
      unfold Dat.leavesExact; rw [live0 t], after0]
  rw [show (dat V c).leavesExact 1 t = owns (c : Thread nD τ) (st0_1 t) fullShare ((dat V c).after 1 t) from by
      unfold Dat.leavesExact; rw [live1 t], after1]
  rw [show (dat V c).leavesExact 2 t = owns (c : Thread nD τ) (st0_2 t) fullShare ((dat V c).after 2 t) from by
      unfold Dat.leavesExact; rw [live2 t], after2]
  refine (sep_mono (show (dat V c).Φ t.castSucc ⊢ _ from PhiS_open V c t.val (Nat.le_of_lt t.isLt)) .rfl).trans ?_
  iintro ⟨⟨%xs, %hxs, HS, Hr, Hg⟩, Ho, ⟨%d0, H0⟩, ⟨%d1, H1⟩, ⟨%d2, H2⟩, ⟨%d3, H3⟩⟩
  have hacc := accAt_step V c t xs hxs
  iapply (Body0.run c Set.univ (grid0.coords t) _ _ _ _ _ _ _ _ scM (Memref.isWhole_whole _) (iblk V c 0 t) (iblk V c 1 t) (iblk V c 2 t) ((dat V c).before 3 t d3) xs _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  by_cases hl : last (grid0.coords t)
  · rw [show (dat V c).leavesExact 3 t = owns (c : Thread nD τ) (st0_3 t) fullShare ((dat V c).after 3 t) from by
      unfold Dat.leavesExact; rw [live3 t hl], after3, if_pos hl]
    iexact H3
  · rw [Dat.leavesExact_idle (dat V c) 3 t (idle3 t hl) (noFlush3 t hl), if_neg hl]
    iexists d3; iexact H3

/-- The library's body obligation, at every point. -/
theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := .rfl

theorem hout (c : Dev nD) : (dat V c).Φ (Fin.last cfg0.N) ⊢ (Pipeline.ΦA spec0 c : sProp 𝕄) :=
  (show (dat V c).Φ (Fin.last cfg0.N) ⊢ _ from PhiS_close V c (Fin.last cfg0.N).val (Nat.le_of_lt_succ (Fin.last cfg0.N).isLt))

/-! ## The arrays at the region's ends

The core's unscoped buffers at contents `V` are the windows' arrays and the rest; the array the first two windows both read is
split into the two halves of its full share on the way in and joined again on the way out; the result's array comes back at what
the write-backs left. -/

theorem entry (c : Dev nD) :
    (unscopedBufs c (V c) : sProp 𝕄) ⊢ iprop((dat V c).arrays ((dat V c).arrAt · 0) ∗ Pipeline.unscopedRest spec0 c (V c)) := by
  rw [Pipeline.unscopedBufs_split₀ cfgs (0 : Fin 2) winFacts₀0.arr_unscoped c (V c)]
  refine sep_mono ?_ .rfl
  unfold Pipeline.arrBufs Dat.arrays
  rw [bigSep_eq_bigSepL_of_eq [main_arg0, main_arg2, main_v0] (by decide) (by decide), bigSep_W0]
  simp only [bigSepL_cons_cons, bigSepL_singleton]
  rw [(arr_whole0 0).set_eq_univ, (arr_whole0 2).set_eq_univ, (arr_whole0 3).set_eq_univ]
  refine (show iprop((((c : Thread nD τ).loc main_arg0) ↦{fullShare} V c main_arg0) ∗ (((c : Thread nD τ).loc main_arg2) ↦{fullShare} V c main_arg2) ∗ (((c : Thread nD τ).loc main_v0) ↦{fullShare} V c main_v0)) ⊢ _ from ?_)
  iintro ⟨H0, H2, H3⟩
  ihave HH := (pointsTo_share (PosShare.mem_left_op_right fullShare)).1 $$ H0
  icases HH with ⟨H0l, H0r⟩
  isplitl [H0l]; · iexact H0l
  isplitl [H0r]; · iexact H0r
  isplitl [H2]; · iexact H2
  iexact H3

theorem exit (c : Dev nD) (V' : (b : Ref sig .tc) → Buf (Elt F) ((c : Thread nD τ).loc b))
    (h3 : V' main_v0 = (dat V c).arrAt 3 cfg0.N) (hne : ∀ b, b ≠ main_v0 → V' b = V c b) :
    iprop((dat V c).arrays ((dat V c).arrAt · cfg0.N) ∗ Pipeline.unscopedRest spec0 c (V c)) ⊢ (unscopedBufs c V' : sProp 𝕄) := by
  rw [Pipeline.unscopedBufs_split₀ cfgs (0 : Fin 2) winFacts₀0.arr_unscoped c V']
  refine sep_mono ?_ (Entails.of_eq ?_)
  · unfold Pipeline.arrBufs Dat.arrays
    rw [bigSep_eq_bigSepL_of_eq [main_arg0, main_arg2, main_v0] (by decide) (by decide), bigSep_W0]
    simp only [bigSepL_cons_cons, bigSepL_singleton]
    rw [(arr_whole0 0).set_eq_univ, (arr_whole0 2).set_eq_univ, (arr_whole0 3).set_eq_univ]
    rw [(dat V c).arrAt_in 0 rfl _, (dat V c).arrAt_in 1 rfl _, (dat V c).arrAt_in 2 rfl _]
    rw [hne main_arg0 (by decide), hne main_arg2 (by decide), h3]
    refine (show _ ⊢ iprop((((c : Thread nD τ).loc main_arg0) ↦{fullShare} V c main_arg0) ∗ (((c : Thread nD τ).loc main_arg2) ↦{fullShare} V c main_arg2) ∗ (((c : Thread nD τ).loc main_v0) ↦{fullShare} (dat V c).arrAt 3 cfg0.N)) from ?_)
    iintro ⟨H0l, H0r, H2, H3⟩
    ihave H0 := (pointsTo_share (PosShare.mem_left_op_right fullShare)).2 $$ [H0l H0r]
    · isplitl [H0l]; · iexact H0l
      iexact H0r
    isplitl [H0]; · iexact H0
    isplitl [H2]; · iexact H2
    iexact H3
  · unfold Pipeline.unscopedRest
    exact bigSep_congr fun b hb => by
      rw [hne b (fun e => (Finset.mem_sdiff.mp hb).2 (e ▸ Finset.mem_image.mpr ⟨3, Finset.mem_univ _, rfl⟩))]

end Cert.Kernel.Reg0
end
-- ==== Proof.BodyK1.lean ====
import proofs.«119457_j37203006718368_1_alg».proof.Proof.Gen.Kernel.Launch
import proofs.«119457_j37203006718368_1_alg».proof.Proof.Gen.Kernel.Skeleton
import proofs.«119457_j37203006718368_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! The body of pallas_call 1 at one grid point, as a Hoare triple: from the three input blocks, the output block's
    buffer and the accumulator, it leaves the accumulator at "(zero at the first column block, else what it held) plus this
    tile's contribution" and copies it to the output block at the last column block. -/

namespace Cert.Kernel.Body1
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-block coordinate is the first one: the accumulator is zeroed. -/
abbrev first (i : grid1.Coords) : Prop := (Scalar.cmpi .ne (Scalar.extui (Scalar.cmpi .eq (BitVec.ofNat 32 (i 1).val) 0#32)) 0#32) = 1#1
/-- The column-block coordinate is the last one: the accumulator is copied out. -/
abbrev last (i : grid1.Coords) : Prop := k1_cond2 i = 1#1

theorem hz2 : (![0, 0] : Fin 2 → Nat) = fun _ => 0 := by funext a; fin_cases a <;> rfl

/-- A store through the whole buffer, LAST, is what the buffer then reads as. -/
theorem read_store_whole {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨_, List.mem_cons_self .., by
    show y ∈ (Rect.whole S).set; rw [Rect.set_whole]; exact Finset.mem_univ y⟩), View.canon_cons_unit_zero rfl]

/-- A load of the whole buffer after a store through the whole buffer reads the stored value. -/
theorem readCov_store_whole {S : Shape} {e : EltTy} (v : View sig .tc .vmem S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The accumulator after the point: this tile's contribution added to what the point starts from. -/
def accStep (i : grid1.Coords) (x0 : Vec F S2048x16 .f32) (x1 x2 : Vec F S1024x16 .f32) (xs : Vec F S2048x16 .f32) : Vec F S2048x16 .f32 :=
  k1_pay2 x0 x1 (if first i then k1_pay1 else xs) x2

theorem accStep_first (i : grid1.Coords) (h : first i) (x0 : Vec F S2048x16 .f32) (x1 x2 : Vec F S1024x16 .f32) (xs : Vec F S2048x16 .f32) :
    accStep i x0 x1 x2 xs = k1_pay2 x0 x1 k1_pay1 x2 := by unfold accStep; rw [if_pos h]
theorem accStep_later (i : grid1.Coords) (h : ¬ first i) (x0 : Vec F S2048x16 .f32) (x1 x2 : Vec F S1024x16 .f32) (xs : Vec F S2048x16 .f32) :
    accStep i x0 x1 x2 xs = k1_pay2 x0 x1 xs x2 := by unfold accStep; rw [if_neg h]

set_option maxHeartbeats 2000000 in
theorem run_later_mid (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k1_pay2 x0 x1 xs x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_mid (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : ¬ last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (xo) ∗ owns (c : Thread nD τ) arg6 fullShare (k1_pay2 x0 x1 k1_pay1 x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr; · ipureintro; exact harg5.read_unread _
    iexact HO
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_later_last (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : ¬ first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 xs x2) ∗ owns (c : Thread nD τ) arg6 fullShare (k1_pay2 x0 x1 xs x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

set_option maxHeartbeats 2000000 in
theorem run_first_last (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (h1 : first i) (h2 : last i) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 k1_pay1 x2) ∗ owns (c : Thread nD τ) arg6 fullShare (k1_pay2 x0 x1 k1_pay1 x2)) -∗ K ⟨⟩))
      ⊢ wp frame (wpE (defs₀ (F := F)) Variants.none c none) E (cc1__gram_matmul_kernel i arg2 harg2 arg3 harg3 arg4 harg4 arg5 harg5 arg6 harg6) K := by
  simp only [cc1__gram_matmul_kernel_eq_skeleton]; unfold cc1__gram_matmul_kernel_skel
  simp only [k1_part1_eq_skeleton]; unfold k1_part1_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hfo; obtain rfl := harg6.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists _; isplitr
    swap; · iexact HO
    ipureintro
    sl_unfold_run_names
    rw [read_store_whole (S := S2048x16) _ _ hz2]
    simp only [readCov_store_whole (S := S2048x16) (e := .f32) _ hz2, View.readAt_eq_ld, Memref.IsWhole.read_unread, View.ld_unit_zero (S := S2048x16) hz2, View.ld_unit_zero (S := S1024x16) hz2]
  iexists _; isplitr
  swap; · iexact HS
  ipureintro
  sl_unfold_run_names
  rw [read_store_whole (S := S2048x16) _ _ hz2]
  simp only [readCov_store_whole (S := S2048x16) (e := .f32) _ hz2, View.readAt_eq_ld, Memref.IsWhole.read_unread, View.ld_unit_zero (S := S2048x16) hz2, View.ld_unit_zero (S := S1024x16) hz2]

/-- The body at any grid point. -/
theorem run (c : Dev nD) (E : Set ℕ) (i : grid1.Coords)
    (arg2 : Memref sig .tc .vmem S2048x16 .f32) (harg2 : arg2.IsWhole) (arg3 : Memref sig .tc .vmem S1024x16 .f32) (harg3 : arg3.IsWhole)
    (arg4 : Memref sig .tc .vmem S1024x16 .f32) (harg4 : arg4.IsWhole) (arg5 : Memref sig .tc .vmem S2048x16 .f32) (harg5 : arg5.IsWhole)
    (arg6 : Memref sig .tc .vmem S2048x16 .f32) (harg6 : arg6.IsWhole) (x0 : Vec F S2048x16 .f32) (x1 x2 : Vec F S1024x16 .f32) (xo xs : Vec F S2048x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last i then accStep i x0 x1 x2 xs else xo) ∗ owns (c : Thread nD τ) arg6 fullShare (accStep i x0 x1 x2 xs)) -∗ K ⟨⟩))
      ⊢ wp frame (wpE (defs₀ (F := F)) Variants.none c none) E (cc1__gram_matmul_kernel i arg2 harg2 arg3 harg3 arg4 harg4 arg5 harg5 arg6 harg6) K := by
  by_cases h1 : first i <;> by_cases h2 : last i
  · simp only [if_pos h2, accStep_first i h1]; exact run_first_last c E i arg2 harg2 arg3 harg3 arg4 harg4 arg5 harg5 arg6 harg6 h1 h2 x0 x1 x2 xo xs K
  · simp only [if_neg h2, accStep_first i h1]; exact run_first_mid c E i arg2 harg2 arg3 harg3 arg4 harg4 arg5 harg5 arg6 harg6 h1 h2 x0 x1 x2 xo xs K
  · simp only [if_pos h2, accStep_later i h1]; exact run_later_last c E i arg2 harg2 arg3 harg3 arg4 harg4 arg5 harg5 arg6 harg6 h1 h2 x0 x1 x2 xo xs K
  · simp only [if_neg h2, accStep_later i h1]; exact run_later_mid c E i arg2 harg2 arg3 harg3 arg4 harg4 arg5 harg5 arg6 harg6 h1 h2 x0 x1 x2 xo xs K

end Cert.Kernel.Body1
end
-- ==== Proof.RegK1.lean ====
import proofs.«119457_j37203006718368_1_alg».proof.Proof.BodyK1
import Idealize.ShloMosaic.Lib.Pipeline.FrameBody
import Idealize.ShloMosaic.Lib.Pipeline.Frame
import Idealize.ShloMosaic.Lib.Pipeline.RegionsLoop
import Idealize.ShloMosaic.Lib.Ring
import Idealize.ShloMosaic.Lib.Tactic

set_option maxRecDepth 16384

noncomputable section

/-! Pallas_call 1 over its 4 x 8 grid, from the contents `V` its region is entered with: what the accumulator holds after
    each grid point (a recursion over the points: within a row block, the tiles' contributions added one column block after
    the other), the pipeline's proof data over it, and the body's obligation at every point. The two windows that read the
    same array hold it at the two halves of the full share. -/

namespace Cert.Kernel.Reg1
open Cert.Kernel Cert.Kernel.Gen Cert.Kernel.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid's closed forms -/

theorem hfirst : ∀ t : Fin cfg1.N, first (grid1.coords t) ↔ t.val % 8 = 0 :=
  (by decide +kernel : ∀ t : Fin grid1.N, first (grid1.coords t) ↔ t.val % 8 = 0)
theorem hlast : ∀ t : Fin cfg1.N, last (grid1.coords t) ↔ t.val % 8 = 7 :=
  (by decide +kernel : ∀ t : Fin grid1.N, last (grid1.coords t) ↔ t.val % 8 = 7)
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬ last (grid1.coords t) → cfg1.idle 3 (grid1.coords t) = true := by decide +kernel
theorem noFlush3 : ∀ t : Fin cfg1.N, ¬ last (grid1.coords t) → (cfg1.win 3).flush t = false := by decide +kernel
theorem live3 : ∀ t : Fin cfg1.N, last (grid1.coords t) → cfg1.idle 3 (grid1.coords t) = false := by decide +kernel

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole scoped buffer of the kernel's own. -/
abbrev scM : Memref sig .tc .vmem S2048x16 .f32 := Memref.whole cc1_scratch0

/-- THE ACCUMULATION: what the accumulator holds after the body at position `n`. At the first column block of a row block the
    step starts from zero, whatever it is given. -/
def accAt (c : Dev nD) : (n : ℕ) → n < cfg1.N → Vec F S2048x16 .f32
  | 0, hn => accStep (grid1.coords ⟨0, hn⟩) (iblk V c 0 ⟨0, hn⟩) (iblk V c 1 ⟨0, hn⟩) (iblk V c 2 ⟨0, hn⟩) k1_pay1
  | n + 1, hn => accStep (grid1.coords ⟨n + 1, hn⟩) (iblk V c 0 ⟨n + 1, hn⟩) (iblk V c 1 ⟨n + 1, hn⟩) (iblk V c 2 ⟨n + 1, hn⟩) (accAt c n (Nat.lt_of_succ_lt hn))

/-- One step of the accumulation, from ANY start at the very first point and from the previous point's contents later. -/
theorem accAt_step (c : Dev nD) (t : Fin cfg1.N) (xs : Vec F S2048x16 .f32)
    (hxs : ∀ h : t.val ≠ 0, xs = accAt V c (t.val - 1) (Nat.lt_of_le_of_lt (Nat.sub_le _ _) t.isLt)) :
    accStep (grid1.coords t) (iblk V c 0 t) (iblk V c 1 t) (iblk V c 2 t) xs = accAt V c t.val t.isLt := by
  obtain ⟨n, hn⟩ := t
  cases n with
  | zero =>
    have hf : first (grid1.coords ⟨0, hn⟩) := (hfirst ⟨0, hn⟩).mpr (Nat.zero_mod _)
    show _ = accStep _ _ _ _ _
    rw [accStep_first _ hf, accStep_first _ hf]
  | succ n =>
    have := hxs (Nat.succ_ne_zero n)
    subst this
    rfl

/-! ## The invariant: the accumulator between points -/

/-- The core's scoped buffers other than the accumulator and this call's staging buffers, each at some contents. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

theorem PhiA_open (c : Dev nD) :
    (Pipeline.ΦA spec1 c : sProp 𝕄) ⊢ iprop((∃ d, owns (c : Thread nD τ) scM fullShare d) ∗ restS c ∗ (∃ r, prngReg c r)) := by
  unfold Pipeline.ΦA restS; rw [scopedRest1_eq]; simp only [scM, owns_whole]
  iintro ⟨⟨R1, R2, R3, R4, R5, R6, R7, R8, R9, Hs⟩, Hg⟩
  isplitl [Hs]; · iexact Hs
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem PhiA_close (c : Dev nD) :
    iprop((∃ d, owns (c : Thread nD τ) scM fullShare d) ∗ restS c ∗ (∃ r, prngReg c r)) ⊢ (Pipeline.ΦA spec1 c : sProp 𝕄) := by
  unfold Pipeline.ΦA restS; rw [scopedRest1_eq]; simp only [scM, owns_whole]
  iintro ⟨Hs, ⟨R1, R2, R3, R4, R5, R6, R7, R8, R9⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact Hs

/-- The invariant before position `n`: before the first point every scoped buffer at anything; afterwards the accumulator at
    what the point before left. -/
def PhiS (c : Dev nD) : (n : ℕ) → n ≤ cfg1.N → sProp 𝕄
  | 0, _ => Pipeline.ΦA spec1 c
  | n + 1, hn => iprop(owns (c : Thread nD τ) scM fullShare (accAt V c n hn) ∗ restS c ∗ (∃ r, prngReg c r))

theorem PhiS_open (c : Dev nD) (n : ℕ) (h : n ≤ cfg1.N) :
    PhiS V c n h ⊢ iprop(∃ xs, ⌜∀ hz : n ≠ 0, xs = accAt V c (n - 1) (Nat.lt_of_lt_of_le (Nat.sub_one_lt hz) h)⌝
      ∗ owns (c : Thread nD τ) scM fullShare xs ∗ restS c ∗ (∃ r, prngReg c r)) := by
  cases n with
  | zero =>
    refine (show PhiS V c 0 h ⊢ _ from PhiA_open c).trans ?_
    iintro ⟨⟨%d, Hs⟩, Hr, Hg⟩
    iexists d; isplitr; · ipureintro; intro hz; exact absurd rfl hz
    isplitl [Hs]; · iexact Hs
    isplitl [Hr]; · iexact Hr
    iexact Hg
  | succ n =>
    show iprop(owns (c : Thread nD τ) scM fullShare (accAt V c n h) ∗ restS c ∗ (∃ r, prngReg c r)) ⊢ _
    iintro ⟨Hs, Hr, Hg⟩
    iexists (accAt V c n h); isplitr; · ipureintro; intro _; rfl
    isplitl [Hs]; · iexact Hs
    isplitl [Hr]; · iexact Hr
    iexact Hg

theorem PhiS_close (c : Dev nD) (n : ℕ) (h : n ≤ cfg1.N) : PhiS V c n h ⊢ (Pipeline.ΦA spec1 c : sProp 𝕄) := by
  cases n with
  | zero => exact .rfl
  | succ n =>
    refine (show PhiS V c (n + 1) h ⊢ iprop((∃ d, owns (c : Thread nD τ) scM fullShare d) ∗ restS c ∗ (∃ r, prngReg c r)) from ?_).trans (PhiA_close c)
    show iprop(owns (c : Thread nD τ) scM fullShare (accAt V c n h) ∗ restS c ∗ (∃ r, prngReg c r)) ⊢ _
    iintro ⟨Hs, Hr, Hg⟩
    isplitl [Hs]; · iexists _; iexact Hs
    isplitl [Hr]; · iexact Hr
    iexact Hg

/-! ## The pipeline's proof data -/

/-- The proof data on core `c`: the arrays as the region finds them; after the body at point `t` each input's buffer at its
    block and the output's at the accumulator's contents (read only at the last column block of each row block, where the body
    copies it there); the invariant above; nothing owed; the array the first two windows both read held at the two halves of the
    full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = accAt V c t.val t.isLt := by dsimp only [dat]

/-- Each input's current staging buffer holds its block at every point, fetched there or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 1600000 in
/-- The body at any point: the inputs' buffers hold their blocks; the invariant hands over the accumulator (at the point
    before's contents, or at anything at the very first point, where the step does not read it); the body's triple applies; the
    accumulator goes back at this point's contents, the output's buffer at them where the point copies it out and untouched
    elsewhere. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = iprop(owns (c : Thread nD τ) scM fullShare (accAt V c t.val t.isLt) ∗ restS c ∗ (∃ r, prngReg c r)) from rfl]
  rw [show (dat V c).leavesExact 0 t = owns (c : Thread nD τ) (st1_0 t) fullShare ((dat V c).after 0 t) from by
      unfold Dat.leavesExact; rw [live0 t], after0]
  rw [show (dat V c).leavesExact 1 t = owns (c : Thread nD τ) (st1_1 t) fullShare ((dat V c).after 1 t) from by
      unfold Dat.leavesExact; rw [live1 t], after1]
  rw [show (dat V c).leavesExact 2 t = owns (c : Thread nD τ) (st1_2 t) fullShare ((dat V c).after 2 t) from by
      unfold Dat.leavesExact; rw [live2 t], after2]
  refine (sep_mono (show (dat V c).Φ t.castSucc ⊢ _ from PhiS_open V c t.val (Nat.le_of_lt t.isLt)) .rfl).trans ?_
  iintro ⟨⟨%xs, %hxs, HS, Hr, Hg⟩, Ho, ⟨%d0, H0⟩, ⟨%d1, H1⟩, ⟨%d2, H2⟩, ⟨%d3, H3⟩⟩
  have hacc := accAt_step V c t xs hxs
  iapply (Body1.run c Set.univ (grid1.coords t) _ _ _ _ _ _ _ _ scM (Memref.isWhole_whole _) (iblk V c 0 t) (iblk V c 1 t) (iblk V c 2 t) ((dat V c).before 3 t d3) xs _)
  isplitl [H0]; · iexact H0
  isplitl [H1]; · iexact H1
  isplitl [H2]; · iexact H2
  isplitl [H3]; · iexact H3
  isplitl [HS]; · iexact HS
  rw [hacc]
  iintro ⟨H0, H1, H2, H3, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  by_cases hl : last (grid1.coords t)
  · rw [show (dat V c).leavesExact 3 t = owns (c : Thread nD τ) (st1_3 t) fullShare ((dat V c).after 3 t) from by
      unfold Dat.leavesExact; rw [live3 t hl], after3, if_pos hl]
    iexact H3
  · rw [Dat.leavesExact_idle (dat V c) 3 t (idle3 t hl) (noFlush3 t hl), if_neg hl]
    iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ (Pipeline.ΦA spec1 c : sProp 𝕄) :=
  (show (dat V c).Φ (Fin.last cfg1.N) ⊢ _ from PhiS_close V c (Fin.last cfg1.N).val (Nat.le_of_lt_succ (Fin.last cfg1.N).isLt))

/-! ## The arrays at the region's ends

The core's unscoped buffers at contents `V` are the windows' arrays and the rest; the array the first two windows both read is
split into the two halves of its full share on the way in and joined again on the way out; the result's array comes back at what
the write-backs left. -/

theorem entry (c : Dev nD) :
    (unscopedBufs c (V c) : sProp 𝕄) ⊢ iprop((dat V c).arrays ((dat V c).arrAt · 0) ∗ Pipeline.unscopedRest spec1 c (V c)) := by
  rw [Pipeline.unscopedBufs_split₀ cfgs (1 : Fin 2) winFacts₀1.arr_unscoped c (V c)]
  refine sep_mono ?_ .rfl
  unfold Pipeline.arrBufs Dat.arrays
  rw [bigSep_eq_bigSepL_of_eq [main_arg0, main_v1, main_v5] (by decide) (by decide), bigSep_W1]
  simp only [bigSepL_cons_cons, bigSepL_singleton]
  rw [(arr_whole1 0).set_eq_univ, (arr_whole1 2).set_eq_univ, (arr_whole1 3).set_eq_univ]
  refine (show iprop((((c : Thread nD τ).loc main_arg0) ↦{fullShare} V c main_arg0) ∗ (((c : Thread nD τ).loc main_v1) ↦{fullShare} V c main_v1) ∗ (((c : Thread nD τ).loc main_v5) ↦{fullShare} V c main_v5)) ⊢ _ from ?_)
  iintro ⟨H0, H2, H3⟩
  ihave HH := (pointsTo_share (PosShare.mem_left_op_right fullShare)).1 $$ H0
  icases HH with ⟨H0l, H0r⟩
  isplitl [H0l]; · iexact H0l
  isplitl [H0r]; · iexact H0r
  isplitl [H2]; · iexact H2
  iexact H3

theorem exit (c : Dev nD) (V' : (b : Ref sig .tc) → Buf (Elt F) ((c : Thread nD τ).loc b))
    (h3 : V' main_v5 = (dat V c).arrAt 3 cfg1.N) (hne : ∀ b, b ≠ main_v5 → V' b = V c b) :
    iprop((dat V c).arrays ((dat V c).arrAt · cfg1.N) ∗ Pipeline.unscopedRest spec1 c (V c)) ⊢ (unscopedBufs c V' : sProp 𝕄) := by
  rw [Pipeline.unscopedBufs_split₀ cfgs (1 : Fin 2) winFacts₀1.arr_unscoped c V']
  refine sep_mono ?_ (Entails.of_eq ?_)
  · unfold Pipeline.arrBufs Dat.arrays
    rw [bigSep_eq_bigSepL_of_eq [main_arg0, main_v1, main_v5] (by decide) (by decide), bigSep_W1]
    simp only [bigSepL_cons_cons, bigSepL_singleton]
    rw [(arr_whole1 0).set_eq_univ, (arr_whole1 2).set_eq_univ, (arr_whole1 3).set_eq_univ]
    rw [(dat V c).arrAt_in 0 rfl _, (dat V c).arrAt_in 1 rfl _, (dat V c).arrAt_in 2 rfl _]
    rw [hne main_arg0 (by decide), hne main_v1 (by decide), h3]
    refine (show _ ⊢ iprop((((c : Thread nD τ).loc main_arg0) ↦{fullShare} V c main_arg0) ∗ (((c : Thread nD τ).loc main_v1) ↦{fullShare} V c main_v1) ∗ (((c : Thread nD τ).loc main_v5) ↦{fullShare} (dat V c).arrAt 3 cfg1.N)) from ?_)
    iintro ⟨H0l, H0r, H2, H3⟩
    ihave H0 := (pointsTo_share (PosShare.mem_left_op_right fullShare)).2 $$ [H0l H0r]
    · isplitl [H0l]; · iexact H0l
      iexact H0r
    isplitl [H0]; · iexact H0
    isplitl [H2]; · iexact H2
    iexact H3
  · unfold Pipeline.unscopedRest
    exact bigSep_congr fun b hb => by
      rw [hne b (fun e => (Finset.mem_sdiff.mp hb).2 (e ▸ Finset.mem_image.mpr ⟨3, Finset.mem_univ _, rfl⟩))]

end Cert.Kernel.Reg1
end
-- ==== Proof.RunDefsK.lean ====
import proofs.«119457_j37203006718368_1_alg».proof.Proof.RegK0
import proofs.«119457_j37203006718368_1_alg».proof.Proof.RegK1
import proofs.«119457_j37203006718368_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! The contents of every unscoped buffer at the boundaries between @main's four segments — pallas_call 0, the host operations
    between the calls, pallas_call 1, the host operations after it — as a fold from the launch memory. -/

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- What pallas_call 0 leaves in its result's array. -/
def out0 (c : Dev nD) : Buf (Elt F) ((c : Thread nD τ).loc main_v0) := (Reg0.dat (V0 m) c).arrAt 3 cfg0.N
/-- After pallas_call 0. -/
def W1 (c : Dev nD) : Valuation τ sig (Elt F) := Function.update (W0 m c) main_v0 (out0 m c)
abbrev V1 : (c : Dev nD) → (b : Ref sig .tc) → Buf (Elt F) ((c : Thread nD τ).loc b) := fun c b => W1 m c b
/-- After the host operations between the calls. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- What pallas_call 1 leaves in its result's array. -/
def out1 (c : Dev nD) : Buf (Elt F) ((c : Thread nD τ).loc main_v5) := (Reg1.dat (V2 m) c).arrAt 3 cfg1.N
/-- After pallas_call 1. -/
def W3 (c : Dev nD) : Valuation τ sig (Elt F) := Function.update (W2 m c) main_v5 (out1 m c)
abbrev V3 : (c : Dev nD) → (b : Ref sig .tc) → Buf (Elt F) ((c : Thread nD τ).loc b) := fun c b => W3 m c b
/-- At the end. -/
abbrev W4 : Dev nD → Valuation τ sig (Elt F) := fun c => StableHlo.after hostOps2 (W3 m c)

end Cert.Kernel.Run
end
-- ==== Proof.RunK.lean ====
import proofs.«119457_j37203006718368_1_alg».proof.Proof.RunDefsK
import proofs.«119457_j37203006718368_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! @main as four segments — pallas_call 0, the host operations between the calls, pallas_call 1, the host operations after it —
    run from the launch memory: every weakly fair execution terminates, and every unscoped buffer ends at the contents the
    segments' fold computes: the launch contents, the first call's result in its array, the host operations applied, the second
    call's result in its array, the last host operations applied. -/

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (V0 m) c
  | ⟨1, _⟩ => fun c => Reg1.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Pallas_call 0 as a segment of @main over the thread state "every unscoped buffer at the boundary's contents, the generator
    register at some state, nothing owed": its arrays split out of the unscoped buffers on the way in and put back, the result's
    at what the write-backs left, on the way out. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Reg0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Reg0.entry (V0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ _ from Reg0.hout (V0 m) c).trans ?_
    unfold Pipeline.ΦA
    iintro ⟨Hr, Hp⟩
    isplitl [Hp]; · iexact Hp
    isplitr; · iempintro
    iexact Hr
  hexit c := by
    have hjoin := Reg0.exit (V0 m) c (V1 m c) (Function.update_self ..)
      (fun b hb => Function.update_of_ne (StableHlo.devRef_ne_of_ne hb : (Proc.devRef .tc b : DevRef τ sig) ≠ Proc.devRef .tc main_v0) _ _)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas_call 1 as a segment of @main over the thread state "every unscoped buffer at the boundary's contents, the generator
    register at some state, nothing owed": its arrays split out of the unscoped buffers on the way in and put back, the result's
    at what the write-backs left, on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Reg1.entry (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ _ from Reg1.hout (V2 m) c).trans ?_
    unfold Pipeline.ΦA
    iintro ⟨Hr, Hp⟩
    isplitl [Hp]; · iexact Hp
    isplitr; · iempintro
    iexact Hr
  hexit c := by
    have hjoin := Reg1.exit (V2 m) c (V3 m c) (Function.update_self ..)
      (fun b hb => Function.update_of_ne (StableHlo.devRef_ne_of_ne hb : (Proc.devRef .tc b : DevRef τ sig) ≠ Proc.devRef .tc main_v5) _ _)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show iprop(StableHlo.held (c : Thread nD τ) (Pipeline.ucRefs τ sig) (W4 m c) ∗ R c) ⊢ iprop(Tₙ m c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Run
end
-- ==== Proof.TailI.lean ====
/-
  What the host operations around the two kernel calls compute, as functions of the launch memory and of the two
  arrays the calls leave.

  The program's host side is two stretches of elementwise and reducing operations. Between the calls: the residual
  (the first call's array minus the second argument), the product of the third argument with the first call's array,
  its sum over all entries from the zero literal, and that sum times the weight literal. After the second call: the
  product of the residual with the second call's array, its sum over all entries from the zero literal, and the sum
  of the two terms. No stretch writes an argument array and no call may change one, so each argument reaches the
  end as launched; the first call's array is read where it was left, the rest of the memory as it was before.
  Everything here holds for every instance of the float operations: nothing is evaluated.
-/
import proofs.«119457_j37203006718368_1_alg».proof.Proof.RunDefsI
import proofs.«119457_j37203006718368_1_alg».proof.Proof.Gen.KernelIdeal.Regions

noncomputable section

namespace Cert.KernelIdeal.Tail
open Cert.KernelIdeal Cert.KernelIdeal.Gen Cert.KernelIdeal.Run
open Idealize.ShloMosaic Idealize.ShloMosaic.TcCoe Idealize.SL.Sem

variable {F : FTy → Type} [FloatOps F] (m : (ℓ : Loc nD τ sig) → Buf (Elt F) ℓ)

/-! ## What each segment leaves unchanged -/

/-- The first call may change only its result's array. -/
theorem W1_of (c : Dev nD) (r : Ref sig .tc) (h : r ∉ ([main_v0] : List (Ref sig .tc))) : W1 m c r = W0 m c r := by
  simp only [W1, Function.update_of_ne (StableHlo.devRef_ne_of_ne (List.ne_of_not_mem_cons h) : (Proc.devRef .tc r : DevRef τ sig) ≠ Proc.devRef .tc main_v0)]
/-- The stretch between the calls writes only its own results. -/
theorem W2_of (c : Dev nD) (r : Ref sig .tc) (h : r ∉ hostOps1_W) : W2 m c r = W1 m c r :=
  StableHlo.after_of_writes_sub hostOps1 _ hostOps1_writes h
/-- The second call may change only its result's array. -/
theorem W3_of (c : Dev nD) (r : Ref sig .tc) (h : r ∉ ([main_v5] : List (Ref sig .tc))) : W3 m c r = W2 m c r := by
  simp only [W3, Function.update_of_ne (StableHlo.devRef_ne_of_ne (List.ne_of_not_mem_cons h) : (Proc.devRef .tc r : DevRef τ sig) ≠ Proc.devRef .tc main_v5)]
/-- The last stretch writes only its own results. -/
theorem W4_of (c : Dev nD) (r : Ref sig .tc) (h : r ∉ hostOps2_W) : W4 m c r = W3 m c r :=
  StableHlo.after_of_writes_sub hostOps2 _ hostOps2_writes h

/-- After the first call its result's array holds what the call left. -/
theorem W1_v0 (c : Dev nD) : W1 m c main_v0 = out0 m c := by
  simp only [W1, Function.update_self]
/-- After the second call its result's array holds what the call left. -/
theorem W3_v5 (c : Dev nD) : W3 m c main_v5 = out1 m c := by
  simp only [W3, Function.update_self]

/-! ## The arguments reach the end as launched -/

theorem W4_arg0 (c : Dev nD) : W4 m c main_arg0 = m ((c : Thread nD τ).loc main_arg0) :=
  (W4_of m c main_arg0 (by decide)).trans <| (W3_of m c main_arg0 (by decide)).trans <| (W2_of m c main_arg0 (by decide)).trans <| (W1_of m c main_arg0 (by decide)).trans rfl
theorem W4_arg1 (c : Dev nD) : W4 m c main_arg1 = m ((c : Thread nD τ).loc main_arg1) :=
  (W4_of m c main_arg1 (by decide)).trans <| (W3_of m c main_arg1 (by decide)).trans <| (W2_of m c main_arg1 (by decide)).trans <| (W1_of m c main_arg1 (by decide)).trans rfl
theorem W4_arg2 (c : Dev nD) : W4 m c main_arg2 = m ((c : Thread nD τ).loc main_arg2) :=
  (W4_of m c main_arg2 (by decide)).trans <| (W3_of m c main_arg2 (by decide)).trans <| (W2_of m c main_arg2 (by decide)).trans <| (W1_of m c main_arg2 (by decide)).trans rfl

/-! ## What the second call reads -/

/-- The first argument is still as launched when the second call starts. -/
theorem V2_arg0 (c : Dev nD) : Run.V2 m c main_arg0 = m ((c : Thread nD τ).loc main_arg0) :=
  (W2_of m c main_arg0 (by decide)).trans <| (W1_of m c main_arg0 (by decide)).trans rfl

/-- The residual: the first call's array minus the second argument. -/
theorem V2_v1 (c : Dev nD) :
    Run.V2 m c main_v1 = (subf (out0 m c : (⟨S8192x16, .f32⟩ : BufTy).Contents (Elt F)) (m ((c : Thread nD τ).loc main_arg1)) : (⟨S8192x16, .f32⟩ : BufTy).Contents (Elt F)) := by
  show StableHlo.after hostOps1 (W1 m c) (Proc.devRef .tc main_v1) = _
  after_results
  rw [W1_v0, W1_of m c main_arg1 (by decide)]

/-- The weighted regularizer: the weight literal times the sum over all entries, from the zero literal, of the third
    argument times the first call's array. -/
theorem V2_v4 (c : Dev nD) :
    Run.V2 m c main_v4 = (mulf (constant (F := F) S_ .f32 0x3C23D70A#32)
      (Host.reduceAdd (mulf (m ((c : Thread nD τ).loc main_arg2) : (⟨S8192x16, .f32⟩ : BufTy).Contents (Elt F)) (out0 m c))
        (constant (F := F) S_ .f32 0x00000000#32) reducesTo_S8192x16_S_d0_1 h_S_) : (⟨S_, .f32⟩ : BufTy).Contents (Elt F)) := by
  show StableHlo.after hostOps1 (W1 m c) (Proc.devRef .tc main_v4) = _
  after_results
  rw [W1_v0, W1_of m c main_arg2 (by decide)]

/-! ## The result -/

/-- The program's result: the sum over all entries of residual times the second call's array, plus the weighted
    regularizer. -/
theorem W4_v8 (c : Dev nD) :
    W4 m c main_v8 = (addf
      (Host.reduceAdd (mulf (subf (out0 m c : (⟨S8192x16, .f32⟩ : BufTy).Contents (Elt F)) (m ((c : Thread nD τ).loc main_arg1))) (out1 m c))
        (constant (F := F) S_ .f32 0x00000000#32) reducesTo_S8192x16_S_d0_1 h_S_)
      (mulf (constant (F := F) S_ .f32 0x3C23D70A#32)
        (Host.reduceAdd (mulf (m ((c : Thread nD τ).loc main_arg2) : (⟨S8192x16, .f32⟩ : BufTy).Contents (Elt F)) (out0 m c))
          (constant (F := F) S_ .f32 0x00000000#32) reducesTo_S8192x16_S_d0_1 h_S_)) : (⟨S_, .f32⟩ : BufTy).Contents (Elt F)) := by
  show StableHlo.after hostOps2 (W3 m c) (Proc.devRef .tc main_v8) = _
  after_results
  rw [W3_v5, W3_of m c main_v1 (by decide), W3_of m c main_v4 (by decide)]
  exact congrArg₂ (fun a b => addf (Host.reduceAdd (mulf a (out1 m c)) (constant (F := F) S_ .f32 0x00000000#32) reducesTo_S8192x16_S_d0_1 h_S_) b)
    (V2_v1 m c) (V2_v4 m c)

end Cert.KernelIdeal.Tail

end
-- ==== Proof.TailK.lean ====
/-
  What the host operations around the two kernel calls compute, as functions of the launch memory and of the two
  arrays the calls leave.

  The program's host side is two stretches of elementwise and reducing operations. Between the calls: the residual
  (the first call's array minus the second argument), the product of the third argument with the first call's array,
  its sum over all entries from the zero literal, and that sum times the weight literal. After the second call: the
  product of the residual with the second call's array, its sum over all entries from the zero literal, and the sum
  of the two terms. No stretch writes an argument array and no call may change one, so each argument reaches the
  end as launched; the first call's array is read where it was left, the rest of the memory as it was before.
  Everything here holds for every instance of the float operations: nothing is evaluated.
-/
import proofs.«119457_j37203006718368_1_alg».proof.Proof.RunDefsK
import proofs.«119457_j37203006718368_1_alg».proof.Proof.Gen.Kernel.Regions

noncomputable section

namespace Cert.Kernel.Tail
open Cert.Kernel Cert.Kernel.Gen Cert.Kernel.Run
open Idealize.ShloMosaic Idealize.ShloMosaic.TcCoe Idealize.SL.Sem

variable {F : FTy → Type} [FloatOps F] (m : (ℓ : Loc nD τ sig) → Buf (Elt F) ℓ)

/-! ## What each segment leaves unchanged -/

/-- The first call may change only its result's array. -/
theorem W1_of (c : Dev nD) (r : Ref sig .tc) (h : r ∉ ([main_v0] : List (Ref sig .tc))) : W1 m c r = W0 m c r := by
  simp only [W1, Function.update_of_ne (StableHlo.devRef_ne_of_ne (List.ne_of_not_mem_cons h) : (Proc.devRef .tc r : DevRef τ sig) ≠ Proc.devRef .tc main_v0)]
/-- The stretch between the calls writes only its own results. -/
theorem W2_of (c : Dev nD) (r : Ref sig .tc) (h : r ∉ hostOps1_W) : W2 m c r = W1 m c r :=
  StableHlo.after_of_writes_sub hostOps1 _ hostOps1_writes h
/-- The second call may change only its result's array. -/
theorem W3_of (c : Dev nD) (r : Ref sig .tc) (h : r ∉ ([main_v5] : List (Ref sig .tc))) : W3 m c r = W2 m c r := by
  simp only [W3, Function.update_of_ne (StableHlo.devRef_ne_of_ne (List.ne_of_not_mem_cons h) : (Proc.devRef .tc r : DevRef τ sig) ≠ Proc.devRef .tc main_v5)]
/-- The last stretch writes only its own results. -/
theorem W4_of (c : Dev nD) (r : Ref sig .tc) (h : r ∉ hostOps2_W) : W4 m c r = W3 m c r :=
  StableHlo.after_of_writes_sub hostOps2 _ hostOps2_writes h

/-- After the first call its result's array holds what the call left. -/
theorem W1_v0 (c : Dev nD) : W1 m c main_v0 = out0 m c := by
  simp only [W1, Function.update_self]
/-- After the second call its result's array holds what the call left. -/
theorem W3_v5 (c : Dev nD) : W3 m c main_v5 = out1 m c := by
  simp only [W3, Function.update_self]

/-! ## The arguments reach the end as launched -/

theorem W4_arg0 (c : Dev nD) : W4 m c main_arg0 = m ((c : Thread nD τ).loc main_arg0) :=
  (W4_of m c main_arg0 (by decide)).trans <| (W3_of m c main_arg0 (by decide)).trans <| (W2_of m c main_arg0 (by decide)).trans <| (W1_of m c main_arg0 (by decide)).trans rfl
theorem W4_arg1 (c : Dev nD) : W4 m c main_arg1 = m ((c : Thread nD τ).loc main_arg1) :=
  (W4_of m c main_arg1 (by decide)).trans <| (W3_of m c main_arg1 (by decide)).trans <| (W2_of m c main_arg1 (by decide)).trans <| (W1_of m c main_arg1 (by decide)).trans rfl
theorem W4_arg2 (c : Dev nD) : W4 m c main_arg2 = m ((c : Thread nD τ).loc main_arg2) :=
  (W4_of m c main_arg2 (by decide)).trans <| (W3_of m c main_arg2 (by decide)).trans <| (W2_of m c main_arg2 (by decide)).trans <| (W1_of m c main_arg2 (by decide)).trans rfl

/-! ## What the second call reads -/

/-- The first argument is still as launched when the second call starts. -/
theorem V2_arg0 (c : Dev nD) : Run.V2 m c main_arg0 = m ((c : Thread nD τ).loc main_arg0) :=
  (W2_of m c main_arg0 (by decide)).trans <| (W1_of m c main_arg0 (by decide)).trans rfl

/-- The residual: the first call's array minus the second argument. -/
theorem V2_v1 (c : Dev nD) :
    Run.V2 m c main_v1 = (subf (out0 m c : (⟨S8192x16, .f32⟩ : BufTy).Contents (Elt F)) (m ((c : Thread nD τ).loc main_arg1)) : (⟨S8192x16, .f32⟩ : BufTy).Contents (Elt F)) := by
  show StableHlo.after hostOps1 (W1 m c) (Proc.devRef .tc main_v1) = _
  after_results
  rw [W1_v0, W1_of m c main_arg1 (by decide)]

/-- The weighted regularizer: the weight literal times the sum over all entries, from the zero literal, of the third
    argument times the first call's array. -/
theorem V2_v4 (c : Dev nD) :
    Run.V2 m c main_v4 = (mulf (constant (F := F) S_ .f32 0x3C23D70A#32)
      (Host.reduceAdd (mulf (m ((c : Thread nD τ).loc main_arg2) : (⟨S8192x16, .f32⟩ : BufTy).Contents (Elt F)) (out0 m c))
        (constant (F := F) S_ .f32 0x00000000#32) reducesTo_S8192x16_S_d0_1 h_S_) : (⟨S_, .f32⟩ : BufTy).Contents (Elt F)) := by
  show StableHlo.after hostOps1 (W1 m c) (Proc.devRef .tc main_v4) = _
  after_results
  rw [W1_v0, W1_of m c main_arg2 (by decide)]

/-! ## The result -/

/-- The program's result: the sum over all entries of residual times the second call's array, plus the weighted
    regularizer. -/
theorem W4_v8 (c : Dev nD) :
    W4 m c main_v8 = (addf
      (Host.reduceAdd (mulf (subf (out0 m c : (⟨S8192x16, .f32⟩ : BufTy).Contents (Elt F)) (m ((c : Thread nD τ).loc main_arg1))) (out1 m c))
        (constant (F := F) S_ .f32 0x00000000#32) reducesTo_S8192x16_S_d0_1 h_S_)
      (mulf (constant (F := F) S_ .f32 0x3C23D70A#32)
        (Host.reduceAdd (mulf (m ((c : Thread nD τ).loc main_arg2) : (⟨S8192x16, .f32⟩ : BufTy).Contents (Elt F)) (out0 m c))
          (constant (F := F) S_ .f32 0x00000000#32) reducesTo_S8192x16_S_d0_1 h_S_)) : (⟨S_, .f32⟩ : BufTy).Contents (Elt F)) := by
  show StableHlo.after hostOps2 (W3 m c) (Proc.devRef .tc main_v8) = _
  after_results
  rw [W3_v5, W3_of m c main_v1 (by decide), W3_of m c main_v4 (by decide)]
  exact congrArg₂ (fun a b => addf (Host.reduceAdd (mulf a (out1 m c)) (constant (F := F) S_ .f32 0x00000000#32) reducesTo_S8192x16_S_d0_1 h_S_) b)
    (V2_v1 m c) (V2_v4 m c)

end Cert.Kernel.Tail

end
-- ==== Proof.TileSpec.lean ====
/-
  The arithmetic of one tile of the Gaussian-kernel product, stated index by index over the extended reals.

  For a block `xi` of 2048 rows and a block `xj` of 1024 rows of a 16-column array, a scale `c`, an
  accumulator `acc` (2048 × 16) and a right-hand block `p` (1024 × 16), the tile is

    tile c xi xj acc p (r, d) = acc (r, d) + ∑ k : Fin 1024, K c (r, k) * p (k, d)

  with  K c (r, k) = 1 * exp (max ((|xi r|² + |xj k|²) - 2 * ⟨xi r, xj k⟩) 0 * c),
  |x r|² = ∑ e : Fin 16, x (r, e) * x (r, e)  and  ⟨xi r, xj k⟩ = ∑ e : Fin 16, xi (r, e) * xj (k, e).

  Every sum is a plain `Finset` sum over the coordinate's `Fin` type with no initial term in front of it. The
  float literals 2, 1 and 0 are kept as the words that denote them (`Ideal.ofBits .f32 …`); `kernelEntry_eq` and
  `sqDist_clamped` restate the clamp with the zero word evaluated to `0`.
-/
import Idealize.ShloMosaic.PureOps.Ideal
import Idealize.ShloMosaic.PureOps.Ideal.Laws
import Idealize.ShloMosaic.Lib.ValueIdx

noncomputable section

open scoped BigOperators

namespace Cert.TileSpec

open Idealize.ShloMosaic Idealize.ShloMosaic.ValueIdx

/-- The squared Euclidean norm of row `r` of an `n × 16` block: `∑ e, x (r, e) * x (r, e)`. -/
def sqNorm {n : Nat} (x : FVec Ideal ⟨2, ![n, 16]⟩ .f32) (r : Fin n) : EReal :=
  ∑ e : Fin 16, x (ix2 r e) * x (ix2 r e)

/-- The inner product of row `r` of one block with row `k` of another: `∑ e, xi (r, e) * xj (k, e)`. -/
def gramEntry {n m : Nat} (xi : FVec Ideal ⟨2, ![n, 16]⟩ .f32) (xj : FVec Ideal ⟨2, ![m, 16]⟩ .f32)
    (r : Fin n) (k : Fin m) : EReal :=
  ∑ e : Fin 16, xi (ix2 r e) * xj (ix2 k e)

/-- The squared distance of the two rows as the kernel forms it: `(|xi r|² + |xj k|²) - 2 * ⟨xi r, xj k⟩`
    (the word `0x40000000` is the float 2). -/
def sqDist {n m : Nat} (xi : FVec Ideal ⟨2, ![n, 16]⟩ .f32) (xj : FVec Ideal ⟨2, ![m, 16]⟩ .f32)
    (r : Fin n) (k : Fin m) : EReal :=
  (sqNorm xi r + sqNorm xj k) - Ideal.ofBits .f32 0x40000000#32 * gramEntry xi xj r k

/-- One entry of the Gaussian kernel matrix with scale `c`: `1 * exp (max (sqDist r k) 0 * c)` (the words
    `0x3F800000` and `0x00000000` are the floats 1 and 0). -/
def kernelEntry {n m : Nat} (c : EReal) (xi : FVec Ideal ⟨2, ![n, 16]⟩ .f32) (xj : FVec Ideal ⟨2, ![m, 16]⟩ .f32)
    (r : Fin n) (k : Fin m) : EReal :=
  Ideal.ofBits .f32 0x3F800000#32
    * Ideal.exp (max (sqDist xi xj r k) (Ideal.ofBits .f32 0x00000000#32) * c)

/-- The same entry with the clamp written against `0`. -/
theorem kernelEntry_eq {n m : Nat} (c : EReal) (xi : FVec Ideal ⟨2, ![n, 16]⟩ .f32)
    (xj : FVec Ideal ⟨2, ![m, 16]⟩ .f32) (r : Fin n) (k : Fin m) :
    kernelEntry c xi xj r k = Ideal.ofBits .f32 0x3F800000#32 * Ideal.exp (max (sqDist xi xj r k) 0 * c) := by
  unfold kernelEntry
  rw [Ideal.ofBits_zero_f32]

/-- The tile's value at row `r` and column `d`: the accumulator there plus the kernel row times the right-hand
    block's column. -/
def tileAt (c : EReal) (xi : FVec Ideal ⟨2, ![2048, 16]⟩ .f32) (xj : FVec Ideal ⟨2, ![1024, 16]⟩ .f32)
    (acc : FVec Ideal ⟨2, ![2048, 16]⟩ .f32) (p : FVec Ideal ⟨2, ![1024, 16]⟩ .f32) (r : Fin 2048) (d : Fin 16) : EReal :=
  acc (ix2 r d) + ∑ k : Fin 1024, kernelEntry c xi xj r k * p (ix2 k d)

/-- The tile as a block: `tileAt` at the index's two coordinates. -/
def tile (c : EReal) (xi : FVec Ideal ⟨2, ![2048, 16]⟩ .f32) (xj : FVec Ideal ⟨2, ![1024, 16]⟩ .f32)
    (acc : FVec Ideal ⟨2, ![2048, 16]⟩ .f32) (p : FVec Ideal ⟨2, ![1024, 16]⟩ .f32) :
    FVec Ideal ⟨2, ![2048, 16]⟩ .f32 :=
  fun j => tileAt c xi xj acc p (j 0) (j 1)

/-- The tile read at an index given by its coordinates. -/
theorem tile_apply (c : EReal) (xi : FVec Ideal ⟨2, ![2048, 16]⟩ .f32) (xj : FVec Ideal ⟨2, ![1024, 16]⟩ .f32)
    (acc : FVec Ideal ⟨2, ![2048, 16]⟩ .f32) (p : FVec Ideal ⟨2, ![1024, 16]⟩ .f32) (r : Fin 2048) (d : Fin 16) :
    tile c xi xj acc p (ix2 r d) = tileAt c xi xj acc p r d := rfl

end Cert.TileSpec

end
-- ==== Proof.KerSpec.lean ====
/-
  The Gaussian-kernel product as the Pallas calls compute it: the 8192 rows in 4 blocks of 2048, the 8192 columns of the
  kernel matrix in 8 blocks of 1024; for each row block the tiles' contributions are added one column block after the other,
  starting from zero.  `prod c X P` is the 8192 × 16 array the call leaves:  prod c X P (a, e) = ∑ over the 8 column blocks,
  in order, of ∑ k, K_c(a, 1024 j + k) · P(1024 j + k, e).
-/
import proofs.«119457_j37203006718368_1_alg».proof.Proof.TileSpec

noncomputable section

namespace Cert.KerSpec

open Idealize.ShloMosaic Idealize.ShloMosaic.ValueIdx Cert.TileSpec

abbrev Mat : Type := FVec Ideal ⟨2, ![8192, 16]⟩ .f32

/-- Row block `i` (2048 rows) of an 8192 × 16 array. -/
def rowBlk (X : Mat) (i : ℕ) : FVec Ideal ⟨2, ![2048, 16]⟩ .f32 :=
  fun y => X (ix2 (Fin.ofNat 8192 (i * 2048 + (y 0).val)) (Fin.ofNat 16 (y 1).val))

/-- Column-side block `j` (1024 rows) of an 8192 × 16 array. -/
def colBlk (X : Mat) (j : ℕ) : FVec Ideal ⟨2, ![1024, 16]⟩ .f32 :=
  fun y => X (ix2 (Fin.ofNat 8192 (j * 1024 + (y 0).val)) (Fin.ofNat 16 (y 1).val))

/-- The accumulator of row block `i` after column blocks `0 … j`. -/
def acc (c : EReal) (X P : Mat) (i : ℕ) : ℕ → FVec Ideal ⟨2, ![2048, 16]⟩ .f32
  | 0 => tile c (rowBlk X i) (colBlk X 0) (fun _ => 0) (colBlk P 0)
  | j + 1 => tile c (rowBlk X i) (colBlk X (j + 1)) (acc c X P i j) (colBlk P (j + 1))

/-- What the call leaves: row `a` lies in row block `a / 2048`, at row `a % 2048` of it, after all 8 column blocks. -/
def prod (c : EReal) (X P : Mat) : Mat :=
  fun a => acc c X P ((a 0).val / 2048) 7 (ix2 (Fin.ofNat 2048 ((a 0).val % 2048)) (Fin.ofNat 16 (a 1).val))

end Cert.KerSpec

end
-- ==== Proof.RefSpec.lean ====
/-
  The loss the reference computes, written index by index over the extended reals.

  For X, Y, Lam : f32[8192, 16], with rows x_a of X:
    sq a        = 0 + sum_e X[a,e] * X[a,e]                         (squared norm of row a)
    gram a b    = sum_e X[a,e] * X[b,e]                             (inner product of rows a and b)
    dist2 a b   = max (sq a + sq b - 2 * gram a b) 0                (clamped squared distance)
    rbf w a b   = 1 * exp ((- dist2 a b) / w)                       (Gaussian kernel, divisor literal w)
    kfit = rbf 2,  kmmd = rbf 8
    fitted a e  = sum_k kfit a k * Lam[k,e]                         (K_fit @ Lam)
    diff a e    = fitted a e - Y[a,e]
    smooth a e  = sum_k kmmd a k * diff k e                         (K_mmd @ diff)
    lossFit     = 0 + sum_a sum_e diff a e * smooth a e
    lossReg     = 0 + sum_a sum_e Lam[a,e] * fitted a e
    loss        = lossFit + 0.01f * lossReg
  Every operation is the extended reals' (sums, products, max, negation, Ideal.div, Ideal.exp), in the order the
  reference applies them: negate first, then divide by the literal. The float literals stay as their 32-bit words
  (0x00000000 = 0, 0x3F800000 = 1, 0x40000000 = 2, 0x41000000 = 8, 0x3C23D70A = the float nearest 0.01); nothing
  here evaluates one. No program is imported: the definitions are over literal shapes and literal index types only.
-/
import Idealize.ShloMosaic.PureOps.Ideal
import Idealize.ShloMosaic.Lib.ValueIdx

noncomputable section

open scoped BigOperators

namespace Cert.RefSpec

open Idealize.ShloMosaic Idealize.ShloMosaic.ValueIdx

/-- An 8192 x 16 array of extended reals. -/
abbrev Mat : Type := FVec Ideal ⟨2, ![8192, 16]⟩ .f32

/-- A kernel matrix applied to an 8192 x 16 array given by its entries: row `a`, column `e` of `K @ P`. -/
def matvec (K : Fin 8192 → Fin 8192 → EReal) (P : Fin 8192 → Fin 16 → EReal) (a : Fin 8192) (e : Fin 16) : EReal :=
  ∑ k : Fin 8192, K a k * P k e

/-- A host sum of all entries: the initial value plus the double sum. -/
def total (init : EReal) (P : Fin 8192 → Fin 16 → EReal) : EReal :=
  init + ∑ a : Fin 8192, ∑ e : Fin 16, P a e

/-- The squared norm of row `a`: the zero literal plus the sum of the squares of its 16 entries. -/
def sq (X : Mat) (a : Fin 8192) : EReal :=
  (Ideal.ofBits .f32 0x00000000#32 : EReal) + ∑ e : Fin 16, X (ix2 a e) * X (ix2 a e)

/-- The inner product of rows `a` and `b`. -/
def gram (X : Mat) (a b : Fin 8192) : EReal :=
  ∑ e : Fin 16, X (ix2 a e) * X (ix2 b e)

/-- The squared distance of rows `a` and `b` by the polarization formula, clamped below at the zero literal. -/
def dist2 (X : Mat) (a b : Fin 8192) : EReal :=
  max (sq X a + sq X b - (Ideal.ofBits .f32 0x40000000#32 : EReal) * gram X a b) (Ideal.ofBits .f32 0x00000000#32 : EReal)

/-- The Gaussian kernel with the divisor literal `w`: negate the clamped distance, divide by `w`, exponentiate,
    and multiply the literal one in front. -/
def rbf (w : BitVec 32) (X : Mat) (a b : Fin 8192) : EReal :=
  (Ideal.ofBits .f32 0x3F800000#32 : EReal) * Ideal.exp (Ideal.div (-(dist2 X a b)) (Ideal.ofBits .f32 w : EReal))

/-- The fitting kernel: divisor 2. -/
def kfit (X : Mat) (a b : Fin 8192) : EReal := rbf 0x40000000#32 X a b

/-- The discrepancy kernel: divisor 8. -/
def kmmd (X : Mat) (a b : Fin 8192) : EReal := rbf 0x41000000#32 X a b

/-- `K_fit @ Lam`. -/
def fitted (X Lam : Mat) (a : Fin 8192) (e : Fin 16) : EReal :=
  matvec (kfit X) (fun k e' => Lam (ix2 k e')) a e

/-- The residual `K_fit @ Lam - Y`. -/
def diff (X Y Lam : Mat) (a : Fin 8192) (e : Fin 16) : EReal :=
  fitted X Lam a e - Y (ix2 a e)

/-- `K_mmd @ diff`. -/
def smooth (X Y Lam : Mat) (a : Fin 8192) (e : Fin 16) : EReal :=
  matvec (kmmd X) (diff X Y Lam) a e

/-- The data term: the sum of `diff * (K_mmd @ diff)` over all entries, from the zero literal. -/
def lossFit (X Y Lam : Mat) : EReal :=
  total (Ideal.ofBits .f32 0x00000000#32 : EReal) (fun a e => diff X Y Lam a e * smooth X Y Lam a e)

/-- The regularizer before its weight: the sum of `Lam * (K_fit @ Lam)` over all entries, from the zero literal. -/
def lossReg (X Lam : Mat) : EReal :=
  total (Ideal.ofBits .f32 0x00000000#32 : EReal) (fun a e => Lam (ix2 a e) * fitted X Lam a e)

/-- The loss: the data term plus the weight literal times the regularizer, as a rank-0 array. -/
def loss (X Y Lam : FVec Ideal ⟨2, ![8192, 16]⟩ .f32) : FVec Ideal ⟨0, ![]⟩ .f32 :=
  fun _ => lossFit X Y Lam + (Ideal.ofBits .f32 0x3C23D70A#32 : EReal) * lossReg X Lam

end Cert.RefSpec

end
-- ==== Proof.Bridge.lean ====
/-
  The blocked Gaussian-kernel product is the whole kernel-matrix product, and the shared last operations give the loss.

  (1) One entry of a tile's kernel matrix is the Gaussian kernel of the two rows it stands for. The tile clamps the
      squared distance and multiplies by a scale c; the specification negates the clamped distance and divides by a
      literal w. The two agree as soon as (-d) / w = d * c for every extended real d, which holds for w = 2, c = -1/2
      and for w = 8, c = -1/8: dividing by a nonzero real is multiplying by its inverse, and the sign moves across the
      product. This is the only place a float literal is evaluated. The row norms agree because the specification's
      leading zero literal is 0.
  (2) The accumulator after column blocks 0 … j is the sum over those blocks of the block's partial products: the
      first block is added to zero, each later one to what is already there.
  (3) Eight consecutive blocks of 1024 are the 8192 columns: (j, k) ↦ 1024 j + k is a bijection from pairs onto the
      whole range, so the double sum over blocks and positions is the single sum over all columns. Sums of extended
      reals may be regrouped and reordered freely; no finiteness is used.
  (4) Row a is row a mod 2048 of row block a / 2048.
  (5) The last operations are shared: a sum over all 8192 x 16 entries from the zero literal is the literal plus the
      double sum over rows and columns, so the sum of residual times smoothed residual plus the weight literal times
      the sum of Lam times the fitted array is the loss, entry for entry.
-/
import proofs.«119457_j37203006718368_1_alg».proof.Proof.KerSpec
import proofs.«119457_j37203006718368_1_alg».proof.Proof.RefSpec
import Idealize.ShloMosaic.PureOps
import Idealize.ShloMosaic.PureOps.Ideal.Laws

noncomputable section

open scoped BigOperators

namespace Cert.Bridge

open Idealize.ShloMosaic Idealize.ShloMosaic.ValueIdx Cert.TileSpec Cert.KerSpec

/-! ## The four literals, evaluated once -/

/-- The word 0x40000000 denotes 2. -/
theorem ofBits_two : Ideal.ofBits .f32 0x40000000#32 = ((2 : ℝ) : EReal) := by
  simp [Ideal.ofBits, Ideal.ieee, -EReal.coe_mul]; norm_num
/-- The word 0x41000000 denotes 8. -/
theorem ofBits_eight : Ideal.ofBits .f32 0x41000000#32 = ((8 : ℝ) : EReal) := by
  simp [Ideal.ofBits, Ideal.ieee, -EReal.coe_mul]; norm_num
/-- The word 0xBF000000 denotes -1/2. -/
theorem ofBits_neg_half : Ideal.ofBits .f32 0xBF000000#32 = ((-(1 / 2) : ℝ) : EReal) := by
  simp [Ideal.ofBits, Ideal.ieee, -EReal.coe_mul]; norm_num
/-- The word 0xBE000000 denotes -1/8. -/
theorem ofBits_neg_eighth : Ideal.ofBits .f32 0xBE000000#32 = ((-(1 / 8) : ℝ) : EReal) := by
  simp [Ideal.ofBits, Ideal.ieee, -EReal.coe_mul]; norm_num

/-- Negating and dividing by 2 is multiplying by -1/2, on every extended real. -/
theorem neg_div_two (d : EReal) :
    Ideal.div (-d) (Ideal.ofBits .f32 0x40000000#32) = d * Ideal.ofBits .f32 0xBF000000#32 := by
  rw [ofBits_two, ofBits_neg_half, Ideal.div_coe (by norm_num : (2 : ℝ) ≠ 0), EReal.coe_neg, neg_mul, mul_neg]

/-- Negating and dividing by 8 is multiplying by -1/8, on every extended real. -/
theorem neg_div_eight (d : EReal) :
    Ideal.div (-d) (Ideal.ofBits .f32 0x41000000#32) = d * Ideal.ofBits .f32 0xBE000000#32 := by
  rw [ofBits_eight, ofBits_neg_eighth, Ideal.div_coe (by norm_num : (8 : ℝ) ≠ 0), EReal.coe_neg, neg_mul, mul_neg]

/-! ## Blocks read at coordinates -/

/-- A column coordinate below 16 is itself. -/
theorem ofNat16 (e : Fin 16) : Fin.ofNat 16 e.val = e := Fin.ext (Nat.mod_eq_of_lt e.isLt)

/-- Row `r` of row block `i` is row `2048 i + r` of the array. -/
theorem rowBlk_apply (X : Mat) (i : ℕ) (r : Fin 2048) (e : Fin 16) :
    rowBlk X i (ix2 r e) = X (ix2 (Fin.ofNat 8192 (i * 2048 + r.val)) e) := by
  show X (ix2 (Fin.ofNat 8192 (i * 2048 + r.val)) (Fin.ofNat 16 e.val)) = _
  rw [ofNat16]

/-- Row `k` of column-side block `j` is row `1024 j + k` of the array. -/
theorem colBlk_apply (X : Mat) (j : ℕ) (k : Fin 1024) (e : Fin 16) :
    colBlk X j (ix2 k e) = X (ix2 (Fin.ofNat 8192 (j * 1024 + k.val)) e) := by
  show X (ix2 (Fin.ofNat 8192 (j * 1024 + k.val)) (Fin.ofNat 16 e.val)) = _
  rw [ofNat16]

/-- A block row's squared norm is the array row's: the specification's leading zero literal is 0. -/
theorem sqNorm_rowBlk (X : Mat) (i : ℕ) (r : Fin 2048) :
    sqNorm (rowBlk X i) r = Cert.RefSpec.sq X (Fin.ofNat 8192 (i * 2048 + r.val)) := by
  unfold sqNorm Cert.RefSpec.sq
  rw [Ideal.ofBits_zero_f32, zero_add]
  exact Finset.sum_congr rfl fun e _ => by rw [rowBlk_apply]

theorem sqNorm_colBlk (X : Mat) (j : ℕ) (k : Fin 1024) :
    sqNorm (colBlk X j) k = Cert.RefSpec.sq X (Fin.ofNat 8192 (j * 1024 + k.val)) := by
  unfold sqNorm Cert.RefSpec.sq
  rw [Ideal.ofBits_zero_f32, zero_add]
  exact Finset.sum_congr rfl fun e _ => by rw [colBlk_apply]

/-- The inner product of a row-block row with a column-block row is the array rows' inner product. -/
theorem gramEntry_blk (X : Mat) (i j : ℕ) (r : Fin 2048) (k : Fin 1024) :
    gramEntry (rowBlk X i) (colBlk X j) r k
      = Cert.RefSpec.gram X (Fin.ofNat 8192 (i * 2048 + r.val)) (Fin.ofNat 8192 (j * 1024 + k.val)) := by
  unfold gramEntry Cert.RefSpec.gram
  exact Finset.sum_congr rfl fun e _ => by rw [rowBlk_apply, colBlk_apply]

/-- ONE ENTRY OF A TILE'S KERNEL MATRIX is the Gaussian kernel of the two array rows, whenever negating and dividing
    by the literal `w` is multiplying by the scale `c`. -/
theorem kernelEntry_blk (c : EReal) (w : BitVec 32)
    (hc : ∀ d : EReal, Ideal.div (-d) (Ideal.ofBits .f32 w) = d * c)
    (X : Mat) (i j : ℕ) (r : Fin 2048) (k : Fin 1024) :
    kernelEntry c (rowBlk X i) (colBlk X j) r k
      = Cert.RefSpec.rbf w X (Fin.ofNat 8192 (i * 2048 + r.val)) (Fin.ofNat 8192 (j * 1024 + k.val)) := by
  unfold kernelEntry Cert.RefSpec.rbf Cert.RefSpec.dist2 sqDist
  rw [hc, sqNorm_rowBlk, sqNorm_colBlk, gramEntry_blk]

/-! ## The accumulator is a sum over the column blocks met so far -/

theorem acc_apply (c : EReal) (X P : Mat) (i : ℕ) : ∀ (j : ℕ) (r : Fin 2048) (d : Fin 16),
    acc c X P i j (ix2 r d)
      = ∑ jj ∈ Finset.range (j + 1), ∑ k : Fin 1024,
          kernelEntry c (rowBlk X i) (colBlk X jj) r k * colBlk P jj (ix2 k d)
  | 0, r, d => by
      show (0 : EReal) + ∑ k : Fin 1024, kernelEntry c (rowBlk X i) (colBlk X 0) r k * colBlk P 0 (ix2 k d) = _
      rw [zero_add, Finset.sum_range_one]
  | j + 1, r, d => by
      show acc c X P i j (ix2 r d)
        + ∑ k : Fin 1024, kernelEntry c (rowBlk X i) (colBlk X (j + 1)) r k * colBlk P (j + 1) (ix2 k d) = _
      rw [Finset.sum_range_succ, acc_apply c X P i j r d]

/-! ## Eight blocks of 1024 are the 8192 columns -/

/-- Block `j`, position `k` ↦ column `1024 j + k`: a bijection onto the 8192 columns. -/
def blkEquiv : Fin 8 × Fin 1024 ≃ Fin 8192 where
  toFun p := ⟨p.1.val * 1024 + p.2.val, by have := p.1.isLt; have := p.2.isLt; omega⟩
  invFun K := (⟨K.val / 1024, by have := K.isLt; omega⟩, ⟨K.val % 1024, by omega⟩)
  left_inv p := by
    have h1 := p.1.isLt
    have h2 := p.2.isLt
    refine Prod.ext (Fin.ext ?_) (Fin.ext ?_)
    · show (p.1.val * 1024 + p.2.val) / 1024 = p.1.val
      omega
    · show (p.1.val * 1024 + p.2.val) % 1024 = p.2.val
      omega
  right_inv K := Fin.ext (by
    show K.val / 1024 * 1024 + K.val % 1024 = K.val
    omega)

/-- The sum over the eight blocks, in order, of the sums over a block's 1024 positions is the sum over all columns. -/
theorem sum_blocks (f : Fin 8192 → EReal) :
    ∑ j ∈ Finset.range 8, ∑ k : Fin 1024, f (Fin.ofNat 8192 (j * 1024 + k.val)) = ∑ K : Fin 8192, f K := by
  rw [Finset.sum_range, ← Equiv.sum_comp blkEquiv f, Fintype.sum_prod_type]
  refine Finset.sum_congr rfl fun j _ => Finset.sum_congr rfl fun k _ => congrArg f (Fin.ext ?_)
  show (j.val * 1024 + k.val) % 8192 = j.val * 1024 + k.val
  have := j.isLt
  have := k.isLt
  exact Nat.mod_eq_of_lt (by omega)

/-! ## The blocked product is the whole product -/

/-- Row `a` is row `a mod 2048` of row block `a / 2048`. -/
theorem row_of_blk (a : Fin 8192) :
    Fin.ofNat 8192 (a.val / 2048 * 2048 + (Fin.ofNat 2048 (a.val % 2048)).val) = a := Fin.ext (by
  show (a.val / 2048 * 2048 + a.val % 2048 % 2048) % 8192 = a.val
  have := a.isLt
  omega)

/-- The blocked product with scale `c` is the product with the Gaussian kernel of divisor `w`. -/
theorem prod_eq (c : EReal) (w : BitVec 32) (hc : ∀ d : EReal, Ideal.div (-d) (Ideal.ofBits .f32 w) = d * c)
    (X P : Mat) (a : Fin 8192) (e : Fin 16) :
    prod c X P (ix2 a e) = Cert.RefSpec.matvec (Cert.RefSpec.rbf w X) (fun k e' => P (ix2 k e')) a e := by
  show acc c X P (a.val / 2048) 7 (ix2 (Fin.ofNat 2048 (a.val % 2048)) (Fin.ofNat 16 e.val)) = _
  rw [ofNat16, acc_apply]
  refine Eq.trans ?_ (sum_blocks (fun K => Cert.RefSpec.rbf w X a K * P (ix2 K e)))
  refine Finset.sum_congr rfl fun j _ => Finset.sum_congr rfl fun k _ => ?_
  rw [kernelEntry_blk c w hc, colBlk_apply, row_of_blk]

/-- The first call: scale -1/2 against the fitting kernel (divisor 2). -/
theorem prod_fit (X P : Cert.KerSpec.Mat) (a : Fin 8192) (e : Fin 16) :
    Cert.KerSpec.prod (Ideal.ofBits .f32 0xBF000000#32) X P (ValueIdx.ix2 a e)
      = Cert.RefSpec.matvec (Cert.RefSpec.kfit X) (fun k e' => P (ValueIdx.ix2 k e')) a e :=
  prod_eq _ 0x40000000#32 neg_div_two X P a e

/-- The second call: scale -1/8 against the discrepancy kernel (divisor 8). -/
theorem prod_mmd (X P : Cert.KerSpec.Mat) (a : Fin 8192) (e : Fin 16) :
    Cert.KerSpec.prod (Ideal.ofBits .f32 0xBE000000#32) X P (ValueIdx.ix2 a e)
      = Cert.RefSpec.matvec (Cert.RefSpec.kmmd X) (fun k e' => P (ValueIdx.ix2 k e')) a e :=
  prod_eq _ 0x41000000#32 neg_div_eight X P a e

/-! ## The shared last operations -/

/-- A host sum of all entries of an 8192 x 16 array from the zero literal: the literal plus the double sum over rows
    and columns. Any two proofs of the side conditions give the same function. -/
theorem reduceAll_apply (V : FVec Ideal ⟨2, ![8192, 16]⟩ .f32)
    (h : (⟨2, ![8192, 16]⟩ : Shape).ReducesTo [0, 1] ⟨0, ![]⟩) (h' : 0 < (⟨0, ![]⟩ : Shape).numel)
    (i : (⟨0, ![]⟩ : Shape).Idx) :
    Host.reduceAdd (F := Ideal) V (constant (F := Ideal) ⟨0, ![]⟩ .f32 0x00000000#32) h h' i
      = (Ideal.ofBits .f32 0x00000000#32 : EReal) + ∑ a : Fin 8192, ∑ e : Fin 16, V (ix2 a e) := by
  simp only [Host.reduceAdd, Ideal.hostReduceAdd_def]
  rw [Ideal.hostReduceAdd_total h (fun b => b.elim0), sum_idx2]
  rfl

/-- THE LAST OPERATIONS GIVE THE LOSS: with `A0` the fitted array, `D0` the residual and `B0` the smoothed residual,
    the sum of `D0 * B0` over all entries plus the weight literal times the sum of `Lam * A0` is the loss. -/
theorem tail_eq (X Y Lam : Cert.RefSpec.Mat) (A0 D0 B0 : FVec Ideal ⟨2, ![8192, 16]⟩ .f32)
    (hA : ∀ (a : Fin 8192) (e : Fin 16), A0 (ix2 a e) = Cert.RefSpec.fitted X Lam a e)
    (hD : D0 = subf A0 Y)
    (hB : ∀ (a : Fin 8192) (e : Fin 16), B0 (ix2 a e) = Cert.RefSpec.smooth X Y Lam a e)
    (h : (⟨2, ![8192, 16]⟩ : Shape).ReducesTo [0, 1] ⟨0, ![]⟩) (h' : 0 < (⟨0, ![]⟩ : Shape).numel) :
    addf (Host.reduceAdd (F := Ideal) (mulf D0 B0) (constant (F := Ideal) ⟨0, ![]⟩ .f32 0x00000000#32) h h')
      (mulf (constant (F := Ideal) ⟨0, ![]⟩ .f32 0x3C23D70A#32)
        (Host.reduceAdd (F := Ideal) (mulf Lam A0) (constant (F := Ideal) ⟨0, ![]⟩ .f32 0x00000000#32) h h'))
      = Cert.RefSpec.loss X Y Lam := by
  have e1 : ∀ (a : Fin 8192) (e : Fin 16),
      (mulf D0 B0) (ix2 a e) = Cert.RefSpec.diff X Y Lam a e * Cert.RefSpec.smooth X Y Lam a e := by
    intro a e
    rw [mulf_apply, hB, hD, subf_apply, hA]
    rfl
  have e2 : ∀ (a : Fin 8192) (e : Fin 16),
      (mulf Lam A0) (ix2 a e) = Lam (ix2 a e) * Cert.RefSpec.fitted X Lam a e := by
    intro a e
    rw [mulf_apply, hA]
  funext i
  rw [addf_apply, mulf_apply, reduceAll_apply, reduceAll_apply]
  simp only [e1, e2]
  rfl

end Cert.Bridge

end
-- ==== Proof.LossI.lean ====
/-
  The kernel program's result is the loss, once each call is known to leave the blocked Gaussian-kernel product.

  If the first call leaves the blocked product with scale -1/2 of the first and third arguments, that array is the
  fitted array K_fit @ Lam. The second call reads the first argument unchanged and the residual, so if it leaves the
  blocked product with scale -1/8 of those, its array is K_mmd @ (K_fit @ Lam - Y). The host operations after it are
  the shared last operations, which give the loss.
-/
import proofs.«119457_j37203006718368_1_alg».proof.Proof.TailI
import proofs.«119457_j37203006718368_1_alg».proof.Proof.Bridge

noncomputable section

namespace Cert.KernelIdeal.Loss
open Cert.KernelIdeal Cert.KernelIdeal.Gen Cert.KernelIdeal.Run Cert.KernelIdeal.Tail
open Idealize.ShloMosaic Idealize.ShloMosaic.TcCoe Idealize.SL.Sem Idealize.ShloMosaic.ValueIdx

/-- THE PROGRAM'S RESULT IS THE LOSS, given what the two calls leave. -/
theorem loss_eq (m : (ℓ : Loc nD τ sig) → Buf (Elt Ideal) ℓ) (c : Dev nD)
    (h0 : out0 m c = Cert.KerSpec.prod (Ideal.ofBits .f32 0xBF000000#32)
      (m ((c : Thread nD τ).loc main_arg0)) (m ((c : Thread nD τ).loc main_arg2)))
    (h1 : out1 m c = Cert.KerSpec.prod (Ideal.ofBits .f32 0xBE000000#32)
      (Run.V2 m c main_arg0) (Run.V2 m c main_v1)) :
    W4 (F := Ideal) m c main_v8
      = Cert.RefSpec.loss (m ((c : Thread nD τ).loc main_arg0)) (m ((c : Thread nD τ).loc main_arg1))
          (m ((c : Thread nD τ).loc main_arg2)) := by
  -- the first call's array is the fitted array
  have hA : ∀ (a : Fin 8192) (e : Fin 16), (out0 m c : Cert.RefSpec.Mat) (ix2 a e)
      = Cert.RefSpec.fitted (m ((c : Thread nD τ).loc main_arg0)) (m ((c : Thread nD τ).loc main_arg2)) a e :=
    fun a e => by
      rw [h0]
      exact Cert.Bridge.prod_fit _ _ a e
  -- the residual, entry by entry
  have hdiff : (fun (k : Fin 8192) (e' : Fin 16) =>
        (subf (out0 m c : Cert.RefSpec.Mat) (m ((c : Thread nD τ).loc main_arg1)) : Cert.RefSpec.Mat) (ix2 k e'))
      = Cert.RefSpec.diff (m ((c : Thread nD τ).loc main_arg0)) (m ((c : Thread nD τ).loc main_arg1))
          (m ((c : Thread nD τ).loc main_arg2)) := by
    funext k e'
    rw [subf_apply, hA]
    rfl
  -- the second call's array is the smoothed residual
  have hB : ∀ (a : Fin 8192) (e : Fin 16), (out1 m c : Cert.RefSpec.Mat) (ix2 a e)
      = Cert.RefSpec.smooth (m ((c : Thread nD τ).loc main_arg0)) (m ((c : Thread nD τ).loc main_arg1))
          (m ((c : Thread nD τ).loc main_arg2)) a e :=
    fun a e => by
      rw [h1, V2_arg0, V2_v1]
      refine (Cert.Bridge.prod_mmd _ _ a e).trans ?_
      exact congrArg (fun Pf => Cert.RefSpec.matvec (Cert.RefSpec.kmmd (m ((c : Thread nD τ).loc main_arg0))) Pf a e) hdiff
  rw [W4_v8]
  exact Cert.Bridge.tail_eq _ _ _ (out0 m c) _ (out1 m c) hA rfl hB _ _

end Cert.KernelIdeal.Loss

end
-- ==== Proof.Tile0.lean ====
/-
  The first Gaussian-kernel product's tile, read at an index: the generated payload of the kernel's body — the value
  the body stores into its accumulator — is the tile of `Cert.TileSpec` with scale the float `-0.5`, and the value it
  stores at the first column block is zero.

  The module first reads, at an index given by its coordinates, the operations of the body that are not pointwise:
  a sum along the second axis, the casts and broadcasts that turn a vector of row sums into a column and a row of a
  matrix, and a matrix product into a zero accumulator.
-/
import proofs.«119457_j37203006718368_1_alg».proof.Proof.Gen.KernelIdeal.Skeleton
import proofs.«119457_j37203006718368_1_alg».proof.Proof.TileSpec
import Idealize.ShloMosaic.Lib.ValueLayout
import Idealize.ShloMosaic.PureOps.Ideal.Laws

noncomputable section

open scoped BigOperators

namespace Cert.TileValue

open Idealize.ShloMosaic Idealize.ShloMosaic.ValueIdx

/-! ## The operations that are not pointwise, read at coordinates -/

section Ops
variable {α : Type}

/-- An exponential at an index is the exponential of the element. -/
theorem exp_apply {s : Shape} {φ : FTy} (a : FVec Ideal s φ) (i : s.Idx) : exp a i = Ideal.exp (a i) := rfl

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the second axis of an `[n, m]` block reads, at `r`, the sum over `e : Fin m` of the block at `(r, e)`:
    no initial term is left in front of the sum. -/
theorem rowSum_apply {n m : ℕ} (src : FVec Ideal ⟨2, ![n, m]⟩ .f32) (h : Shape.Reduces ⟨2, ![n, m]⟩ [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ e : Fin m, src (ix2 r e) := by
  refine (Ideal.multiReduction_add_single src 0x00000000#32 h hφ hacc (ix1 r)).trans ?_
  refine Finset.sum_congr rfl fun e _ => congrArg src ?_
  funext c; apply Fin.ext
  match c with
  | ⟨0, _⟩ => rfl
  | ⟨1, _⟩ => rfl

/-- The product of an `[m, k]` by a `[k, n]` matrix into the zero accumulator reads, at `(a, b)`, the sum over the
    contracted coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same product with the right factor given by its transpose: at `(a, b)`, the sum over `c` of `A (a, c) * B (b, c)`. -/
theorem matmul_transpose_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![n, k]⟩ φ₂)
    (ht : (⟨2, ![n, k]⟩ : Shape).Transposes [1, 0] ⟨2, ![k, n]⟩) (a : Fin m) (b : Fin n) :
    matmul (⟨[1], [0], [0], [1], [], [], w⟩ : DotDims _ _ _) prec A (transpose ⟨2, ![k, n]⟩ [1, 0] B ht)
        (constant (F := Ideal) ⟨2, ![m, n]⟩ .f32 0x00000000#32) (ix2 a b)
      = ∑ c : Fin k, A (ix2 a c) * B (ix2 b c) := by
  rw [matmul_zero_apply]
  exact Finset.sum_congr rfl fun c _ => by rw [transpose_ix2_apply]

end Ops

/-! ## The payloads -/

open Cert.KernelIdeal Cert.KernelIdeal.Facts₀ Cert.TileSpec

/-- The value the body stores at the first column block is zero everywhere. -/
theorem k0_pay1_eq : Gen.k0_pay1 (F := Ideal) = fun _ => 0 := by
  funext j
  unfold Gen.k0_pay1
  simp only [shapeCast_self, broadcast_apply]
  exact Ideal.ofBits_zero_f32

/-- The value the body stores into its accumulator is the tile with scale the float `-0.5`. -/
theorem k0_pay2_eq (v3 : FVec Ideal ⟨2, ![2048, 16]⟩ .f32) (v4 : FVec Ideal ⟨2, ![1024, 16]⟩ .f32)
    (v27 : FVec Ideal ⟨2, ![2048, 16]⟩ .f32) (v28 : FVec Ideal ⟨2, ![1024, 16]⟩ .f32) :
    Gen.k0_pay2 (F := Ideal) v3 v4 v27 v28 = tile (Ideal.ofBits .f32 0xBF000000#32) v3 v4 v27 v28 := by
  funext j
  obtain ⟨r, d, rfl⟩ : ∃ (r : Fin 2048) (d : Fin 16), j = ix2 r d := ⟨j 0, j 1, eq_ix2 j⟩
  rw [tile_apply]
  unfold Gen.k0_pay2
  simp only [shapeCast_self, addf_apply]
  have hD2 : dot_S2048x1024_S1024x16_S2048x16_1_0_0_1_n_n
      = ⟨[1], [0], [0], [1], [], [], dot_S2048x1024_S1024x16_S2048x16_1_0_0_1_n_n_wf⟩ := rfl
  have hD1 : dot_S2048x16_S16x1024_S2048x1024_1_0_0_1_n_n
      = ⟨[1], [0], [0], [1], [], [], dot_S2048x16_S16x1024_S2048x1024_1_0_0_1_n_n_wf⟩ := rfl
  rw [hD2, matmul_zero_apply]
  unfold tileAt
  refine congrArg (v27 (ix2 r d) + ·) (Finset.sum_congr rfl fun k _ => congrArg (· * v28 (ix2 k d)) ?_)
  simp only [mulf_apply, exp_apply, maximumf_apply, subf_apply, addf_apply, broadcast_apply]
  rw [hD1, matmul_transpose_zero_apply, broadcastTo_a1_ab_apply, shapeCast_a_a1_apply, rowSum_apply,
    broadcastTo_1b_ab_apply, transpose_ix2_apply, shapeCast_a_a1_apply, rowSum_apply]
  simp only [mulf_apply]
  rfl

end Cert.TileValue

end
-- ==== Proof.ValI0.lean ====
/-
  The first Gaussian-kernel product over its 4 × 8 grid, as values: each window's block at a grid point is a block of its
  array (rows `2048 (t / 8) …` on the row side, rows `1024 (t % 8) …` on the column side), the accumulator after point `t`
  is the specification's accumulation of row block `t / 8` over column blocks `0 … t % 8`, and the result array ends
  holding the product of the specification.
-/
import proofs.«119457_j37203006718368_1_alg».proof.Proof.RegI0
import proofs.«119457_j37203006718368_1_alg».proof.Proof.Tile0
import proofs.«119457_j37203006718368_1_alg».proof.Proof.KerSpec
import Idealize.ShloMosaic.Lib.Pipeline.Value

set_option maxRecDepth 16384

noncomputable section

namespace Cert.KernelIdeal.Val

open Cert.KernelIdeal Cert.KernelIdeal.Gen Cert.KernelIdeal.Body0
open Idealize.ShloMosaic Idealize.ShloMosaic.TcCoe Idealize.ShloMosaic.ValueIdx
open Idealize.SL.Sem
open Idealize.ShloMosaic.Pipeline (Dat Cfg Window)
open Cert.TileSpec Cert.KerSpec

variable (V : (c : Dev nD) → (b : Ref sig .tc) → Buf (Elt Ideal) ((c : Thread nD τ).loc b))

/-! ## The windows' blocks as blocks of the arrays -/

/-- The windows' index maps, decided once over the grid: at point `t` the row-side windows are at block `t / 8`, the
    column-side ones at block `t % 8`. -/
theorem idx0 : ∀ t : Fin cfg0.N,
    win0_0.index t 0 = t.val / 8 ∧ win0_0.index t 1 = 0 ∧ win0_1.index t 0 = t.val % 8 ∧ win0_1.index t 1 = 0
    ∧ win0_2.index t 0 = t.val % 8 ∧ win0_2.index t 1 = 0 ∧ win0_3.index t 0 = t.val / 8 ∧ win0_3.index t 1 = 0 :=
  (by decide +kernel : ∀ t : Fin grid0.N,
    win0_0.index t 0 = t.val / 8 ∧ win0_0.index t 1 = 0 ∧ win0_1.index t 0 = t.val % 8 ∧ win0_1.index t 1 = 0
    ∧ win0_2.index t 0 = t.val % 8 ∧ win0_2.index t 1 = 0 ∧ win0_3.index t 0 = t.val / 8 ∧ win0_3.index t 1 = 0)

/-- Window 0's block at point `n` is row block `n / 8` of the first argument. -/
theorem iblk0_eq (c : Dev nD) (n : ℕ) (hn : n < cfg0.N) :
    (Reg0.iblk V c 0 ⟨n, hn⟩ : FVec Ideal ⟨2, ![2048, 16]⟩ .f32) = rowBlk (V c main_arg0) (n / 8) := by
  funext y
  unfold Reg0.iblk
  rw [View.read_apply]
  have hN : cfg0.N = 32 := N_0
  have h0 : (y 0).val < 2048 := (y 0).isLt
  have h1 : (y 1).val < 16 := (y 1).isLt
  show (V c main_arg0 : S8192x16.Idx → EReal) (((cfg0.win 0).blk ⟨n, hn⟩).view.emb y)
    = (V c main_arg0 : S8192x16.Idx → EReal) (ix2 (Fin.ofNat 8192 (n / 8 * 2048 + (y 0).val)) (Fin.ofNat 16 (y 1).val))
  refine congrArg _ (funext fun a => Fin.ext ?_)
  match a with
  | ⟨0, _⟩ =>
    show win0_0.index ⟨n, hn⟩ 0 * 2048 + 1 * (y 0).val = (n / 8 * 2048 + (y 0).val) % 8192
    rw [(idx0 ⟨n, hn⟩).1]
    show n / 8 * 2048 + 1 * (y 0).val = (n / 8 * 2048 + (y 0).val) % 8192
    omega
  | ⟨1, _⟩ =>
    show win0_0.index ⟨n, hn⟩ 1 * 16 + 1 * (y 1).val = (y 1).val % 16
    rw [(idx0 ⟨n, hn⟩).2.1]; omega

/-- Window 1's block at point `n` is column-side block `n % 8` of the first argument. -/
theorem iblk1_eq (c : Dev nD) (n : ℕ) (hn : n < cfg0.N) :
    (Reg0.iblk V c 1 ⟨n, hn⟩ : FVec Ideal ⟨2, ![1024, 16]⟩ .f32) = colBlk (V c main_arg0) (n % 8) := by
  funext y
  unfold Reg0.iblk
  rw [View.read_apply]
  have hN : cfg0.N = 32 := N_0
  have h0 : (y 0).val < 1024 := (y 0).isLt
  have h1 : (y 1).val < 16 := (y 1).isLt
  show (V c main_arg0 : S8192x16.Idx → EReal) (((cfg0.win 1).blk ⟨n, hn⟩).view.emb y)
    = (V c main_arg0 : S8192x16.Idx → EReal) (ix2 (Fin.ofNat 8192 (n % 8 * 1024 + (y 0).val)) (Fin.ofNat 16 (y 1).val))
  refine congrArg _ (funext fun a => Fin.ext ?_)
  match a with
  | ⟨0, _⟩ =>
    show win0_1.index ⟨n, hn⟩ 0 * 1024 + 1 * (y 0).val = (n % 8 * 1024 + (y 0).val) % 8192
    rw [(idx0 ⟨n, hn⟩).2.2.1]
    show n % 8 * 1024 + 1 * (y 0).val = (n % 8 * 1024 + (y 0).val) % 8192
    omega
  | ⟨1, _⟩ =>
    show win0_1.index ⟨n, hn⟩ 1 * 16 + 1 * (y 1).val = (y 1).val % 16
    rw [(idx0 ⟨n, hn⟩).2.2.2.1]; omega

/-- Window 2's block at point `n` is column-side block `n % 8` of the right-hand operand. -/
theorem iblk2_eq (c : Dev nD) (n : ℕ) (hn : n < cfg0.N) :
    (Reg0.iblk V c 2 ⟨n, hn⟩ : FVec Ideal ⟨2, ![1024, 16]⟩ .f32) = colBlk (V c main_arg2) (n % 8) := by
  funext y
  unfold Reg0.iblk
  rw [View.read_apply]
  have hN : cfg0.N = 32 := N_0
  have h0 : (y 0).val < 1024 := (y 0).isLt
  have h1 : (y 1).val < 16 := (y 1).isLt
  show (V c main_arg2 : S8192x16.Idx → EReal) (((cfg0.win 2).blk ⟨n, hn⟩).view.emb y)
    = (V c main_arg2 : S8192x16.Idx → EReal) (ix2 (Fin.ofNat 8192 (n % 8 * 1024 + (y 0).val)) (Fin.ofNat 16 (y 1).val))
  refine congrArg _ (funext fun a => Fin.ext ?_)
  match a with
  | ⟨0, _⟩ =>
    show win0_2.index ⟨n, hn⟩ 0 * 1024 + 1 * (y 0).val = (n % 8 * 1024 + (y 0).val) % 8192
    rw [(idx0 ⟨n, hn⟩).2.2.2.2.1]
    show n % 8 * 1024 + 1 * (y 0).val = (n % 8 * 1024 + (y 0).val) % 8192
    omega
  | ⟨1, _⟩ =>
    show win0_2.index ⟨n, hn⟩ 1 * 16 + 1 * (y 1).val = (y 1).val % 16
    rw [(idx0 ⟨n, hn⟩).2.2.2.2.2.1]; omega

/-! ## The accumulator after each point -/

/-- The accumulator after point `n` is the accumulation of the specification: row block `n / 8` after column blocks
    `0 … n % 8`. -/
theorem accAt_eq (c : Dev nD) : ∀ (n : ℕ) (hn : n < cfg0.N),
    (Reg0.accAt V c n hn : FVec Ideal ⟨2, ![2048, 16]⟩ .f32)
      = acc (Ideal.ofBits .f32 0xBF000000#32) (V c main_arg0) (V c main_arg2) (n / 8) (n % 8)
  | 0, hn => by
    have hf : first (grid0.coords ⟨0, hn⟩) := (Reg0.hfirst ⟨0, hn⟩).mpr (Nat.zero_mod _)
    show accStep (grid0.coords ⟨0, hn⟩) (Reg0.iblk V c 0 ⟨0, hn⟩) (Reg0.iblk V c 1 ⟨0, hn⟩) (Reg0.iblk V c 2 ⟨0, hn⟩) (k0_pay1 (F := Ideal)) = _
    rw [accStep_first _ hf, iblk0_eq, iblk1_eq, iblk2_eq, Cert.TileValue.k0_pay2_eq, Cert.TileValue.k0_pay1_eq]
    rfl
  | n + 1, hn => by
    have ih := accAt_eq c n (Nat.lt_of_succ_lt hn)
    show accStep (grid0.coords ⟨n + 1, hn⟩) (Reg0.iblk V c 0 ⟨n + 1, hn⟩) (Reg0.iblk V c 1 ⟨n + 1, hn⟩)
      (Reg0.iblk V c 2 ⟨n + 1, hn⟩) (Reg0.accAt V c n (Nat.lt_of_succ_lt hn)) = _
    by_cases h : (n + 1) % 8 = 0
    · have hf : first (grid0.coords ⟨n + 1, hn⟩) := (Reg0.hfirst ⟨n + 1, hn⟩).mpr h
      rw [accStep_first _ hf, iblk0_eq, iblk1_eq, iblk2_eq, Cert.TileValue.k0_pay2_eq, Cert.TileValue.k0_pay1_eq, h]
      rfl
    · have hf : ¬ first (grid0.coords ⟨n + 1, hn⟩) := fun hf => h ((Reg0.hfirst ⟨n + 1, hn⟩).mp hf)
      have e1 : (n + 1) / 8 = n / 8 := by omega
      have e2 : (n + 1) % 8 = n % 8 + 1 := by omega
      rw [accStep_later _ hf, iblk0_eq, iblk1_eq, iblk2_eq, Cert.TileValue.k0_pay2_eq, ih, e1, e2]
      rfl

/-! ## The result array -/

/-- The product at an array index lying in row block `i`, at row `y 0` of it: the accumulation of that row block over all
    eight column blocks, at `y`. -/
theorem prod_block (cst : EReal) (X P : Mat) (i : ℕ) (y : (⟨2, ![2048, 16]⟩ : Shape).Idx) (a : (⟨2, ![8192, 16]⟩ : Shape).Idx)
    (ha0 : (a 0).val = i * 2048 + (y 0).val) (ha1 : (a 1).val = (y 1).val) :
    prod cst X P a = acc cst X P i 7 y := by
  have h0 : (y 0).val < 2048 := (y 0).isLt
  have h1 : (y 1).val < 16 := (y 1).isLt
  have d0 : (i * 2048 + (y 0).val) / 2048 = i := by omega
  have m0 : (i * 2048 + (y 0).val) % 2048 = (y 0).val := by omega
  show acc cst X P ((a 0).val / 2048) 7 (ix2 (Fin.ofNat 2048 ((a 0).val % 2048)) (Fin.ofNat 16 (a 1).val)) = _
  rw [ha0, ha1, d0, m0]
  refine congrArg _ (funext fun b => Fin.ext ?_)
  match b with
  | ⟨0, _⟩ => exact Nat.mod_eq_of_lt h0
  | ⟨1, _⟩ => exact Nat.mod_eq_of_lt h1

/-- The result window's blocks are whole at every point: 2048 rows of 16. -/
theorem xsz3 : ∀ t : Fin cfg0.N, win0_3.xsize (grid0.coords t) 0 = 2048 ∧ win0_3.xsize (grid0.coords t) 1 = 16 :=
  (by decide +kernel : ∀ t : Fin grid0.N, win0_3.xsize (grid0.coords t) 0 = 2048 ∧ win0_3.xsize (grid0.coords t) 1 = 16)

/-- What a point that writes the result back writes is its block of the product. -/
theorem flushed_eq (c : Dev nD) (t : Fin cfg0.N) (hf : (cfg0.win 3).flush t = true) :
    (Reg0.dat V c).flushed 3 t
      = ((cfg0.win 3).blk t).view.read (Elt Ideal)
          (prod (Ideal.ofBits .f32 0xBF000000#32) (V c main_arg0) (V c main_arg2)) := by
  have h7 : t.val % 8 = 7 := (flush0_3 t).mp hf
  have hN : cfg0.N = 32 := N_0
  funext y
  rw [View.read_apply]
  have h0 : (y 0).val < 2048 := (y 0).isLt
  have h1 : (y 1).val < 16 := (y 1).isLt
  show (cfg0.win 3).cut (grid0.coords t) ((Reg0.dat V c).after 3 t) y = _
  rw [Reg0.after3]
  rw [accAt_eq V c t.val t.isLt, h7]
  have e0 : ((((cfg0.win 3).blk t).view.emb y : S8192x16.Idx) 0).val = t.val / 8 * 2048 + (y 0).val := by
    show win0_3.index t 0 * 2048 + 1 * (y 0).val = _
    rw [(idx0 t).2.2.2.2.2.2.1]; omega
  have e1 : ((((cfg0.win 3).blk t).view.emb y : S8192x16.Idx) 1).val = (y 1).val := by
    show win0_3.index t 1 * 16 + 1 * (y 1).val = _
    rw [(idx0 t).2.2.2.2.2.2.2]; omega
  exact (prod_block _ _ _ (t.val / 8) y (((cfg0.win 3).blk t).view.emb y) e0 e1).symm

/-- The result array ends holding the product: every row `a` is covered by the point that writes row block `a / 2048` back. -/
theorem out0_eq (c : Dev nD) :
    (Reg0.dat V c).arrAt 3 cfg0.N
      = prod (Ideal.ofBits .f32 0xBF000000#32) (V c main_arg0) (V c main_arg2) :=
  (Reg0.dat V c).arrAt_eq_of_cover 3 _ (flushed_eq V c) fun i => by
    have hN : cfg0.N = 32 := N_0
    have h0 : (i 0 : ℕ) < 8192 := (i 0).isLt
    have h1 : (i 1 : ℕ) < 16 := (i 1).isLt
    have hlt : 8 * ((i 0 : ℕ) / 2048) + 7 < cfg0.N := by rw [hN]; omega
    refine ⟨⟨8 * ((i 0 : ℕ) / 2048) + 7, hlt⟩, (flush0_3 _).mpr (by show (8 * ((i 0 : ℕ) / 2048) + 7) % 8 = 7; omega), ?_⟩
    show i ∈ ((View.whole main_v0).slice (win0_3.rect ⟨8 * ((i 0 : ℕ) / 2048) + 7, hlt⟩)).set
    rw [View.set_slice_whole, Rect.mem_set_unit]
    intro a
    have hx := xsz3 ⟨8 * ((i 0 : ℕ) / 2048) + 7, hlt⟩
    have hi := idx0 ⟨8 * ((i 0 : ℕ) / 2048) + 7, hlt⟩
    match a with
    | ⟨0, _⟩ =>
      show win0_3.index ⟨8 * ((i 0 : ℕ) / 2048) + 7, hlt⟩ 0 * 2048 ≤ (i 0 : ℕ)
        ∧ (i 0 : ℕ) < win0_3.index ⟨8 * ((i 0 : ℕ) / 2048) + 7, hlt⟩ 0 * 2048
            + win0_3.xsize (grid0.coords ⟨8 * ((i 0 : ℕ) / 2048) + 7, hlt⟩) 0
      rw [hx.1, hi.2.2.2.2.2.2.1]
      show (8 * ((i 0 : ℕ) / 2048) + 7) / 8 * 2048 ≤ (i 0 : ℕ)
        ∧ (i 0 : ℕ) < (8 * ((i 0 : ℕ) / 2048) + 7) / 8 * 2048 + 2048
      omega
    | ⟨1, _⟩ =>
      show win0_3.index ⟨8 * ((i 0 : ℕ) / 2048) + 7, hlt⟩ 1 * 16 ≤ (i 1 : ℕ)
        ∧ (i 1 : ℕ) < win0_3.index ⟨8 * ((i 0 : ℕ) / 2048) + 7, hlt⟩ 1 * 16
            + win0_3.xsize (grid0.coords ⟨8 * ((i 0 : ℕ) / 2048) + 7, hlt⟩) 1
      rw [hx.2, hi.2.2.2.2.2.2.2]
      omega

end Cert.KernelIdeal.Val
end
-- ==== Proof.Tile1.lean ====
/-
  The second Gaussian-kernel product's tile, read at an index: the generated payload of the second kernel's body is
  the tile of `Cert.TileSpec` with scale the float `-0.125`, and the value it stores at the first column block is zero.
  The body is the first kernel's with another scale and a cast of the right-hand block to its own shape, which is the
  identity; the operations that are not pointwise are read at coordinates by the lemmas of the first kernel's module.
-/
import proofs.«119457_j37203006718368_1_alg».proof.Proof.Tile0

noncomputable section

open scoped BigOperators

namespace Cert.TileValue

open Idealize.ShloMosaic Idealize.ShloMosaic.ValueIdx
open Cert.KernelIdeal Cert.KernelIdeal.Facts₀ Cert.TileSpec

/-- The value the body stores at the first column block is zero everywhere. -/
theorem k1_pay1_eq : Gen.k1_pay1 (F := Ideal) = fun _ => 0 := by
  funext j
  unfold Gen.k1_pay1
  simp only [shapeCast_self, broadcast_apply]
  exact Ideal.ofBits_zero_f32

/-- The value the body stores into its accumulator is the tile with scale the float `-0.125`. -/
theorem k1_pay2_eq (v3 : FVec Ideal ⟨2, ![2048, 16]⟩ .f32) (v4 : FVec Ideal ⟨2, ![1024, 16]⟩ .f32)
    (v27 : FVec Ideal ⟨2, ![2048, 16]⟩ .f32) (v28 : FVec Ideal ⟨2, ![1024, 16]⟩ .f32) :
    Gen.k1_pay2 (F := Ideal) v3 v4 v27 v28 = tile (Ideal.ofBits .f32 0xBE000000#32) v3 v4 v27 v28 := by
  funext j
  obtain ⟨r, d, rfl⟩ : ∃ (r : Fin 2048) (d : Fin 16), j = ix2 r d := ⟨j 0, j 1, eq_ix2 j⟩
  rw [tile_apply]
  unfold Gen.k1_pay2
  simp only [shapeCast_self, addf_apply]
  have hD2 : dot_S2048x1024_S1024x16_S2048x16_1_0_0_1_n_n
      = ⟨[1], [0], [0], [1], [], [], dot_S2048x1024_S1024x16_S2048x16_1_0_0_1_n_n_wf⟩ := rfl
  have hD1 : dot_S2048x16_S16x1024_S2048x1024_1_0_0_1_n_n
      = ⟨[1], [0], [0], [1], [], [], dot_S2048x16_S16x1024_S2048x1024_1_0_0_1_n_n_wf⟩ := rfl
  rw [hD2, matmul_zero_apply]
  unfold tileAt
  refine congrArg (v27 (ix2 r d) + ·) (Finset.sum_congr rfl fun k _ => congrArg (· * v28 (ix2 k d)) ?_)
  simp only [mulf_apply, exp_apply, maximumf_apply, subf_apply, addf_apply, broadcast_apply]
  rw [hD1, matmul_transpose_zero_apply, broadcastTo_a1_ab_apply, shapeCast_a_a1_apply, rowSum_apply,
    broadcastTo_1b_ab_apply, transpose_ix2_apply, shapeCast_a_a1_apply, rowSum_apply]
  simp only [mulf_apply]
  rfl

end Cert.TileValue

end
-- ==== Proof.ValI1.lean ====
/-
  The second Gaussian-kernel product over its 4 × 8 grid, as values: each window's block at a grid point is a block of its
  array (rows `2048 (t / 8) …` on the row side, rows `1024 (t % 8) …` on the column side), the accumulator after point `t`
  is the specification's accumulation of row block `t / 8` over column blocks `0 … t % 8`, and the result array ends
  holding the product of the specification.
-/
import proofs.«119457_j37203006718368_1_alg».proof.Proof.RegI1
import proofs.«119457_j37203006718368_1_alg».proof.Proof.Tile1
import proofs.«119457_j37203006718368_1_alg».proof.Proof.KerSpec
import Idealize.ShloMosaic.Lib.Pipeline.Value

set_option maxRecDepth 16384

noncomputable section

namespace Cert.KernelIdeal.Val

open Cert.KernelIdeal Cert.KernelIdeal.Gen Cert.KernelIdeal.Body1
open Idealize.ShloMosaic Idealize.ShloMosaic.TcCoe Idealize.ShloMosaic.ValueIdx
open Idealize.SL.Sem
open Idealize.ShloMosaic.Pipeline (Dat Cfg Window)
open Cert.TileSpec Cert.KerSpec

variable (V : (c : Dev nD) → (b : Ref sig .tc) → Buf (Elt Ideal) ((c : Thread nD τ).loc b))

/-! ## The windows' blocks as blocks of the arrays -/

/-- The windows' index maps, decided once over the grid: at point `t` the row-side windows are at block `t / 8`, the
    column-side ones at block `t % 8`. -/
theorem idx1 : ∀ t : Fin cfg1.N,
    win1_0.index t 0 = t.val / 8 ∧ win1_0.index t 1 = 0 ∧ win1_1.index t 0 = t.val % 8 ∧ win1_1.index t 1 = 0
    ∧ win1_2.index t 0 = t.val % 8 ∧ win1_2.index t 1 = 0 ∧ win1_3.index t 0 = t.val / 8 ∧ win1_3.index t 1 = 0 :=
  (by decide +kernel : ∀ t : Fin grid1.N,
    win1_0.index t 0 = t.val / 8 ∧ win1_0.index t 1 = 0 ∧ win1_1.index t 0 = t.val % 8 ∧ win1_1.index t 1 = 0
    ∧ win1_2.index t 0 = t.val % 8 ∧ win1_2.index t 1 = 0 ∧ win1_3.index t 0 = t.val / 8 ∧ win1_3.index t 1 = 0)

/-- Window 0's block at point `n` is row block `n / 8` of the first argument. -/
theorem iblk0_eq1 (c : Dev nD) (n : ℕ) (hn : n < cfg1.N) :
    (Reg1.iblk V c 0 ⟨n, hn⟩ : FVec Ideal ⟨2, ![2048, 16]⟩ .f32) = rowBlk (V c main_arg0) (n / 8) := by
  funext y
  unfold Reg1.iblk
  rw [View.read_apply]
  have hN : cfg1.N = 32 := N_1
  have h0 : (y 0).val < 2048 := (y 0).isLt
  have h1 : (y 1).val < 16 := (y 1).isLt
  show (V c main_arg0 : S8192x16.Idx → EReal) (((cfg1.win 0).blk ⟨n, hn⟩).view.emb y)
    = (V c main_arg0 : S8192x16.Idx → EReal) (ix2 (Fin.ofNat 8192 (n / 8 * 2048 + (y 0).val)) (Fin.ofNat 16 (y 1).val))
  refine congrArg _ (funext fun a => Fin.ext ?_)
  match a with
  | ⟨0, _⟩ =>
    show win1_0.index ⟨n, hn⟩ 0 * 2048 + 1 * (y 0).val = (n / 8 * 2048 + (y 0).val) % 8192
    rw [(idx1 ⟨n, hn⟩).1]
    show n / 8 * 2048 + 1 * (y 0).val = (n / 8 * 2048 + (y 0).val) % 8192
    omega
  | ⟨1, _⟩ =>
    show win1_0.index ⟨n, hn⟩ 1 * 16 + 1 * (y 1).val = (y 1).val % 16
    rw [(idx1 ⟨n, hn⟩).2.1]; omega

/-- Window 1's block at point `n` is column-side block `n % 8` of the first argument. -/
theorem iblk1_eq1 (c : Dev nD) (n : ℕ) (hn : n < cfg1.N) :
    (Reg1.iblk V c 1 ⟨n, hn⟩ : FVec Ideal ⟨2, ![1024, 16]⟩ .f32) = colBlk (V c main_arg0) (n % 8) := by
  funext y
  unfold Reg1.iblk
  rw [View.read_apply]
  have hN : cfg1.N = 32 := N_1
  have h0 : (y 0).val < 1024 := (y 0).isLt
  have h1 : (y 1).val < 16 := (y 1).isLt
  show (V c main_arg0 : S8192x16.Idx → EReal) (((cfg1.win 1).blk ⟨n, hn⟩).view.emb y)
    = (V c main_arg0 : S8192x16.Idx → EReal) (ix2 (Fin.ofNat 8192 (n % 8 * 1024 + (y 0).val)) (Fin.ofNat 16 (y 1).val))
  refine congrArg _ (funext fun a => Fin.ext ?_)
  match a with
  | ⟨0, _⟩ =>
    show win1_1.index ⟨n, hn⟩ 0 * 1024 + 1 * (y 0).val = (n % 8 * 1024 + (y 0).val) % 8192
    rw [(idx1 ⟨n, hn⟩).2.2.1]
    show n % 8 * 1024 + 1 * (y 0).val = (n % 8 * 1024 + (y 0).val) % 8192
    omega
  | ⟨1, _⟩ =>
    show win1_1.index ⟨n, hn⟩ 1 * 16 + 1 * (y 1).val = (y 1).val % 16
    rw [(idx1 ⟨n, hn⟩).2.2.2.1]; omega

/-- Window 2's block at point `n` is column-side block `n % 8` of the right-hand operand. -/
theorem iblk2_eq1 (c : Dev nD) (n : ℕ) (hn : n < cfg1.N) :
    (Reg1.iblk V c 2 ⟨n, hn⟩ : FVec Ideal ⟨2, ![1024, 16]⟩ .f32) = colBlk (V c main_v1) (n % 8) := by
  funext y
  unfold Reg1.iblk
  rw [View.read_apply]
  have hN : cfg1.N = 32 := N_1
  have h0 : (y 0).val < 1024 := (y 0).isLt
  have h1 : (y 1).val < 16 := (y 1).isLt
  show (V c main_v1 : S8192x16.Idx → EReal) (((cfg1.win 2).blk ⟨n, hn⟩).view.emb y)
    = (V c main_v1 : S8192x16.Idx → EReal) (ix2 (Fin.ofNat 8192 (n % 8 * 1024 + (y 0).val)) (Fin.ofNat 16 (y 1).val))
  refine congrArg _ (funext fun a => Fin.ext ?_)
  match a with
  | ⟨0, _⟩ =>
    show win1_2.index ⟨n, hn⟩ 0 * 1024 + 1 * (y 0).val = (n % 8 * 1024 + (y 0).val) % 8192
    rw [(idx1 ⟨n, hn⟩).2.2.2.2.1]
    show n % 8 * 1024 + 1 * (y 0).val = (n % 8 * 1024 + (y 0).val) % 8192
    omega
  | ⟨1, _⟩ =>
    show win1_2.index ⟨n, hn⟩ 1 * 16 + 1 * (y 1).val = (y 1).val % 16
    rw [(idx1 ⟨n, hn⟩).2.2.2.2.2.1]; omega

/-! ## The accumulator after each point -/

/-- The accumulator after point `n` is the accumulation of the specification: row block `n / 8` after column blocks
    `0 … n % 8`. -/
theorem accAt_eq1 (c : Dev nD) : ∀ (n : ℕ) (hn : n < cfg1.N),
    (Reg1.accAt V c n hn : FVec Ideal ⟨2, ![2048, 16]⟩ .f32)
      = acc (Ideal.ofBits .f32 0xBE000000#32) (V c main_arg0) (V c main_v1) (n / 8) (n % 8)
  | 0, hn => by
    have hf : first (grid1.coords ⟨0, hn⟩) := (Reg1.hfirst ⟨0, hn⟩).mpr (Nat.zero_mod _)
    show accStep (grid1.coords ⟨0, hn⟩) (Reg1.iblk V c 0 ⟨0, hn⟩) (Reg1.iblk V c 1 ⟨0, hn⟩) (Reg1.iblk V c 2 ⟨0, hn⟩) (k1_pay1 (F := Ideal)) = _
    rw [accStep_first _ hf, iblk0_eq1, iblk1_eq1, iblk2_eq1, Cert.TileValue.k1_pay2_eq, Cert.TileValue.k1_pay1_eq]
    rfl
  | n + 1, hn => by
    have ih := accAt_eq1 c n (Nat.lt_of_succ_lt hn)
    show accStep (grid1.coords ⟨n + 1, hn⟩) (Reg1.iblk V c 0 ⟨n + 1, hn⟩) (Reg1.iblk V c 1 ⟨n + 1, hn⟩)
      (Reg1.iblk V c 2 ⟨n + 1, hn⟩) (Reg1.accAt V c n (Nat.lt_of_succ_lt hn)) = _
    by_cases h : (n + 1) % 8 = 0
    · have hf : first (grid1.coords ⟨n + 1, hn⟩) := (Reg1.hfirst ⟨n + 1, hn⟩).mpr h
      rw [accStep_first _ hf, iblk0_eq1, iblk1_eq1, iblk2_eq1, Cert.TileValue.k1_pay2_eq, Cert.TileValue.k1_pay1_eq, h]
      rfl
    · have hf : ¬ first (grid1.coords ⟨n + 1, hn⟩) := fun hf => h ((Reg1.hfirst ⟨n + 1, hn⟩).mp hf)
      have e1 : (n + 1) / 8 = n / 8 := by omega
      have e2 : (n + 1) % 8 = n % 8 + 1 := by omega
      rw [accStep_later _ hf, iblk0_eq1, iblk1_eq1, iblk2_eq1, Cert.TileValue.k1_pay2_eq, ih, e1, e2]
      rfl

/-! ## The result array -/

/-- The product at an array index lying in row block `i`, at row `y 0` of it: the accumulation of that row block over all
    eight column blocks, at `y`. -/
theorem prod_block1 (cst : EReal) (X P : Mat) (i : ℕ) (y : (⟨2, ![2048, 16]⟩ : Shape).Idx) (a : (⟨2, ![8192, 16]⟩ : Shape).Idx)
    (ha0 : (a 0).val = i * 2048 + (y 0).val) (ha1 : (a 1).val = (y 1).val) :
    prod cst X P a = acc cst X P i 7 y := by
  have h0 : (y 0).val < 2048 := (y 0).isLt
  have h1 : (y 1).val < 16 := (y 1).isLt
  have d0 : (i * 2048 + (y 0).val) / 2048 = i := by omega
  have m0 : (i * 2048 + (y 0).val) % 2048 = (y 0).val := by omega
  show acc cst X P ((a 0).val / 2048) 7 (ix2 (Fin.ofNat 2048 ((a 0).val % 2048)) (Fin.ofNat 16 (a 1).val)) = _
  rw [ha0, ha1, d0, m0]
  refine congrArg _ (funext fun b => Fin.ext ?_)
  match b with
  | ⟨0, _⟩ => exact Nat.mod_eq_of_lt h0
  | ⟨1, _⟩ => exact Nat.mod_eq_of_lt h1

/-- The result window's blocks are whole at every point: 2048 rows of 16. -/
theorem xsz3_1 : ∀ t : Fin cfg1.N, win1_3.xsize (grid1.coords t) 0 = 2048 ∧ win1_3.xsize (grid1.coords t) 1 = 16 :=
  (by decide +kernel : ∀ t : Fin grid1.N, win1_3.xsize (grid1.coords t) 0 = 2048 ∧ win1_3.xsize (grid1.coords t) 1 = 16)

/-- What a point that writes the result back writes is its block of the product. -/
theorem flushed_eq1 (c : Dev nD) (t : Fin cfg1.N) (hf : (cfg1.win 3).flush t = true) :
    (Reg1.dat V c).flushed 3 t
      = ((cfg1.win 3).blk t).view.read (Elt Ideal)
          (prod (Ideal.ofBits .f32 0xBE000000#32) (V c main_arg0) (V c main_v1)) := by
  have h7 : t.val % 8 = 7 := (flush1_3 t).mp hf
  have hN : cfg1.N = 32 := N_1
  funext y
  rw [View.read_apply]
  have h0 : (y 0).val < 2048 := (y 0).isLt
  have h1 : (y 1).val < 16 := (y 1).isLt
  show (cfg1.win 3).cut (grid1.coords t) ((Reg1.dat V c).after 3 t) y = _
  rw [Reg1.after3]
  rw [accAt_eq1 V c t.val t.isLt, h7]
  have e0 : ((((cfg1.win 3).blk t).view.emb y : S8192x16.Idx) 0).val = t.val / 8 * 2048 + (y 0).val := by
    show win1_3.index t 0 * 2048 + 1 * (y 0).val = _
    rw [(idx1 t).2.2.2.2.2.2.1]; omega
  have e1 : ((((cfg1.win 3).blk t).view.emb y : S8192x16.Idx) 1).val = (y 1).val := by
    show win1_3.index t 1 * 16 + 1 * (y 1).val = _
    rw [(idx1 t).2.2.2.2.2.2.2]; omega
  exact (prod_block1 _ _ _ (t.val / 8) y (((cfg1.win 3).blk t).view.emb y) e0 e1).symm

/-- The result array ends holding the product: every row `a` is covered by the point that writes row block `a / 2048` back. -/
theorem out1_eq (c : Dev nD) :
    (Reg1.dat V c).arrAt 3 cfg1.N
      = prod (Ideal.ofBits .f32 0xBE000000#32) (V c main_arg0) (V c main_v1) :=
  (Reg1.dat V c).arrAt_eq_of_cover 3 _ (flushed_eq1 V c) fun i => by
    have hN : cfg1.N = 32 := N_1
    have h0 : (i 0 : ℕ) < 8192 := (i 0).isLt
    have h1 : (i 1 : ℕ) < 16 := (i 1).isLt
    have hlt : 8 * ((i 0 : ℕ) / 2048) + 7 < cfg1.N := by rw [hN]; omega
    refine ⟨⟨8 * ((i 0 : ℕ) / 2048) + 7, hlt⟩, (flush1_3 _).mpr (by show (8 * ((i 0 : ℕ) / 2048) + 7) % 8 = 7; omega), ?_⟩
    show i ∈ ((View.whole main_v5).slice (win1_3.rect ⟨8 * ((i 0 : ℕ) / 2048) + 7, hlt⟩)).set
    rw [View.set_slice_whole, Rect.mem_set_unit]
    intro a
    have hx := xsz3_1 ⟨8 * ((i 0 : ℕ) / 2048) + 7, hlt⟩
    have hi := idx1 ⟨8 * ((i 0 : ℕ) / 2048) + 7, hlt⟩
    match a with
    | ⟨0, _⟩ =>
      show win1_3.index ⟨8 * ((i 0 : ℕ) / 2048) + 7, hlt⟩ 0 * 2048 ≤ (i 0 : ℕ)
        ∧ (i 0 : ℕ) < win1_3.index ⟨8 * ((i 0 : ℕ) / 2048) + 7, hlt⟩ 0 * 2048
            + win1_3.xsize (grid1.coords ⟨8 * ((i 0 : ℕ) / 2048) + 7, hlt⟩) 0
      rw [hx.1, hi.2.2.2.2.2.2.1]
      show (8 * ((i 0 : ℕ) / 2048) + 7) / 8 * 2048 ≤ (i 0 : ℕ)
        ∧ (i 0 : ℕ) < (8 * ((i 0 : ℕ) / 2048) + 7) / 8 * 2048 + 2048
      omega
    | ⟨1, _⟩ =>
      show win1_3.index ⟨8 * ((i 0 : ℕ) / 2048) + 7, hlt⟩ 1 * 16 ≤ (i 1 : ℕ)
        ∧ (i 1 : ℕ) < win1_3.index ⟨8 * ((i 0 : ℕ) / 2048) + 7, hlt⟩ 1 * 16
            + win1_3.xsize (grid1.coords ⟨8 * ((i 0 : ℕ) / 2048) + 7, hlt⟩) 1
      rw [hx.2, hi.2.2.2.2.2.2.2]
      omega

end Cert.KernelIdeal.Val
end
-- ==== Proof.RefRead.lean ====
/-
  The reference, read one operation at a time at the ideal instance, is the loss of RefSpec.

  Each stage of the reference is read at an index built from literal coordinates: the row norms (a lane sum of the
  squares), their two broadcasts added into the 8192 x 8192 array "norm of row a plus norm of row b", the Gram
  matrix X X^T (a contraction over the 16 columns against the transposed array), the clamped polarization formula,
  and the two Gaussian kernels (negate, divide by the literal, exponentiate, times the literal one). The two
  kernel-matrix products are contractions over the 8192 rows. The loss is two sums over all 8192 x 16 entries,
  each the zero literal plus the double sum over rows and columns. No 8192 x 8192 term is ever unfolded: every step
  is one of the generated read-at-an-index equations, an equation between two index functions (decided coordinate
  by coordinate), or the definition of the extended reals' operation.
-/
import proofs.«119457_j37203006718368_1_alg».proof.Proof.Gen.ReferenceIdeal.Read
import proofs.«119457_j37203006718368_1_alg».proof.Proof.Gen.Pre_finite_inputs
import proofs.«119457_j37203006718368_1_alg».proof.Proof.RefSpec
import proofs.«119457_j37203006718368_1_alg».proof.Defs

noncomputable section

open scoped BigOperators

namespace Cert.RefValue

open Cert.ReferenceIdeal Cert.ReferenceIdeal.Gen Cert.ReferenceIdeal.Read
open Idealize.ShloMosaic Idealize.ShloMosaic.TcCoe Idealize.SL.Sem Idealize.ShloMosaic.ValueIdx

/-- An 8192 x 16 argument array at the ideal instance. -/
abbrev Arr : Type := FVec Ideal S8192x16 .f32

/-! ## Index functions of the reference's layout operations, at literal coordinates -/

theorem idx_v1 (a : Fin 8192) (e : Fin 16) : idx_main_v1 (ix1 a) e = ix2 a e :=
  funext fun d => match d with | ⟨0, _⟩ => rfl | ⟨1, _⟩ => rfl
theorem idx_v21 (a : Fin 8192) (e : Fin 16) : idx_main_v21 (ix1 a) e = ix2 a e :=
  funext fun d => match d with | ⟨0, _⟩ => rfl | ⟨1, _⟩ => rfl
theorem idx_v4 (a b : Fin 8192) : idx_main_v2 (idx_main_v4 (ix2 a b)) = ix1 a :=
  funext fun d => match d with | ⟨0, _⟩ => rfl
theorem idx_v5 (a b : Fin 8192) : idx_main_v3 (idx_main_v5 (ix2 a b)) = ix1 b :=
  funext fun d => match d with | ⟨0, _⟩ => rfl
theorem idx_v24 (a b : Fin 8192) : idx_main_v22 (idx_main_v24 (ix2 a b)) = ix1 a :=
  funext fun d => match d with | ⟨0, _⟩ => rfl
theorem idx_v25 (a b : Fin 8192) : idx_main_v23 (idx_main_v25 (ix2 a b)) = ix1 b :=
  funext fun d => match d with | ⟨0, _⟩ => rfl
theorem lidx_v8 (a b : Fin 8192) (e : Fin 16) : lidx_main_v8 (ix2 a b) e = ix2 a e :=
  funext fun d => match d with | ⟨0, _⟩ => rfl | ⟨1, _⟩ => rfl
theorem ridx_v8 (a b : Fin 8192) (e : Fin 16) : idx_main_v7 (ridx_main_v8 (ix2 a b) e) = ix2 b e :=
  funext fun d => match d with | ⟨0, _⟩ => rfl | ⟨1, _⟩ => rfl
theorem lidx_v28 (a b : Fin 8192) (e : Fin 16) : lidx_main_v28 (ix2 a b) e = ix2 a e :=
  funext fun d => match d with | ⟨0, _⟩ => rfl | ⟨1, _⟩ => rfl
theorem ridx_v28 (a b : Fin 8192) (e : Fin 16) : idx_main_v27 (ridx_main_v28 (ix2 a b) e) = ix2 b e :=
  funext fun d => match d with | ⟨0, _⟩ => rfl | ⟨1, _⟩ => rfl
theorem lidx_v40 (a : Fin 8192) (e : Fin 16) (k : Fin 8192) : lidx_main_v40 (ix2 a e) k = ix2 a k :=
  funext fun d => match d with | ⟨0, _⟩ => rfl | ⟨1, _⟩ => rfl
theorem ridx_v40 (a : Fin 8192) (e : Fin 16) (k : Fin 8192) : ridx_main_v40 (ix2 a e) k = ix2 k e :=
  funext fun d => match d with | ⟨0, _⟩ => rfl | ⟨1, _⟩ => rfl
theorem lidx_v42 (a : Fin 8192) (e : Fin 16) (k : Fin 8192) : lidx_main_v42 (ix2 a e) k = ix2 a k :=
  funext fun d => match d with | ⟨0, _⟩ => rfl | ⟨1, _⟩ => rfl
theorem ridx_v42 (a : Fin 8192) (e : Fin 16) (k : Fin 8192) : ridx_main_v42 (ix2 a e) k = ix2 k e :=
  funext fun d => match d with | ⟨0, _⟩ => rfl | ⟨1, _⟩ => rfl
theorem lidx_v45 (a : Fin 8192) (e : Fin 16) (k : Fin 8192) : lidx_main_v45 (ix2 a e) k = ix2 a k :=
  funext fun d => match d with | ⟨0, _⟩ => rfl | ⟨1, _⟩ => rfl
theorem ridx_v45 (a : Fin 8192) (e : Fin 16) (k : Fin 8192) : ridx_main_v45 (ix2 a e) k = ix2 k e :=
  funext fun d => match d with | ⟨0, _⟩ => rfl | ⟨1, _⟩ => rfl

/-! ## The first Gaussian kernel (divisor 2): stages %0 … %19 -/

/-- The row norms: the lane sum of the squares of row `a`, from the zero literal. -/
theorem v1_at (X : Arr) (a : Fin 8192) : val_main_v1 (F := Ideal) X (ix1 a) = Cert.RefSpec.sq X a := by
  rw [val_main_v1_apply, val_main_cst_apply]
  unfold Cert.RefSpec.sq
  refine congrArg (_ + ·) (Finset.sum_congr rfl fun e _ => ?_)
  rw [val_main_v0_apply, idx_v1]
  rfl

/-- The two broadcasts of the row norms, added: norm of row `a` plus norm of row `b`. -/
theorem v6_at (X : Arr) (a b : Fin 8192) :
    val_main_v6 (F := Ideal) X (ix2 a b) = Cert.RefSpec.sq X a + Cert.RefSpec.sq X b := by
  rw [val_main_v6_apply, val_main_v4_apply, val_main_v5_apply, val_main_v2_apply, val_main_v3_apply,
    idx_v4, idx_v5, v1_at, v1_at]
  rfl

/-- The Gram matrix: the contraction of row `a` against column `b` of the transposed array is the inner product of
    rows `a` and `b`. -/
theorem v8_at (X : Arr) (a b : Fin 8192) : val_main_v8 (F := Ideal) X (ix2 a b) = Cert.RefSpec.gram X a b := by
  rw [val_main_v8_apply]
  unfold Cert.RefSpec.gram
  refine Finset.sum_congr rfl fun e _ => ?_
  rw [val_main_v7_apply, lidx_v8, ridx_v8]

/-- The clamped squared distance. -/
theorem v13_at (X : Arr) (a b : Fin 8192) : val_main_v13 (F := Ideal) X (ix2 a b) = Cert.RefSpec.dist2 X a b := by
  rw [val_main_v13_apply, val_main_v11_apply, val_main_v10_apply, val_main_v9_apply, val_main_cst_0_apply,
    val_main_v12_apply, val_main_cst_1_apply, v6_at, v8_at]
  rfl

/-- The fitting kernel: negate, divide by the literal two, exponentiate, times the literal one. -/
theorem v19_at (X : Arr) (a b : Fin 8192) : val_main_v19 (F := Ideal) X (ix2 a b) = Cert.RefSpec.kfit X a b := by
  rw [val_main_v19_apply, val_main_v18_apply, val_main_cst_3_apply, val_main_v17_apply, val_main_v16_apply,
    val_main_v15_apply, val_main_cst_2_apply, val_main_v14_apply, v13_at]
  rfl

/-! ## The second Gaussian kernel (divisor 8): stages %20 … %39, the same operations again -/

theorem v21_at (X : Arr) (a : Fin 8192) : val_main_v21 (F := Ideal) X (ix1 a) = Cert.RefSpec.sq X a := by
  rw [val_main_v21_apply, val_main_cst_4_apply]
  unfold Cert.RefSpec.sq
  refine congrArg (_ + ·) (Finset.sum_congr rfl fun e _ => ?_)
  rw [val_main_v20_apply, idx_v21]
  rfl

theorem v26_at (X : Arr) (a b : Fin 8192) :
    val_main_v26 (F := Ideal) X (ix2 a b) = Cert.RefSpec.sq X a + Cert.RefSpec.sq X b := by
  rw [val_main_v26_apply, val_main_v24_apply, val_main_v25_apply, val_main_v22_apply, val_main_v23_apply,
    idx_v24, idx_v25, v21_at, v21_at]
  rfl

theorem v28_at (X : Arr) (a b : Fin 8192) : val_main_v28 (F := Ideal) X (ix2 a b) = Cert.RefSpec.gram X a b := by
  rw [val_main_v28_apply]
  unfold Cert.RefSpec.gram
  refine Finset.sum_congr rfl fun e _ => ?_
  rw [val_main_v27_apply, lidx_v28, ridx_v28]

theorem v33_at (X : Arr) (a b : Fin 8192) : val_main_v33 (F := Ideal) X (ix2 a b) = Cert.RefSpec.dist2 X a b := by
  rw [val_main_v33_apply, val_main_v31_apply, val_main_v30_apply, val_main_v29_apply, val_main_cst_5_apply,
    val_main_v32_apply, val_main_cst_6_apply, v26_at, v28_at]
  rfl

/-- The discrepancy kernel: the same with the literal eight. -/
theorem v39_at (X : Arr) (a b : Fin 8192) : val_main_v39 (F := Ideal) X (ix2 a b) = Cert.RefSpec.kmmd X a b := by
  rw [val_main_v39_apply, val_main_v38_apply, val_main_cst_8_apply, val_main_v37_apply, val_main_v36_apply,
    val_main_v35_apply, val_main_cst_7_apply, val_main_v34_apply, v33_at]
  rfl

/-! ## The kernel-matrix products and the residual: stages %40 … %43, %45, %46 -/

/-- `K_fit @ Lam`: a contraction over the 8192 rows. -/
theorem v40_at (X Lam : Arr) (a : Fin 8192) (e : Fin 16) :
    val_main_v40 (F := Ideal) X Lam (ix2 a e) = Cert.RefSpec.fitted X Lam a e := by
  rw [val_main_v40_apply]
  unfold Cert.RefSpec.fitted Cert.RefSpec.matvec
  refine Finset.sum_congr rfl fun k _ => ?_
  rw [lidx_v40, ridx_v40, v19_at]

/-- The same product, computed a second time by the reference for the regularizer. -/
theorem v45_at (X Lam : Arr) (a : Fin 8192) (e : Fin 16) :
    val_main_v45 (F := Ideal) X Lam (ix2 a e) = Cert.RefSpec.fitted X Lam a e := by
  rw [val_main_v45_apply]
  unfold Cert.RefSpec.fitted Cert.RefSpec.matvec
  refine Finset.sum_congr rfl fun k _ => ?_
  rw [lidx_v45, ridx_v45, v19_at]

/-- The residual. -/
theorem v41_at (X Y Lam : Arr) (a : Fin 8192) (e : Fin 16) :
    val_main_v41 (F := Ideal) X Y Lam (ix2 a e) = Cert.RefSpec.diff X Y Lam a e := by
  rw [val_main_v41_apply, v40_at]
  rfl

/-- `K_mmd @ diff`. -/
theorem v42_at (X Y Lam : Arr) (a : Fin 8192) (e : Fin 16) :
    val_main_v42 (F := Ideal) X Y Lam (ix2 a e) = Cert.RefSpec.smooth X Y Lam a e := by
  rw [val_main_v42_apply]
  unfold Cert.RefSpec.smooth Cert.RefSpec.matvec
  refine Finset.sum_congr rfl fun k _ => ?_
  rw [lidx_v42, ridx_v42, v39_at, v41_at]

/-! ## The two total sums and the loss: stages %44, %47, %48, %49 -/

/-- The data term: the zero literal plus the sum over all entries, as the double sum over rows and columns. -/
theorem v44_at (X Y Lam : Arr) (i : S_.Idx) :
    val_main_v44 (F := Ideal) X Y Lam i = Cert.RefSpec.lossFit X Y Lam := by
  rw [val_main_v44_apply, val_main_cst_9_apply, sum_idx2]
  unfold Cert.RefSpec.lossFit Cert.RefSpec.total
  refine congrArg (_ + ·) (Finset.sum_congr rfl fun a _ => Finset.sum_congr rfl fun e _ => ?_)
  rw [val_main_v43_apply, v41_at, v42_at]
  rfl

/-- The regularizer before its weight. -/
theorem v47_at (X Lam : Arr) (i : S_.Idx) :
    val_main_v47 (F := Ideal) X Lam i = Cert.RefSpec.lossReg X Lam := by
  rw [val_main_v47_apply, val_main_cst_10_apply, sum_idx2]
  unfold Cert.RefSpec.lossReg Cert.RefSpec.total
  refine congrArg (_ + ·) (Finset.sum_congr rfl fun a _ => Finset.sum_congr rfl fun e _ => ?_)
  rw [val_main_v46_apply, v45_at]
  rfl

/-- THE REFERENCE IS THE SPECIFICATION: the last stage of the reference, as a function of the three argument
    arrays, is the loss of RefSpec. -/
theorem result_eq (X Y Lam : FVec Ideal Cert.ReferenceIdeal.S8192x16 .f32) :
    val_main_v49 (F := Ideal) X Y Lam = Cert.RefSpec.loss X Y Lam := by
  funext i
  rw [val_main_v49_apply, val_main_v48_apply, val_main_cst_11_apply, v44_at, v47_at]
  rfl

/-! ## The reference's run and frame -/

/-- Every weakly fair execution of the reference ends with its result at the loss of its argument arrays, the
    arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v49)
          = Cert.RefSpec.loss (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run (Cert.ReferenceIdeal.defs (F := Ideal)) _ _).mono
    (fun _ h c => ⟨((h c).1.trans (val_main_v49_eq m c)).trans (result_eq _ _ _), (h c).2⟩)
    (Cert.ReferenceIdeal.Value.run (F := Ideal) m ρ)

/-- The reference terminates, faults nowhere and leaves its arguments unchanged: its run with the result dropped.
    The precondition is not used. -/
theorem frame : Cert.frame_ReferenceIdeal := fun m ρ _ =>
  (θ_run (Cert.ReferenceIdeal.defs (F := Ideal)) _ _).mono (fun _ h c => (h c).2)
    (Cert.ReferenceIdeal.Value.run (F := Ideal) m ρ)

end Cert.RefValue

end
-- ==== Proof.lean ====
/-
  The three frames, the idealization's ledger (empty) and the equality of the two results over the extended reals.

  The kernel program computes  sum(diff · (K₂ diff)) + 0.01 · sum(Lam · (K₁ Lam))  with  diff = K₁ Lam − Y  and
  K_l(a, b) = exp(max(|x_a|² + |x_b|² − 2⟨x_a, x_b⟩, 0) · c_l),  each product K_l P by a 4 × 8 grid of tiles: for a block of 2048
  rows the contributions of the 8 blocks of 1024 columns are added one after the other into an accumulator that starts at zero and
  is copied out after the last one. The reference forms the two 8192 × 8192 matrices whole and writes c_l as a negation followed by
  a division by 2 resp. 8. Over the extended reals the two agree: the blocked sum is the whole sum (addition is associative and
  commutative there), and −d / 2 = d · (−1/2), −d / 8 = d · (−1/8) for every extended real d. No finiteness of the inputs is used.

  Both kernel programs run as four segments (call, host operations, call, host operations); every buffer that outlives the
  calls ends at the contents the segments' fold computes, which gives the frames and, at the exact instance, the result.
-/
import proofs.«119457_j37203006718368_1_alg».proof.Defs
import proofs.«119457_j37203006718368_1_alg».proof.Proof.Gen.Kernel
import proofs.«119457_j37203006718368_1_alg».proof.Proof.Gen.KernelIdeal
import proofs.«119457_j37203006718368_1_alg».proof.Proof.Gen.ReferenceIdeal
import proofs.«119457_j37203006718368_1_alg».proof.Proof.Gen.Pre_finite_inputs
import proofs.«119457_j37203006718368_1_alg».proof.Proof.RunI
import proofs.«119457_j37203006718368_1_alg».proof.Proof.RunK
import proofs.«119457_j37203006718368_1_alg».proof.Proof.TailI
import proofs.«119457_j37203006718368_1_alg».proof.Proof.TailK
import proofs.«119457_j37203006718368_1_alg».proof.Proof.LossI
import proofs.«119457_j37203006718368_1_alg».proof.Proof.ValI0
import proofs.«119457_j37203006718368_1_alg».proof.Proof.ValI1
import proofs.«119457_j37203006718368_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments as launched: each is an unscoped buffer no segment writes. -/
theorem frame_k : Cert.frame_Kernel := fun m ρ _ =>
  (θ_run (Cert.Kernel.defs (F := Bits)) _ _).mono (fun _ h c =>
    ⟨(h c _ (Cert.Kernel.Run.mem_uc Cert.Kernel.main_arg0 (by decide))).trans (Cert.Kernel.Tail.W4_arg0 m c),
     (h c _ (Cert.Kernel.Run.mem_uc Cert.Kernel.main_arg1 (by decide))).trans (Cert.Kernel.Tail.W4_arg1 m c),
     (h c _ (Cert.Kernel.Run.mem_uc Cert.Kernel.main_arg2 (by decide))).trans (Cert.Kernel.Tail.W4_arg2 m c)⟩)
    (Cert.Kernel.Run.run_all m ρ)

/-- The same for the idealized kernel program. -/
theorem frame_ki : Cert.frame_KernelIdeal := fun m ρ _ =>
  (θ_run (Cert.KernelIdeal.defs (F := Ideal)) _ _).mono (fun _ h c =>
    ⟨(h c _ (Cert.KernelIdeal.Run.mem_uc Cert.KernelIdeal.main_arg0 (by decide))).trans (Cert.KernelIdeal.Tail.W4_arg0 m c),
     (h c _ (Cert.KernelIdeal.Run.mem_uc Cert.KernelIdeal.main_arg1 (by decide))).trans (Cert.KernelIdeal.Tail.W4_arg1 m c),
     (h c _ (Cert.KernelIdeal.Run.mem_uc Cert.KernelIdeal.main_arg2 (by decide))).trans (Cert.KernelIdeal.Tail.W4_arg2 m c)⟩)
    (Cert.KernelIdeal.Run.run_all m ρ)

/-- The idealization rewrote nothing. -/
theorem preserves : Cert.preserves_Kernel_KernelIdeal := trivial

/-- Both idealized programs end with the same extended real: the reference's loss of the three arguments. -/
theorem algebraic : Cert.algebraic_KernelIdeal_ReferenceIdeal := by
  intro m ρ m' ρ' _ hagree
  refine ⟨fun c => Cert.RefSpec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun _ h c => ⟨?_,
      (h c _ (Cert.KernelIdeal.Run.mem_uc Cert.KernelIdeal.main_arg0 (by decide))).trans (Cert.KernelIdeal.Tail.W4_arg0 m c),
      (h c _ (Cert.KernelIdeal.Run.mem_uc Cert.KernelIdeal.main_arg1 (by decide))).trans (Cert.KernelIdeal.Tail.W4_arg1 m c),
      (h c _ (Cert.KernelIdeal.Run.mem_uc Cert.KernelIdeal.main_arg2 (by decide))).trans (Cert.KernelIdeal.Tail.W4_arg2 m c)⟩)
      (Cert.KernelIdeal.Run.run_all m ρ)
    refine (h c _ (Cert.KernelIdeal.Run.mem_uc Cert.KernelIdeal.main_v8 (by decide))).trans ?_
    exact Cert.KernelIdeal.Loss.loss_eq m c (Cert.KernelIdeal.Val.out0_eq _ c) (Cert.KernelIdeal.Val.out1_eq _ c)
  · exact (θ_run (Cert.ReferenceIdeal.defs (F := Ideal)) _ _).mono
      (fun _ h c => ⟨by rw [(h c).1, (hagree c).1, (hagree c).2.1, (hagree c).2.2], (h c).2⟩) (Cert.RefValue.run m' ρ')

theorem claim : Cert.Claim :=
  ⟨Cert.Kernel.Gen.facts, Cert.KernelIdeal.Gen.facts, Cert.ReferenceIdeal.Gen.facts, Cert.Pre_finite_inputs.Gen.facts,
    frame_k, frame_ki, Cert.RefValue.frame, preserves, algebraic⟩

end Cert.Proof

end
